-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200x128 : Shape := ⟨3, ![1024, 200, 128]⟩
abbrev S200x128 : Shape := ⟨2, ![200, 128]⟩
abbrev S_ : Shape := ⟨0, ![]⟩

class Facts : Prop where
  bcast_S_S1024x200x128 : S_.BroadcastsInDim S1024x200x128 (![] : Fin 0 → Fin S1024x200x128.rank)
  reducesTo_S1024x200x128_S_d0_1_2 : S1024x200x128.ReducesTo [0, 1, 2] S_
  h_S_ : 0 < S_.numel
  bcast_S_S200x128 : S_.BroadcastsInDim S200x128 (![] : Fin 0 → Fin S200x128.rank)
  reducesTo_S200x128_S_d0_1 : S200x128.ReducesTo [0, 1] S_

variable [Facts]

def fn {F : FTy → Type} [FloatOps F] (main_arg0 : FVec F S1024x200x128 .f32) (main_arg1 : FVec F S200x128 .f32) : IVec S_ 1 :=
  let main_v0 : FVec F S1024x200x128 .f32 := Host.absf main_arg0
  let main_cst : FVec F S_ .f32 := constant S_ .f32 0x7F800000#32
  let main_v1 : FVec F S1024x200x128 .f32 := broadcastInDim S1024x200x128 ![] bcast_S_S1024x200x128 main_cst
  let main_v2 : IVec S1024x200x128 1 := cmpf .olt main_v0 main_v1
  let main_c : IVec S_ 1 := constantI S_ 1 1#1
  let main_v3 : IVec S_ 1 := (fun x v => Host.reduce IntOp.andi x v reducesTo_S1024x200x128_S_d0_1_2 h_S_) main_v2 main_c
  let main_v4 : FVec F S200x128 .f32 := Host.absf main_arg1
  let main_cst_0 : FVec F S_ .f32 := constant S_ .f32 0x7F800000#32
  let main_v5 : FVec F S200x128 .f32 := broadcastInDim S200x128 ![] bcast_S_S200x128 main_cst_0
  let main_v6 : IVec S200x128 1 := cmpf .olt main_v4 main_v5
  let main_c_1 : IVec S_ 1 := constantI S_ 1 1#1
  let main_v7 : IVec S_ 1 := (fun x v => Host.reduce IntOp.andi x v reducesTo_S200x128_S_d0_1 h_S_) main_v6 main_c_1
  let main_v8 : IVec S_ 1 := andi main_v3 main_v7
  main_v8
-- ==== Kernel.lean ====
abbrev S1024x200x128 : Shape := ⟨3, ![1024, 200, 128]⟩
abbrev S200x128 : Shape := ⟨2, ![200, 128]⟩
abbrev S200 : Shape := ⟨1, ![200]⟩
abbrev S96 : Shape := ⟨1, ![96]⟩
abbrev S104 : Shape := ⟨1, ![104]⟩
abbrev S96x128 : Shape := ⟨2, ![96, 128]⟩
abbrev S104x128 : Shape := ⟨2, ![104, 128]⟩
abbrev S_ : Shape := ⟨0, ![]⟩
abbrev S128x200x128 : Shape := ⟨3, ![128, 200, 128]⟩
abbrev S1x200x128 : Shape := ⟨3, ![1, 200, 128]⟩

abbrev nBuf : Table → Nat
  | .hbm => 5
  | .local .tc .vmem => 5
  | .local .scVector .vmem => 4
  | _ => 0

abbrev bufTy : (tb : Table) → Fin (nBuf tb) → BufTy
  | .hbm, ⟨0, _⟩ => ⟨S1024x200x128, .f32⟩
  | .hbm, ⟨1, _⟩ => ⟨S200x128, .f32⟩
  | .hbm, ⟨2, _⟩ => ⟨S200, .i32⟩
  | .hbm, ⟨3, _⟩ => ⟨S200x128, .f32⟩
  | .hbm, ⟨4, _⟩ => ⟨S1024x200x128, .f32⟩
  | .local .tc .vmem, ⟨0, _⟩ => ⟨S128x200x128, .f32⟩
  | .local .tc .vmem, ⟨1, _⟩ => ⟨S128x200x128, .f32⟩
  | .local .tc .vmem, ⟨2, _⟩ => ⟨S200x128, .f32⟩
  | .local .tc .vmem, ⟨3, _⟩ => ⟨S128x200x128, .f32⟩
  | .local .tc .vmem, ⟨4, _⟩ => ⟨S128x200x128, .f32⟩
  | .local .scVector .vmem, ⟨0, _⟩ => ⟨S96, .i32⟩
  | .local .scVector .vmem, ⟨1, _⟩ => ⟨S104, .i32⟩
  | .local .scVector .vmem, ⟨2, _⟩ => ⟨S96x128, .f32⟩
  | .local .scVector .vmem, ⟨3, _⟩ => ⟨S104x128, .f32⟩
  | _, _ => ⟨S1024x200x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_arg1_scv : Ref sig .scVector := ⟨.hbm, 1, rfl⟩
abbrev main_c_scv : Ref sig .scVector := ⟨.hbm, 2, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S200x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S200_S96_0 : ∀ a, (![0] : Fin 1 → Nat) a + S96.size a ≤ S200.size a
  inb_S200x128_S200x128_0_0 : ∀ a, (![0, 0] : Fin 2 → Nat) a + S200x128.size a ≤ S200x128.size a
  gathers_S200x128_S96x128 : S200x128.Gathers 0 S96x128
  inb_S200x128_S96x128_0_0 : ∀ a, (![0, 0] : Fin 2 → Nat) a + S96x128.size a ≤ S200x128.size a
  inb_S200_S104_96 : ∀ a, (![96] : Fin 1 → Nat) a + S104.size a ≤ S200.size a
  gathers_S200x128_S104x128 : S200x128.Gathers 0 S104x128
  inb_S200x128_S104x128_96_0 : ∀ a, (![96, 0] : Fin 2 → Nat) a + S104x128.size a ≤ S200x128.size a
  inb_S128x200x128_S128x200x128_0_0_0 : ∀ a, (![0, 0, 0] : Fin 3 → Nat) a + S128x200x128.size a ≤ S128x200x128.size a
  h_S128x200x128 : 0 < S128x200x128.numel
  h_S200x128 : 0 < S200x128.numel
  shapeCasts_S200x128_S200x128 : S200x128.ShapeCasts S200x128
  shapeCasts_S200x128_S1x200x128 : S200x128.ShapeCasts S1x200x128
  broadcasts_S1x200x128_S128x200x128 : S1x200x128.Broadcasts S128x200x128
  hcc0_scratch4 : 0 + S_.numel ≤ 11
  hcc0_scratch5 : 1 + S_.numel ≤ 11
  hcc0_scoped0 : 2 + S_.numel ≤ 11
  hcc0_scoped1 : 3 + S_.numel ≤ 11
  hcc0_scoped2 : 4 + S_.numel ≤ 11
  hcc0_scoped3 : 5 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x200x128.size a ≤ S1024x200x128.size a
  hwx1_0 : ∀ i : grid1.Coords, EltTy.bits .f32 = 32 ∨ (Rect.block (s := S1024x200x128) S128x200x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x128.size a ≤ S200x128.size a
  hwx1_1 : ∀ i : grid1.Coords, EltTy.bits .f32 = 32 ∨ (Rect.block (s := S200x128) S200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x200x128.size a ≤ S1024x200x128.size a
  hwx1_2 : ∀ i : grid1.Coords, EltTy.bits .f32 = 32 ∨ (Rect.block (s := S1024x200x128) S128x200x128.size (cc1_transform_2 i) (hinb1_2 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3

abbrev win1_0 : Pipeline.Window sig grid1 :=
  Pipeline.Window.ofSpec (Memref.whole main_arg0) S128x200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S200x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x200x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x200x128 : Shape := ⟨3, ![1024, 200, 128]⟩
abbrev S200x128 : Shape := ⟨2, ![200, 128]⟩
abbrev S200 : Shape := ⟨1, ![200]⟩
abbrev S_ : Shape := ⟨0, ![]⟩
abbrev S200x1 : Shape := ⟨2, ![200, 1]⟩
abbrev S1 : Shape := ⟨1, ![1]⟩
abbrev S1x1 : Shape := ⟨2, ![1, 1]⟩
abbrev S1x200x128 : Shape := ⟨3, ![1, 200, 128]⟩

abbrev nBuf : Space → Nat
  | .hbm => 29
  | .vmem => 0
  | .smem => 0
  | _ => 0

abbrev bufTy : (tb : Table) → Fin (tcTables nBuf tb) → BufTy
  | .hbm, ⟨0, _⟩ => ⟨S1024x200x128, .f32⟩
  | .hbm, ⟨1, _⟩ => ⟨S200x128, .f32⟩
  | .hbm, ⟨2, _⟩ => ⟨S200, .i32⟩
  | .hbm, ⟨3, _⟩ => ⟨S_, .i32⟩
  | .hbm, ⟨4, _⟩ => ⟨S200, .i32⟩
  | .hbm, ⟨5, _⟩ => ⟨S200, .i1⟩
  | .hbm, ⟨6, _⟩ => ⟨S_, .i32⟩
  | .hbm, ⟨7, _⟩ => ⟨S200, .i32⟩
  | .hbm, ⟨8, _⟩ => ⟨S200, .i32⟩
  | .hbm, ⟨9, _⟩ => ⟨S200, .i32⟩
  | .hbm, ⟨10, _⟩ => ⟨S200x1, .i32⟩
  | .hbm, ⟨11, _⟩ => ⟨S1, .i32⟩
  | .hbm, ⟨12, _⟩ => ⟨S_, .i32⟩
  | .hbm, ⟨13, _⟩ => ⟨S200x1, .i32⟩
  | .hbm, ⟨14, _⟩ => ⟨S200x1, .i1⟩
  | .hbm, ⟨15, _⟩ => ⟨S1x1, .i32⟩
  | .hbm, ⟨16, _⟩ => ⟨S200x1, .i32⟩
  | .hbm, ⟨17, _⟩ => ⟨S200x1, .i1⟩
  | .hbm, ⟨18, _⟩ => ⟨S200x1, .i1⟩
  | .hbm, ⟨19, _⟩ => ⟨S_, .i1⟩
  | .hbm, ⟨20, _⟩ => ⟨S200, .i1⟩
  | .hbm, ⟨21, _⟩ => ⟨S200x128, .f32⟩
  | .hbm, ⟨22, _⟩ => ⟨S200x128, .i1⟩
  | .hbm, ⟨23, _⟩ => ⟨S_, .f32⟩
  | .hbm, ⟨24, _⟩ => ⟨S200x128, .f32⟩
  | .hbm, ⟨25, _⟩ => ⟨S200x128, .f32⟩
  | .hbm, ⟨26, _⟩ => ⟨S1x200x128, .f32⟩
  | .hbm, ⟨27, _⟩ => ⟨S1024x200x128, .f32⟩
  | .hbm, ⟨28, _⟩ => ⟨S1024x200x128, .f32⟩
  | _, _ => ⟨S1024x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S_S200 : S_.BroadcastsInDim S200 (![] : Fin 0 → Fin S200.rank)
  bcast_S200_S200x1_0 : S200.BroadcastsInDim S200x1 (![0] : Fin 1 → Fin S200x1.rank)
  bcast_S_S200x1 : S_.BroadcastsInDim S200x1 (![] : Fin 0 → Fin S200x1.rank)
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  reducesTo_S200x1_S200_d1 : S200x1.ReducesTo [1] S200
  h_S_ : 0 < S_.numel
  bcast_S200_S200x128_0 : S200.BroadcastsInDim S200x128 (![0] : Fin 1 → Fin S200x128.rank)
  bcast_S_S200x128 : S_.BroadcastsInDim S200x128 (![] : Fin 0 → Fin S200x128.rank)
  bcast_S200x128_S1x200x128_1_2 : S200x128.BroadcastsInDim S1x200x128 (![1, 2] : Fin 2 → Fin S1x200x128.rank)
  bcast_S1x200x128_S1024x200x128_0_1_2 : S1x200x128.BroadcastsInDim S1024x200x128 (![0, 1, 2] : Fin 3 → Fin S1024x200x128.rank)
  gather_S200x128_S200x1_S200x128_1_0_n_n_0_1_1128_wf : GatherDims.WF S200x128 S200x1 S200x128 [1] [0] [] [0] [] 1 ![1, 128]

variable [Facts₀]

def gather_S200x128_S200x1_S200x128_1_0_n_n_0_1_1128 : GatherDims S200x128 S200x1 S200x128 where
  offsetDims := [1]
  collapsedSliceDims := [0]
  operandBatchingDims := []
  startIndicesBatchingDims := []
  startIndexMap := [0]
  indexVectorDim := 1
  sliceSizes := ![1, 128]
  wf := gather_S200x128_S200x1_S200x128_1_0_n_n_0_1_1128_wf

class Facts : Prop extends Facts₀ where

variable [Facts]
-- ==== Proof.ScCommon.lean ====
/-
  The SparseCore program as its launch sees it, and what each handshake carries.

  One call runs on both SparseCores; on each only vector subcore 0 works. Subcore 0 of SparseCore 0 fetches the
  first 96 position numbers, gathers those rows of the table and writes them to rows 0..95 of the gathered array;
  subcore 0 of SparseCore 1 does the same for the remaining 104 rows. The position numbers are 0, 1, …, 199 in
  order, so row `l` of the gathered array is row `l` of the table. Each working subcore is handed half a share of
  the table (both read all of it), its own rows of the position numbers and its own rows of the gathered array, and
  hands them back, the latter holding the table's rows.
-/
import proofs.«202774_g12489764896814_cont_fleet_578_23_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202774_g12489764896814_cont_fleet_578_23_alg».proof.Proof.Gen.Kernel
import proofs.«202774_g12489764896814_cont_fleet_578_23_alg».proof.Proof.Gen.Kernel.Skeleton
import proofs.«202774_g12489764896814_cont_fleet_578_23_alg».proof.Proof.Gen.Kernel.Launch
import proofs.«202774_g12489764896814_cont_fleet_578_23_alg».proof.Proof.Gen.Kernel.Points

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the buffers -/

variable (m : (ℓ : Loc nD τ sig) → Buf (Elt F) ℓ) (ρ : Dev nD → PrngReg)

abbrev xLoc (d : Dev nD) : Loc nD τ sig := (SparseCore.T d).loc main_arg0
abbrev peLoc (d : Dev nD) : Loc nD τ sig := (SparseCore.T d).loc main_arg1
abbrev cLoc (d : Dev nD) : Loc nD τ sig := (SparseCore.T d).loc main_c
abbrev oLoc (d : Dev nD) : Loc nD τ sig := (SparseCore.T d).loc main_v0
abbrev rLoc (d : Dev nD) : Loc nD τ sig := (SparseCore.T d).loc main_v1

local notation "peW" => (Memref.whole Cert.Kernel.main_arg1_scv : Memref Cert.Kernel.sig Kind.scVector Space.hbm Cert.Kernel.S200x128 EltTy.f32)
local notation "cW" => (Memref.whole Cert.Kernel.main_c_scv : Memref Cert.Kernel.sig Kind.scVector Space.hbm Cert.Kernel.S200 EltTy.i32)
local notation "oW" => (Memref.whole Cert.Kernel.main_v0_scv : Memref Cert.Kernel.sig Kind.scVector Space.hbm Cert.Kernel.S200x128 EltTy.f32)

/-- The position numbers' first 96 and last 104, the gathered array's first 96 rows and last 104, and all of the
    table, as the tasks slice them. -/
abbrev cA : Memref sig .scVector .hbm S96 .i32 := (cW).slice (Rect.unit (s := S200) ![0] S96.size Facts₀.inb_S200_S96_0) (fun _ => rfl)
abbrev cB : Memref sig .scVector .hbm S104 .i32 := (cW).slice (Rect.unit (s := S200) ![96] S104.size Facts₀.inb_S200_S104_96) (fun _ => rfl)
abbrev oA : Memref sig .scVector .hbm S96x128 .f32 := (oW).slice (Rect.unit (s := S200x128) ![0, 0] S96x128.size Facts₀.inb_S200x128_S96x128_0_0) (fun _ => rfl)
abbrev oB : Memref sig .scVector .hbm S104x128 .f32 := (oW).slice (Rect.unit (s := S200x128) ![96, 0] S104x128.size Facts₀.inb_S200x128_S104x128_96_0) (fun _ => rfl)
abbrev peAll : Memref sig .scVector .hbm S200x128 .f32 := (peW).slice (Rect.unit (s := S200x128) ![0, 0] S200x128.size Facts₀.inb_S200x128_S200x128_0_0) (fun _ => rfl)

/-- The position numbers as @main's constant writes them: `l` at position `l`. -/
def cval (d : Dev nD) : Buf (Elt F) (cLoc d) := fun i => lit0 (S200.rowMajor i)

/-- The table's launch contents, as contents of the gathered array (the two have one shape and type). -/
def peAsO (d : Dev nD) : Buf (Elt F) (oLoc d) := m (peLoc d)

variable [FloatOps F]

/-! ## What the handshakes carry -/

/-- What the call hands SparseCore `c` (and its subcore 0) and takes back, the gathered array's rows at `f`. -/
def forCore (d : Dev nD) (c : ℕ) (f : Buf (Elt F) (oLoc d)) : sProp 𝕄 :=
  if c = 0 then iprop((peLoc d ↦{fullShare.left} m (peLoc d)) ∗ (cLoc d ↦[(cA).view.set]{fullShare} cval d) ∗ (oLoc d ↦[(oA).view.set]{fullShare} f))
  else iprop((peLoc d ↦{fullShare.right} m (peLoc d)) ∗ (cLoc d ↦[(cB).view.set]{fullShare} cval d) ∗ (oLoc d ↦[(oB).view.set]{fullShare} f))

theorem forCore_zero (d : Dev nD) (f : Buf (Elt F) (oLoc d)) :
    forCore m d 0 f = iprop((peLoc d ↦{fullShare.left} m (peLoc d)) ∗ (cLoc d ↦[(cA).view.set]{fullShare} cval d) ∗ (oLoc d ↦[(oA).view.set]{fullShare} f)) := if_pos rfl
theorem forCore_one (d : Dev nD) (f : Buf (Elt F) (oLoc d)) :
    forCore m d 1 f = iprop((peLoc d ↦{fullShare.right} m (peLoc d)) ∗ (cLoc d ↦[(cB).view.set]{fullShare} cval d) ∗ (oLoc d ↦[(oB).view.set]{fullShare} f)) := if_neg Nat.one_ne_zero

instance forCore_storable (d : Dev nD) (c : ℕ) (f : Buf (Elt F) (oLoc d)) : BI.Storable (upEmb : UEmb _ 𝕄) (forCore m d c f) := by
  unfold forCore; split <;> infer_instance

/-- What a task is handed: subcore 0 its SparseCore's, the others nothing. -/
def forTile (d : Dev nD) (c i : ℕ) (f : Buf (Elt F) (oLoc d)) : sProp 𝕄 := if i = 0 then forCore m d c f else iprop(emp)

theorem forTile_zero (d : Dev nD) (c : ℕ) (f : Buf (Elt F) (oLoc d)) : forTile m d c 0 f = forCore m d c f := if_pos rfl
theorem forTile_pos (d : Dev nD) (c i : ℕ) (h : i ≠ 0) (f : Buf (Elt F) (oLoc d)) : forTile m d c i f = iprop(emp) := if_neg h

instance forTile_storable (d : Dev nD) (c i : ℕ) (f : Buf (Elt F) (oLoc d)) : BI.Storable (upEmb : UEmb _ 𝕄) (forTile m d c i f) := by
  unfold forTile; split <;> infer_instance

def P : (K (F := F)).Pay (nD := nD) (Val := Elt F) (Name := ℕ) (U := UU) where
  st := fun _ d c => forCore m d c.val (m (oLoc d))
  dn := fun _ d c => forCore m d c.val (peAsO m d)
  go := fun _ d c i => forTile m d c.val i.val (m (oLoc d))
  td := fun _ d c i => forTile m d c.val i.val (peAsO m d)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Kernel.Sc

end
-- ==== Proof.ScTile.lean ====
/-
  One vector subcore's task, at each of the three kinds of place.

  A subcore's number is twice its index within its SparseCore plus the SparseCore's index. Number 0 copies the first
  96 position numbers into its list buffer, gathers the table's rows they name into its row buffer and copies the row
  buffer to rows 0..95 of the gathered array; number 1 does the same for the last 104; every other number does
  nothing. The position numbers are all below 200, so every gathered row exists.
-/
import proofs.«202774_g12489764896814_cont_fleet_578_23_alg».proof.Proof.ScCommon

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "peW" => (Memref.whole Cert.Kernel.main_arg1_scv : Memref Cert.Kernel.sig Kind.scVector Space.hbm Cert.Kernel.S200x128 EltTy.f32)
local notation "cW" => (Memref.whole Cert.Kernel.main_c_scv : Memref Cert.Kernel.sig Kind.scVector Space.hbm Cert.Kernel.S200 EltTy.i32)
local notation "oW" => (Memref.whole Cert.Kernel.main_v0_scv : Memref Cert.Kernel.sig Kind.scVector Space.hbm Cert.Kernel.S200x128 EltTy.f32)
local notation "sIa" => (Memref.whole Cert.Kernel.cc0_scratch0 : Memref Cert.Kernel.sig Kind.scVector Space.vmem Cert.Kernel.S96 EltTy.i32)
local notation "sIb" => (Memref.whole Cert.Kernel.cc0_scratch1 : Memref Cert.Kernel.sig Kind.scVector Space.vmem Cert.Kernel.S104 EltTy.i32)
local notation "sRa" => (Memref.whole Cert.Kernel.cc0_scratch2 : Memref Cert.Kernel.sig Kind.scVector Space.vmem Cert.Kernel.S96x128 EltTy.f32)
local notation "sRb" => (Memref.whole Cert.Kernel.cc0_scratch3 : Memref Cert.Kernel.sig Kind.scVector Space.vmem Cert.Kernel.S104x128 EltTy.f32)

variable [FloatOps F]

section Tile

variable (d : Dev nD) (L : grid0.Coords)

abbrev cV (L : grid0.Coords) : Fin τ.nSC := (L 0).castLE Facts₀.hcore0
abbrev jV (L : grid0.Coords) : Fin τ.nSub := (L 1).castLE Facts₀.hsub0

/-- The two conditions of the body: the subcore's number is 0; it is 1. -/
abbrev isZero (L : grid0.Coords) : BitVec 1 :=
  Scalar.cmpi .ne (Scalar.extui (Scalar.cmpi .eq (Scalar.addi (Scalar.muli (BitVec.ofNat 32 (L 1).val) 2#32) (BitVec.ofNat 32 (L 0).val)) 0#32)) 0#32
abbrev isOne (L : grid0.Coords) : BitVec 1 :=
  Scalar.cmpi .ne (Scalar.extui (Scalar.cmpi .eq (Scalar.addi (Scalar.muli (BitVec.ofNat 32 (L 1).val) 2#32) (BitVec.ofNat 32 (L 0).val)) 1#32)) 0#32

def coordsV (c : Fin (grid0.bound 0)) (s : Fin (grid0.bound 1)) : grid0.Coords :=
  fun | 0 => c | 1 => s | ⟨_ + 2, h⟩ => absurd h (Nat.not_lt.2 (Nat.le_add_left _ _))

/-- The subcore's six DMA cells in use. -/
abbrev cell (d : Dev nD) (c : Fin τ.nSC) (i : Fin τ.nSub) (s : DmaSem sig) : GSem nD τ sig := (V d c i, .dma s)

/-- A subcore that is neither number 0 nor number 1 does nothing. -/
theorem tile_idle (O : CellTallies nD τ sig (HIx 1)) (W : Waits sig (HIx 1)) (k0_h1 : ¬ isZero L = 1#1) (k0_h2 : ¬ isOne L = 1#1)
    (G G' : sProp 𝕄) (hG : G ⊢ G') :
    iprop(levAts (K (F := F)).L (K (F := F)).lev ∗ emp ∗ G
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L peW (Memref.isWhole_whole _) cW (Memref.isWhole_whole _) oW (Memref.isWhole_whole _)
            sIa (Memref.isWhole_whole _) sIb (Memref.isWhole_whole _) sRa (Memref.isWhole_whole _) sRb (Memref.isWhole_whole _)
            cc0_scratch4 cc0_scratch5 cc0_scoped0 cc0_scoped1 cc0_scoped2 cc0_scoped3)
          fun _ => iprop(G' ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  iintro ⟨-, -, HG, Hsb, Hss, HO⟩
  sl_exec
  sl_step
  isplitl [HG]; · iapply hG; iexact HG
  isplitl [Hsb]; · iexact Hsb
  isplitl [Hss]; · iexact Hss
  iexists W; isplitr
  · ipureintro; exact fun p hp => .inl hp
  · iexact HO

omit [FloatOps F] in
/-- Held on all of its elements is held, when the element set is all of them. -/
theorem pts_univ_set {ℓ : Loc nD τ sig} {q : PosShare TreeShare} (f : Buf (Elt F) ℓ) (s : Finset (Idx ℓ)) (h : s = Finset.univ) :
    (ℓ ↦{q} f : sProp 𝕄) = (ℓ ↦[s]{q} f) := by subst h; rfl

omit [FloatOps F] in
/-- Three of a vector subcore's DMA cells apart from the rest of its own. -/
theorem ownSems0_peel (c : Fin τ.nSC) (i : Fin τ.nSub) (s1 s2 s3 : DmaSem sig) (h12 : s2 ≠ s1) (h13 : s3 ≠ s1) (h23 : s3 ≠ s2)
    (hs1 : (SemLoc.dma s1 : SemLoc sig).isScoped .scVector = true) (hs2 : (SemLoc.dma s2 : SemLoc sig).isScoped .scVector = true)
    (hs3 : (SemLoc.dma s3 : SemLoc sig).isScoped .scVector = true) :
    (ownSems0 (V d c i) : sProp 𝕄)
      = iprop(semVal (cell d c i s1) 0 ∗ semVal (cell d c i s2) 0 ∗ semVal (cell d c i s3) 0
          ∗ bigSep ((((ownCells (V d c i)).erase (cell d c i s1)).erase (cell d c i s2)).erase (cell d c i s3)) fun g => semVal g 0) := by
  have n12 : cell d c i s2 ≠ cell d c i s1 := fun e => h12 (SemLoc.dma.inj (Prod.mk.inj e).2)
  have n13 : cell d c i s3 ≠ cell d c i s1 := fun e => h13 (SemLoc.dma.inj (Prod.mk.inj e).2)
  have n23 : cell d c i s3 ≠ cell d c i s2 := fun e => h23 (SemLoc.dma.inj (Prod.mk.inj e).2)
  unfold SparseCore.Cfg.ownSems0
  rw [SparseCore.bigSep_erase' ((mem_ownCells (g := cell d c i s1)).mpr ⟨rfl, hs1⟩),
    SparseCore.bigSep_erase' (Finset.mem_erase.mpr ⟨n12, (mem_ownCells (g := cell d c i s2)).mpr ⟨rfl, hs2⟩⟩),
    SparseCore.bigSep_erase' (Finset.mem_erase.mpr ⟨n23, Finset.mem_erase.mpr ⟨n13, (mem_ownCells (g := cell d c i s3)).mpr ⟨rfl, hs3⟩⟩⟩)]

omit [FloatOps F] in
/-- Two of a vector subcore's own buffers, at some contents, apart from the rest. -/
theorem ownBufs_A (c : Fin τ.nSC) (i : Fin τ.nSub) :
    (ownBufs (V d c i) : sProp 𝕄)
      = iprop((∃ f, (V d c i).loc cc0_scratch0 ↦{fullShare} f) ∗ (∃ f, (V d c i).loc cc0_scratch2 ↦{fullShare} f)
          ∗ bigSep (((ownRefs (τ := τ) (.scVector c i)).erase ((Proc.scVector c i).devRef cc0_scratch0)).erase ((Proc.scVector c i).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch2 : Ref sig .scVector) ≠ cc0_scratch0 by decide),
    SparseCore.Cfg.mem_ownRefs_of_owner (p := Proc.scVector c i) (b := (Proc.scVector c i).devRef cc0_scratch2) rfl⟩)]

omit [FloatOps F] in
/-- Two of a vector subcore's own buffers, at some contents, apart from the rest. -/
theorem ownBufs_B (c : Fin τ.nSC) (i : Fin τ.nSub) :
    (ownBufs (V d c i) : sProp 𝕄)
      = iprop((∃ f, (V d c i).loc cc0_scratch1 ↦{fullShare} f) ∗ (∃ f, (V d c i).loc cc0_scratch3 ↦{fullShare} f)
          ∗ bigSep (((ownRefs (τ := τ) (.scVector c i)).erase ((Proc.scVector c i).devRef cc0_scratch1)).erase ((Proc.scVector c i).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch1) rfl)).trans ?_
  rw [SparseCore.bigSep_erase' (Finset.mem_erase.mpr ⟨fun e => absurd (Proc.devRef_injective _ e) (show (cc0_scratch3 : Ref sig .scVector) ≠ cc0_scratch1 by decide),
    SparseCore.Cfg.mem_ownRefs_of_owner (p := Proc.scVector c i) (b := (Proc.scVector c i).devRef cc0_scratch3) rfl⟩)]

/-- The place of subcore 0 of SparseCore 0. -/
abbrev LA : grid0.Coords := coordsV ⟨0, by decide⟩ ⟨0, by decide⟩

omit [FloatOps F] in
/-- Every position number is below the table's row count, whatever the list buffer held before the fetch. -/
theorem inb_A (fs : Buf (Elt F) ((V d (cV LA) (jV LA)).loc cc0_scratch0)) (pay : S96.Idx → Elt F .i32)
    (hpay : pay = (cA).view.read (Elt F) (cval (F := F) d)) :
    ∀ x, ((sIa).view.read (Elt F) (View.write (Elt F) (sIa).view fs pay Finset.univ) x).toNat < S200x128.size (Facts₀.gathers_S200x128_S96x128).axis := by
  subst hpay; intro x
  rw [View.write_whole_univ]
  simp only [Memref.view_whole, View.read_whole]
  rw [show ∀ j, (cA).view.read (Elt F) (cval (F := F) d) j = cval (F := F) d ((cA).view.emb j) from fun j => (View.read_apply _ _).trans (cast_eq _ _)]
  exact (by decide : ∀ k : Fin 200, (lit0 k).toNat < 200) _

/-- What the three copies leave on the subcore's rows of the gathered array: the table's rows. -/
def ValA : Prop :=
  ∀ (fi : Buf (Elt F) ((sIa).view.loc (V d (cV LA) (jV LA)))) (fr : Buf (Elt F) ((sRa).view.loc (V d (cV LA) (jV LA))))
    (hn : S96.numel = S96x128.size (Facts₀.gathers_S200x128_S96x128).axis')
    (hin : ∀ x, ((sIa).view.read (Elt F) (View.write (Elt F) (sIa).view fi (View.read (Elt F) (cA).view (cval (F := F) d)) Finset.univ) x).toNat
      < S200x128.size (Facts₀.gathers_S200x128_S96x128).axis),
    ∀ i ∈ (oA).view.set,
      (oA).view.writes (Elt F) (m (oLoc d)) [⟨Rect.whole S96x128, (sRa).view.read (Elt F) (View.write (Elt F) (sRa).view fr
          (SparseCore.gatherPayload Facts₀.gathers_S200x128_S96x128 (View.read (Elt F) (peAll).view (m (peLoc d)))
            (SparseCore.rows (View.read (Elt F) (sIa).view (View.write (Elt F) (sIa).view fi (View.read (Elt F) (cA).view (cval (F := F) d)) Finset.univ)) hn hin))
          Finset.univ)⟩] i
        = peAsO m d i

set_option maxHeartbeats 4000000 in
theorem tile_bodyA (hF : (K (F := F)).Facts) (O : CellTallies nD τ sig (HIx 1)) (W : Waits sig (HIx 1)) (hO : ∀ g, O g none = 0)
    (hval : ValA (F := F) m d) :
    iprop(levAts (K (F := F)).L (K (F := F)).lev ∗ emp ∗ forCore m d 0 (m (oLoc d))
        ∗ scopedBufs (V d (cV LA) (jV LA)) ∗ scopedSems0 (V d (cV LA) (jV LA)) ∗ owes (V d (cV LA) (jV LA)) O W)
      ⊢ wp frame (wpE (defs₀ (F := F)) 𝒱₀ (V d (cV LA) (jV LA)) none) Set.univ
          (cc0_k LA peW (Memref.isWhole_whole _) cW (Memref.isWhole_whole _) oW (Memref.isWhole_whole _)
            sIa (Memref.isWhole_whole _) sIb (Memref.isWhole_whole _) sRa (Memref.isWhole_whole _) sRb (Memref.isWhole_whole _)
            cc0_scratch4 cc0_scratch5 cc0_scoped0 cc0_scoped1 cc0_scoped2 cc0_scoped3)
          fun _ => iprop(forCore m d 0 (peAsO m d) ∗ scopedBufs (V d (cV LA) (jV LA)) ∗ scopedSems0 (V d (cV LA) (jV LA))
            ∗ ∃ W', ⌜∀ p ∈ W', p ∈ W ∨ p.2 = none⌝ ∗ owes (V d (cV LA) (jV LA)) O W') := by
  have k0_h1 : isZero LA = 1#1 := by decide
  have k0_h2 : ¬ isOne LA = 1#1 := by decide
  simp only [cc0_k_eq_skeleton]; unfold cc0_k_skel
  rw [forCore_zero, forCore_zero, (K (F := F)).scopedBufs_V hF d (cV LA) (jV LA), SparseCore.Cfg.scopedSems0_V (Val := Elt F) d (cV LA) (jV LA),
    ownSems0_peel (F := F) d (cV LA) (jV LA) cc0_scoped0.sem cc0_scratch4.sem cc0_scoped1.sem (by decide) (by decide) (by decide) (by decide) (by decide) (by decide),
    ownBufs_A]
  iintro ⟨#Hlv, -, ⟨Hpe, Hc, Ho⟩, ⟨⟨%fi, Hi⟩, ⟨%fr, Hr⟩, Hbufs⟩, ⟨HsemF, HsemG, HsemO, Hsems⟩, HO⟩
  ihave Hmw := (show levAts (K (F := F)).L (K (F := F)).lev ⊢ Transfers.MayWaits (V d (cV LA) (jV LA)) (default : HIx 1) O from
    (K (F := F)).mayWaits_none (thr := V d (cV LA) (jV LA)) hO) $$ Hlv
  ihave Hc' := (Entails.of_eq (show (cLoc d ↦[(cA).view.set]{fullShare} cval (F := F) d : sProp 𝕄)
      = ((cA).view.loc (V d (cV LA) (jV LA)) ↦[(cA).view.set]{fullShare} cval (F := F) d) from rfl)) $$ Hc
  ihave Ho' := (Entails.of_eq (show (oLoc d ↦[(oA).view.set]{fullShare} m (oLoc d) : sProp 𝕄)
      = ((oA).view.loc (V d (cV LA) (jV LA)) ↦[(oA).view.set]{fullShare} m (oLoc d)) from rfl)) $$ Ho
  ihave Hpe' := (Entails.of_eq (show (peLoc d ↦{fullShare.left} m (peLoc d) : sProp 𝕄)
      = ((peW).view.loc (V d (cV LA) (jV LA)) ↦{fullShare.left} m (peLoc d)) from rfl)) $$ Hpe
  ihave Hi' := (Entails.of_eq (show ((V d (cV LA) (jV LA)).loc cc0_scratch0 ↦{fullShare} fi : sProp 𝕄)
      = ((sIa).view.loc (V d (cV LA) (jV LA)) ↦{fullShare} fi) from rfl)) $$ Hi
  ihave Hr' := (Entails.of_eq (show ((V d (cV LA) (jV LA)).loc cc0_scratch2 ↦{fullShare} fr : sProp 𝕄)
      = ((sRa).view.loc (V d (cV LA) (jV LA)) ↦{fullShare} fr) from rfl)) $$ Hr
  sl_exec
  ihave Hxs := (pointsTo_split_subset (q := fullShare.left) (f := m (peLoc d)) (S := Finset.univ) (Finset.subset_univ (peAll).view.set)).1 $$ Hpe'
  icases Hxs with ⟨Hxs, Hxr⟩
  have hrs : (sRa).view.set = Finset.univ := View.set_whole _
  have hss : (sIa).view.set = Finset.univ := View.set_whole _
  ihave Hr'' := (Entails.of_eq (pts_univ_set (F := F) _ _ hrs)) $$ Hr'
  ihave Hi'' := (Entails.of_eq (pts_univ_set (F := F) _ _ hss)) $$ Hi'
  have hN : ∀ h : S200x128.Gathers 0 S96x128, ∑ j, ((sRa).slice (S96x128.rowRect h.axis' j) (S96x128.stride_rowRect h.axis' j)).view.dmaCredit
      = (sRa).view.dmaCredit := by decide
  iapply (SparseCore.wp_indirectGatherLocal countersEmb 𝒱₀ (V d (cV LA) (jV LA)) none (hg := Facts₀.gathers_S200x128_S96x128) (default : HIx 1)
      (sRa).view.dmaCredit (hN _) (by decide) (inb_A d fi _ rfl)) $$ [Hxs Hr'' Hi'' HsemG]
  · isplitl [Hxs]; · iexact Hxs
    isplitl [Hr'']; · iexact Hr''
    isplitl [Hi'']; · iexact Hi''
    iexact HsemG
  iintro Hfl
  sl_exec
  iapply (Transfers.wp_waitLocalO countersEmb 𝒱₀ (V d (cV LA) (jV LA)) none (default : HIx 1) (rfl : (sRa).view.dmaCredit = _)) $$ [Hfl HO]
  · isplitl [Hfl]; · iexact Hfl
    isplitl [HO]; · iexact HO
    iapply (Transfers.MayWaits.elim (SemLoc.dma cc0_scratch4.sem)) $$ Hmw
  iintro ⟨⟨Hr', Hxs, Hi'⟩, HsemG, HO⟩
  ihave Hpe' := (pointsTo_split_subset (q := fullShare.left) (f := m (peLoc d)) (S := Finset.univ) (Finset.subset_univ (peAll).view.set)).2 $$ [Hxs Hxr]; · isplitl [Hxs] <;> iassumption
  ihave Hr3 := (Entails.of_eq (pts_univ_set (F := F) _ _ hrs).symm) $$ Hr'
  ihave Hi3 := (Entails.of_eq (pts_univ_set (F := F) _ _ hss).symm) $$ Hi'
  sl_exec
  sl_step
  ihave Ho3 := (Entails.of_eq (pointsTo_congr (fun i hi => hval fi fr _ _ i hi))) $$ Ho'
  isplitl [Hpe' Hc' Ho3]
  · isplitl [Hpe']; · iexact Hpe'
    isplitl [Hc']; · iexact Hc'
    iexact Ho3
  isplitl [Hi3 Hr3 Hbufs]
  · isplitl [Hi3]; · iexists _; iexact Hi3
    isplitl [Hr3]; · iexists _; iexact Hr3
    iexact Hbufs
  isplitl [HsemF HsemG HsemO Hsems]
  · isplitl [HsemF]; · iexact HsemF
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The place of subcore 0 of SparseCore 1. -/
abbrev LB : grid0.Coords := coordsV ⟨1, by decide⟩ ⟨0, by decide⟩

omit [FloatOps F] in
/-- Every position number is below the table's row count, whatever the list buffer held before the fetch. -/
theorem inb_B (fs : Buf (Elt F) ((V d (cV LB) (jV LB)).loc cc0_scratch1)) (pay : S104.Idx → Elt F .i32)
    (hpay : pay = (cB).view.read (Elt F) (cval (F := F) d)) :
    ∀ x, ((sIb).view.read (Elt F) (View.write (Elt F) (sIb).view fs pay Finset.univ) x).toNat < S200x128.size (Facts₀.gathers_S200x128_S104x128).axis := by
  subst hpay; intro x
  rw [View.write_whole_univ]
  simp only [Memref.view_whole, View.read_whole]
  rw [show ∀ j, (cB).view.read (Elt F) (cval (F := F) d) j = cval (F := F) d ((cB).view.emb j) from fun j => (View.read_apply _ _).trans (cast_eq _ _)]
  exact (by decide : ∀ k : Fin 200, (lit0 k).toNat < 200) _

/-- What the three copies leave on the subcore's rows of the gathered array: the table's rows. -/
def ValB : Prop :=
  ∀ (fi : Buf (Elt F) ((sIb).view.loc (V d (cV LB) (jV LB)))) (fr : Buf (Elt F) ((sRb).view.loc (V d (cV LB) (jV LB))))
    (hn : S104.numel = S104x128.size (Facts₀.gathers_S200x128_S104x128).axis')
    (hin : ∀ x, ((sIb).view.read (Elt F) (View.write (Elt F) (sIb).view fi (View.read (Elt F) (cB).view (cval (F := F) d)) Finset.univ) x).toNat
      < S200x128.size (Facts₀.gathers_S200x128_S104x128).axis),
    ∀ i ∈ (oB).view.set,
      (oB).view.writes (Elt F) (m (oLoc d)) [⟨Rect.whole S104x128, (sRb).view.read (Elt F) (View.write (Elt F) (sRb).view fr
          (SparseCore.gatherPayload Facts₀.gathers_S200x128_S104x128 (View.read (Elt F) (peAll).view (m (peLoc d)))
            (SparseCore.rows (View.read (Elt F) (sIb).view (View.write (Elt F) (sIb).view fi (View.read (Elt F) (cB).view (cval (F := F) d)) Finset.univ)) hn hin))
          Finset.univ)⟩] i
        = peAsO m d i

set_option maxHeartbeats 4000000 in
theorem tile_bodyB (hF : (K (F := F)).Facts) (O : CellTallies nD τ sig (HIx 1)) (W : Waits sig (HIx 1)) (hO : ∀ g, O g none = 0)
    (hval : ValB (F := F) m d) :
    iprop(levAts (K (F := F)).L (K (F := F)).lev ∗ emp ∗ forCore m d 1 (m (oLoc d))
        ∗ scopedBufs (V d (cV LB) (jV LB)) ∗ scopedSems0 (V d (cV LB) (jV LB)) ∗ owes (V d (cV LB) (jV LB)) O W)
      ⊢ wp frame (wpE (defs₀ (F := F)) 𝒱₀ (V d (cV LB) (jV LB)) none) Set.univ
          (cc0_k LB peW (Memref.isWhole_whole _) cW (Memref.isWhole_whole _) oW (Memref.isWhole_whole _)
            sIa (Memref.isWhole_whole _) sIb (Memref.isWhole_whole _) sRa (Memref.isWhole_whole _) sRb (Memref.isWhole_whole _)
            cc0_scratch4 cc0_scratch5 cc0_scoped0 cc0_scoped1 cc0_scoped2 cc0_scoped3)
          fun _ => iprop(forCore m d 1 (peAsO m d) ∗ scopedBufs (V d (cV LB) (jV LB)) ∗ scopedSems0 (V d (cV LB) (jV LB))
            ∗ ∃ W', ⌜∀ p ∈ W', p ∈ W ∨ p.2 = none⌝ ∗ owes (V d (cV LB) (jV LB)) O W') := by
  have k0_h1 : ¬ isZero LB = 1#1 := by decide
  have k0_h2 : isOne LB = 1#1 := by decide
  simp only [cc0_k_eq_skeleton]; unfold cc0_k_skel
  rw [forCore_one, forCore_one, (K (F := F)).scopedBufs_V hF d (cV LB) (jV LB), SparseCore.Cfg.scopedSems0_V (Val := Elt F) d (cV LB) (jV LB),
    ownSems0_peel (F := F) d (cV LB) (jV LB) cc0_scoped2.sem cc0_scratch5.sem cc0_scoped3.sem (by decide) (by decide) (by decide) (by decide) (by decide) (by decide),
    ownBufs_B]
  iintro ⟨#Hlv, -, ⟨Hpe, Hc, Ho⟩, ⟨⟨%fi, Hi⟩, ⟨%fr, Hr⟩, Hbufs⟩, ⟨HsemF, HsemG, HsemO, Hsems⟩, HO⟩
  ihave Hmw := (show levAts (K (F := F)).L (K (F := F)).lev ⊢ Transfers.MayWaits (V d (cV LB) (jV LB)) (default : HIx 1) O from
    (K (F := F)).mayWaits_none (thr := V d (cV LB) (jV LB)) hO) $$ Hlv
  ihave Hc' := (Entails.of_eq (show (cLoc d ↦[(cB).view.set]{fullShare} cval (F := F) d : sProp 𝕄)
      = ((cB).view.loc (V d (cV LB) (jV LB)) ↦[(cB).view.set]{fullShare} cval (F := F) d) from rfl)) $$ Hc
  ihave Ho' := (Entails.of_eq (show (oLoc d ↦[(oB).view.set]{fullShare} m (oLoc d) : sProp 𝕄)
      = ((oB).view.loc (V d (cV LB) (jV LB)) ↦[(oB).view.set]{fullShare} m (oLoc d)) from rfl)) $$ Ho
  ihave Hpe' := (Entails.of_eq (show (peLoc d ↦{fullShare.right} m (peLoc d) : sProp 𝕄)
      = ((peW).view.loc (V d (cV LB) (jV LB)) ↦{fullShare.right} m (peLoc d)) from rfl)) $$ Hpe
  ihave Hi' := (Entails.of_eq (show ((V d (cV LB) (jV LB)).loc cc0_scratch1 ↦{fullShare} fi : sProp 𝕄)
      = ((sIb).view.loc (V d (cV LB) (jV LB)) ↦{fullShare} fi) from rfl)) $$ Hi
  ihave Hr' := (Entails.of_eq (show ((V d (cV LB) (jV LB)).loc cc0_scratch3 ↦{fullShare} fr : sProp 𝕄)
      = ((sRb).view.loc (V d (cV LB) (jV LB)) ↦{fullShare} fr) from rfl)) $$ Hr
  sl_exec
  ihave Hxs := (pointsTo_split_subset (q := fullShare.right) (f := m (peLoc d)) (S := Finset.univ) (Finset.subset_univ (peAll).view.set)).1 $$ Hpe'
  icases Hxs with ⟨Hxs, Hxr⟩
  have hrs : (sRb).view.set = Finset.univ := View.set_whole _
  have hss : (sIb).view.set = Finset.univ := View.set_whole _
  ihave Hr'' := (Entails.of_eq (pts_univ_set (F := F) _ _ hrs)) $$ Hr'
  ihave Hi'' := (Entails.of_eq (pts_univ_set (F := F) _ _ hss)) $$ Hi'
  have hN : ∀ h : S200x128.Gathers 0 S104x128, ∑ j, ((sRb).slice (S104x128.rowRect h.axis' j) (S104x128.stride_rowRect h.axis' j)).view.dmaCredit
      = (sRb).view.dmaCredit := by decide
  iapply (SparseCore.wp_indirectGatherLocal countersEmb 𝒱₀ (V d (cV LB) (jV LB)) none (hg := Facts₀.gathers_S200x128_S104x128) (default : HIx 1)
      (sRb).view.dmaCredit (hN _) (by decide) (inb_B d fi _ rfl)) $$ [Hxs Hr'' Hi'' HsemG]
  · isplitl [Hxs]; · iexact Hxs
    isplitl [Hr'']; · iexact Hr''
    isplitl [Hi'']; · iexact Hi''
    iexact HsemG
  iintro Hfl
  sl_exec
  iapply (Transfers.wp_waitLocalO countersEmb 𝒱₀ (V d (cV LB) (jV LB)) none (default : HIx 1) (rfl : (sRb).view.dmaCredit = _)) $$ [Hfl HO]
  · isplitl [Hfl]; · iexact Hfl
    isplitl [HO]; · iexact HO
    iapply (Transfers.MayWaits.elim (SemLoc.dma cc0_scratch5.sem)) $$ Hmw
  iintro ⟨⟨Hr', Hxs, Hi'⟩, HsemG, HO⟩
  ihave Hpe' := (pointsTo_split_subset (q := fullShare.right) (f := m (peLoc d)) (S := Finset.univ) (Finset.subset_univ (peAll).view.set)).2 $$ [Hxs Hxr]; · isplitl [Hxs] <;> iassumption
  ihave Hr3 := (Entails.of_eq (pts_univ_set (F := F) _ _ hrs).symm) $$ Hr'
  ihave Hi3 := (Entails.of_eq (pts_univ_set (F := F) _ _ hss).symm) $$ Hi'
  sl_exec
  sl_step
  ihave Ho3 := (Entails.of_eq (pointsTo_congr (fun i hi => hval fi fr _ _ i hi))) $$ Ho'
  isplitl [Hpe' Hc' Ho3]
  · isplitl [Hpe']; · iexact Hpe'
    isplitl [Hc']; · iexact Hc'
    iexact Ho3
  isplitl [Hi3 Hr3 Hbufs]
  · isplitl [Hi3]; · iexists _; iexact Hi3
    isplitl [Hr3]; · iexists _; iexact Hr3
    iexact Hbufs
  isplitl [HsemF HsemG HsemO Hsems]
  · isplitl [HsemF]; · iexact HsemF
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- At any place whose subcore index is not 0 neither condition holds. -/
theorem cond_idle (c : Fin (grid0.bound 0)) (s : Fin (grid0.bound 1)) (h : s.val ≠ 0) :
    ¬ isZero (coordsV c s) = 1#1 ∧ ¬ isOne (coordsV c s) = 1#1 := by
  have key : ∀ (a : Fin 2) (b : Fin 16), b.val ≠ 0 →
      ¬ (Scalar.cmpi .ne (Scalar.extui (Scalar.cmpi .eq (Scalar.addi (Scalar.muli (BitVec.ofNat 32 b.val) 2#32) (BitVec.ofNat 32 a.val)) 0#32)) 0#32) = 1#1
      ∧ ¬ (Scalar.cmpi .ne (Scalar.extui (Scalar.cmpi .eq (Scalar.addi (Scalar.muli (BitVec.ofNat 32 b.val) 2#32) (BitVec.ofNat 32 a.val)) 1#32)) 0#32) = 1#1 := by decide
  exact key c s h

theorem defs₀_vector (c : Fin τ.nSC) (s : Fin τ.nSub) :
    defs₀ (F := F) (.scVector c s) 0 ()
      = SparseCore.onTile Facts₀.hcore0 Facts₀.hsub0 (fun c s => cc0_k (coordsV c s)
          peW (Memref.isWhole_whole _) cW (Memref.isWhole_whole _) oW (Memref.isWhole_whole _)
          sIa (Memref.isWhole_whole _) sIb (Memref.isWhole_whole _) sRa (Memref.isWhole_whole _) sRb (Memref.isWhole_whole _)
          cc0_scratch4 cc0_scratch5 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every vector subcore's task, by its place. -/
theorem tileObl (hF : (K (F := F)).Facts) (hvalA : ∀ d, ValA (F := F) m d) (hvalB : ∀ d, ValB (F := F) m d) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  obtain ⟨cv, hc⟩ := c
  obtain ⟨iv, hi⟩ := i
  rcases Nat.eq_zero_or_pos iv with rfl | hpos
  · have hcv : cv = 0 ∨ cv = 1 := by have : cv < 2 := hc; omega
    rcases hcv with rfl | rfl
    · have hA := tile_bodyA m d hF O W hO (hvalA d)
      rw [← forTile_zero m d 0 (m (oLoc d)), ← forTile_zero m d 0 (peAsO m d)] at hA
      exact hA.trans (wp_mono frame _ _ fun _ => obl_post)
    · have hB := tile_bodyB m d hF O W hO (hvalB d)
      rw [← forTile_zero m d 1 (m (oLoc d)), ← forTile_zero m d 1 (peAsO m d)] at hB
      exact hB.trans (wp_mono frame _ _ fun _ => obl_post)
  · have hne : iv ≠ 0 := by omega
    obtain ⟨h1, h2⟩ := cond_idle ⟨cv, hci.1⟩ ⟨iv, hci.2⟩ hne
    have hI := tile_idle (F := F) d (coordsV ⟨cv, hci.1⟩ ⟨iv, hci.2⟩) O W h1 h2 (forTile m d cv iv (m (oLoc d))) (forTile m d cv iv (peAsO m d))
      (by rw [forTile_pos m d cv iv hne, forTile_pos m d cv iv hne])
    exact hI.trans (wp_mono frame _ _ fun _ => obl_post)

end Tile

end Cert.Kernel.Sc

end
-- ==== Proof.Spec.lean ====
/-
  The result both programs compute, as one function of the two argument arrays.

  `x : [1024, 200, 128]` is a batch of sequences of 200 positions, each a vector of 128 numbers; `pe : [200, 128]` is a
  table with one row per position. The result adds to every sequence of the batch the table, row by position:
  entry `(b, l, d)` is `x (b, l, d) + pe (l, d)`. It is stated at any float instance, by that instance's addition.
-/
import Idealize.ShloMosaic.PureOps
import Idealize.ShloMosaic.Lib.ValueIdx

noncomputable section

namespace Cert.Spec

open Idealize.ShloMosaic Idealize.ShloMosaic.ValueIdx

abbrev SX : Shape := ⟨3, ![1024, 200, 128]⟩
abbrev SP : Shape := ⟨2, ![200, 128]⟩

theorem lt1 (i : SX.Idx) : (i 1).val < 200 := (i 1).isLt
theorem lt2 (i : SX.Idx) : (i 2).val < 128 := (i 2).isLt

/-- The table's entry that result index `(b, l, d)` reads: `(l, d)`. -/
abbrev row (i : SX.Idx) : SP.Idx := ix2 (⟨(i 1).val, lt1 i⟩ : Fin 200) (⟨(i 2).val, lt2 i⟩ : Fin 128)

/-- Entry `(b, l, d)` of the result: `x (b, l, d) + pe (l, d)`. -/
def G {F : FTy → Type} [FloatOps F] (x : FVec F SX .f32) (pe : FVec F SP .f32) : FVec F SX .f32 :=
  addf x (fun i => pe (row i))

theorem G_apply {F : FTy → Type} [FloatOps F] (x : FVec F SX .f32) (pe : FVec F SP .f32) (i : SX.Idx) :
    G x pe i = FloatOps.addf (x i) (pe (row i)) := rfl

end Cert.Spec

end
-- ==== Proof.RegionK.lean ====
/-
  The adding stage of the kernel program: every sequence of the batch plus the gathered table, as the data of a
  staged, blockwise computation.

  The stage walks the batch in 8 blocks of 128 sequences. At block `t` it holds rows `[128 t, 128 t + 128)` of the
  batch array `x : [1024, 200, 128]`, the whole table `p : [200, 128]` (brought in once, at the first block, and kept),
  and writes back rows `[128 t, 128 t + 128)` of the result. Inside a block, entry `(b, l, d)` of what is written is
  `x_block (b, l, d) + p (l, d)`: the table is viewed as one sequence and repeated over the 128 sequences of the block.
  Since block `t`'s entry `(b, l, d)` is entry `(128 t + b, l, d)` of the array, every block written is the
  corresponding block of ONE function of the two arrays, `G x p (b, l, d) = x (b, l, d) + p (l, d)`, and the 8 blocks
  tile the batch axis (row `b` lies in block `b / 128`): the result array ends holding `G x p`, the two inputs are
  never written.

  Everything is stated for the arrays `V` as the stage finds them, at any float instance, and is generic in the index
  type and the user algebra of the ambient ghost state.
-/
import proofs.«202774_g12489764896814_cont_fleet_578_23_alg».proof.Proof.Gen.Kernel.Launch
import proofs.«202774_g12489764896814_cont_fleet_578_23_alg».proof.Proof.Gen.Kernel.Skeleton
import proofs.«202774_g12489764896814_cont_fleet_578_23_alg».proof.Proof.Gen.Kernel.Points
import proofs.«202774_g12489764896814_cont_fleet_578_23_alg».proof.Proof.Spec
import Idealize.ShloMosaic.Lib.Pipeline.FrameBody
import Idealize.ShloMosaic.Lib.Pipeline.Value
import Idealize.ShloMosaic.Lib.Tactic
import Idealize.ShloMosaic.Lib.ValueIdx
import Idealize.ShloMosaic.Lib.ValueLayout

set_option maxRecDepth 16384

noncomputable section

namespace Cert.Kernel.Region

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U]

local notation "𝕄" => MT nD τ sig Ix (Elt F) ℕ U ℕ

variable (V : (c : Dev nD) → (b : Ref sig .tc) → Buf (Elt F) ((c : Thread nD τ).loc b))

/-! ## The blocks of the arrays -/

/-- Window `w`'s block at point `t`, read off its array as the stage finds it: for the batch array and the result rows
    `[128 t, 128 t + 128)`, for the table all of it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The batch array's buffer holds the batch block of the point at every point, for any data whose array is `V`'s and
    whose body leaves the block in place. -/
theorem before_x_of {c : Dev nD} (dat : Dat τ (Elt F) Ix ℕ U ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The table's buffer holds the table at every point, although it is brought in at the first point only: at a later
    point the block index has not moved, and the body leaves the buffer as it found it. -/
theorem before_p_of {c : Dev nD} (dat : Dat τ (Elt F) Ix ℕ U ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The whole batch block, as a rectangle of itself. -/
abbrev rX : Rect S128x200x128 := Rect.unit (s := S128x200x128) ![0, 0, 0] S128x200x128.size inb_S128x200x128_S128x200x128_0_0_0
/-- The whole table, as a rectangle of itself. -/
abbrev rP : Rect S200x128 := Rect.unit (s := S200x128) ![0, 0] S200x128.size inb_S200x128_S200x128_0_0

theorem hzX : (![0, 0, 0] : Fin 3 → Nat) = fun _ => 0 := funext fun a => by fin_cases a <;> rfl
theorem hzP : (![0, 0] : Fin 2 → Nat) = fun _ => 0 := funext fun a => by fin_cases a <;> rfl

/-- The result block the body leaves, from the batch block `x` and the table `p`: its one store, of the sum of the
    batch block and the table repeated over the block's sequences, over the whole block. -/
def outBlock (x : Vec F S128x200x128 .f32) (p : Vec F S200x128 .f32) : Vec F S128x200x128 .f32 :=
  View.canon [⟨rX, k1_pay1 (View.ld x rX) (View.ld p rP)⟩]

/-- The one store covers the block. -/
theorem cover_out (p0 : Vec F S128x200x128 .f32) (y : S128x200x128.Idx) :
    ∃ pc ∈ ([⟨rX, p0⟩] : List (View.Piece (Elt F) S128x200x128 .f32)), y ∈ pc.1.set :=
  ⟨_, List.mem_singleton_self _, View.mem_set_unit_zero hzX inb_S128x200x128_S128x200x128_0_0_0 y⟩

/-! ## The body's triple -/

set_option maxHeartbeats 1000000 in
/-- The body on whole staging buffers, the two inputs' at read contents `x`, `p` and the result's at anything, runs to the
    continuation holding the inputs' as they were and the result's at `outBlock x p`. -/
theorem sound_kernel (c : Dev nD) (E : Set ℕ) (i : grid1.Coords) (arg1 : Memref sig .tc .vmem S128x200x128 .f32) (harg1 : arg1.IsWhole) (arg2 : Memref sig .tc .vmem S200x128 .f32) (harg2 : arg2.IsWhole) (arg3 : Memref sig .tc .vmem S128x200x128 .f32) (harg3 : arg3.IsWhole)
    (x : Vec F S128x200x128 .f32) (p : Vec F S200x128 .f32) (K : PUnit → sProp 𝕄) :
    iprop(owns (c : Thread nD τ) arg1 fullShare x ∗ owns (c : Thread nD τ) arg2 fullShare p ∗ (∃ d, owns (c : Thread nD τ) arg3 fullShare d)
        ∗ (iprop(owns (c : Thread nD τ) arg1 fullShare x ∗ owns (c : Thread nD τ) arg2 fullShare p ∗ owns (c : Thread nD τ) arg3 fullShare (outBlock x p)) -∗ K ⟨⟩))
      ⊢ wp frame (wpE (defs₀ (F := F)) Variants.none c none) E (cc1__tc_add_kernel i arg1 harg1 arg2 harg2 arg3 harg3) K := by
  simp only [cc1__tc_add_kernel_eq_skeleton]; unfold cc1__tc_add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data -/

variable (Rec : Dev nD → Set (SemLoc sig × Ix))

/-- The stage's invariant on core `c`: the core's scoped buffers that are no staging buffer, at some contents each, and
    its generator register at some state — what the body neither reads nor writes. -/
def ΦR (c : Dev nD) : sProp 𝕄 :=
  iprop(Pipeline.scopedRest (Ix := Ix) (Name := ℕ) (U := U) (Lvl := ℕ) (Val := Elt F) spec1 c ∗ ∃ r, prngReg c r)

/-- The proof data of the stage on core `c`: the arrays as the stage finds them (`V`); after the body at point `t` each
    input's buffer at its block and the result's at `outBlock` of the input blocks; the invariant `ΦR`; nothing owed;
    full shares. -/
def dats (_ : Fin 1) (c : Dev nD) : Dat τ (Elt F) Ix ℕ U ℕ cfg1 c where
  A w := V c (Pipeline.arrRef spec1 w)
  after w t := match w with
    | ⟨0, _⟩ => iblk V c 0 t
    | ⟨1, _⟩ => iblk V c 1 t
    | ⟨2, _⟩ => outBlock (iblk V c 0 t) (iblk V c 1 t)
  Φ _ := ΦR c
  q _ := fullShare
  owed _ := 0
  recorded _ := Rec c

/-- The proof data's arrays are the contents the stage finds. -/
theorem A_eq (c : Dev nD) (w : Fin cfg1.W) : (dats (Ix := Ix) (U := U) V Rec 0 c).A w = V c (Pipeline.arrRef spec1 w) := by
  dsimp only [dats]

/-- The invariant is the same at every point, -/
theorem Φ_eq (c : Dev nD) (t : Fin (cfg1.N + 1)) : (dats (Ix := Ix) (U := U) V Rec 0 c).Φ t = ΦR c := by dsimp only [dats]
/-- nothing is owed at any point, -/
theorem owed_eq (c : Dev nD) (t : Fin (cfg1.N + 1)) : (dats (Ix := Ix) (U := U) V Rec 0 c).owed t = 0 := by dsimp only [dats]
/-- and every array is held at the full share. -/
theorem q_eq (c : Dev nD) (w : Fin cfg1.W) : (dats (Ix := Ix) (U := U) V Rec 0 c).q w = fullShare := by dsimp only [dats]

/-- The waits recorded before point `t` lie within `Rec c`, at every point. -/
theorem recorded_eq (c : Dev nD) (t : Fin (cfg1.N + 1)) : (dats (Ix := Ix) (U := U) V Rec 0 c).recorded t = Rec c := by dsimp only [dats]

/-- What the body leaves, window by window. -/
theorem after_x (c : Dev nD) (t : Fin cfg1.N) : (dats (Ix := Ix) (U := U) V Rec 0 c).after 0 t = iblk V c 0 t := by dsimp only [dats]
theorem after_p (c : Dev nD) (t : Fin cfg1.N) : (dats (Ix := Ix) (U := U) V Rec 0 c).after 1 t = iblk V c 1 t := by dsimp only [dats]
theorem after_out (c : Dev nD) (t : Fin cfg1.N) : (dats (Ix := Ix) (U := U) V Rec 0 c).after 2 t = outBlock (iblk V c 0 t) (iblk V c 1 t) := by dsimp only [dats]

/-- Each input's current staging buffer holds its block at every point, brought in there or not. -/
theorem before_x (c : Dev nD) (t : Fin cfg1.N) (d) : (dats (Ix := Ix) (U := U) V Rec 0 c).before 0 t d = iblk V c 0 t :=
  before_x_of V (dats V Rec 0 c) (A_eq V Rec c 0) (after_x V Rec c) t d
theorem before_p (c : Dev nD) (t : Fin cfg1.N) (d) : (dats (Ix := Ix) (U := U) V Rec 0 c).before 1 t d = iblk V c 1 t :=
  before_p_of V (dats V Rec 0 c) (A_eq V Rec c 1) (after_p V Rec c) t d

/-! ## The body obligation, at a generic point -/

/-- What the body is called with at point `t`, the windows one by one, -/
def bodyPre (ι : Ix) (c : Dev nD) (t : Fin cfg1.N) : sProp 𝕄 :=
  iprop((dats (Ix := Ix) (U := U) V Rec 0 c).Φ t.castSucc ∗ (dats (Ix := Ix) (U := U) V Rec 0 c).owesAt ι t.castSucc
    ∗ (∃ d, owns (c : Thread nD τ) (st1_0 t) fullShare ((dats (Ix := Ix) (U := U) V Rec 0 c).before 0 t d))
    ∗ (∃ d, owns (c : Thread nD τ) (st1_1 t) fullShare ((dats (Ix := Ix) (U := U) V Rec 0 c).before 1 t d))
    ∗ (∃ d, owns (c : Thread nD τ) (st1_2 t) fullShare ((dats (Ix := Ix) (U := U) V Rec 0 c).before 2 t d)))

/-- and what it returns. -/
def bodyPost (ι : Ix) (c : Dev nD) (t : Fin cfg1.N) : sProp 𝕄 :=
  iprop((dats (Ix := Ix) (U := U) V Rec 0 c).Φ t.succ ∗ (dats (Ix := Ix) (U := U) V Rec 0 c).owesAt ι t.succ
    ∗ owns (c : Thread nD τ) (st1_0 t) fullShare ((dats (Ix := Ix) (U := U) V Rec 0 c).after 0 t)
    ∗ owns (c : Thread nD τ) (st1_1 t) fullShare ((dats (Ix := Ix) (U := U) V Rec 0 c).after 1 t)
    ∗ owns (c : Thread nD τ) (st1_2 t) fullShare ((dats (Ix := Ix) (U := U) V Rec 0 c).after 2 t))

/-- The body at any point: the inputs' buffers hold their blocks, so `sound_kernel` applies; the invariant and what the
    core owes pass through unread. -/
theorem sound_body (ι : Ix) (c : Dev nD) (t : Fin cfg1.N) :
    (bodyPre (U := U) V Rec ι c t : sProp 𝕄) ⊢ wp frame (wpE (defs₀ (F := F)) Variants.none c none) Set.univ (bodyAt1 t) (fun _ => bodyPost (U := U) V Rec ι c t) := by
  unfold bodyPre bodyPost bodyAt1
  simp only [before_x, before_p]
  rw [show (dats (Ix := Ix) (U := U) V Rec 0 c).Φ t.succ = (dats (Ix := Ix) (U := U) V Rec 0 c).Φ t.castSucc from rfl,
    show (dats (Ix := Ix) (U := U) V Rec 0 c).owesAt ι t.succ = (dats (Ix := Ix) (U := U) V Rec 0 c).owesAt ι t.castSucc from rfl,
    after_x, after_p, after_out]
  iintro ⟨HΦ, Ho, ⟨%d0, H0⟩, ⟨%d1, H1⟩, ⟨%d2, H2⟩⟩
  iapply (sound_kernel c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (ι : Ix) (c : Dev nD) : BodyObligation (dats (F := F) (Ix := Ix) (U := U) V Rec 0 c) (defs₀ (F := F)) Variants.none ι Set.univ := fun t => by
  rw [bigSep_W1, bigSep_W1]
  exact sound_body (U := U) V Rec ι c t

/-- The input arrays are never written. -/
theorem final_in0 (c : Dev nD) (n : Nat) : (dats (Ix := Ix) (U := U) V Rec 0 c).arrAt 0 n = V c main_arg0 :=
  ((dats V Rec 0 c).arrAt_in 0 rfl n).trans (A_eq V Rec c 0)
theorem final_in1 (c : Dev nD) (n : Nat) : (dats (Ix := Ix) (U := U) V Rec 0 c).arrAt 1 n = V c main_v0 :=
  ((dats V Rec 0 c).arrAt_in 1 rfl n).trans (A_eq V Rec c 1)

/-! ## The closed form: the result array as one function of the two arrays -/

theorem lt_l (j : S128x200x128.Idx) : (j 1).val < 200 := (j 1).isLt
theorem lt_d (j : S128x200x128.Idx) : (j 2).val < 128 := (j 2).isLt

/-- The body's sum at entry `(b, l, d)` of the block: the batch block's entry plus the table's entry `(l, d)` — the
    table is cast to one sequence `[1, 200, 128]` and repeated over the block's 128 sequences. -/
theorem pay_apply (x : Vec F S128x200x128 .f32) (p : Vec F S200x128 .f32) (b : Fin 128) (l : Fin 200) (d : Fin 128) :
    k1_pay1 x p (ix3 b l d) = FloatOps.addf (x (ix3 b l d)) (p (ix2 l d)) := by
  unfold k1_pay1
  show FloatOps.addf (x (ix3 b l d)) (broadcastTo S128x200x128 (shapeCast S1x200x128 (shapeCast S200x128 p shapeCasts_S200x128_S200x128) shapeCasts_S200x128_S1x200x128) broadcasts_S1x200x128_S128x200x128 (ix3 b l d)) = _
  refine congrArg (FloatOps.addf (x (ix3 b l d))) ?_
  refine (broadcastTo_apply _ _ (ix3 b l d) (ix3 (0 : Fin 1) l d) fun a => ?_).trans ?_
  · match a with
    | ⟨0, _⟩ => rfl
    | ⟨1, _⟩ => rfl
    | ⟨2, _⟩ => rfl
  refine (shapeCast_ab_1ab_apply _ _ (0 : Fin 1) l d).trans ?_
  rw [shapeCast_self]

/-- The block the body leaves, at an entry: the batch block's entry plus the table's entry at the entry's last two
    coordinates. -/
theorem outBlock_apply (x : Vec F S128x200x128 .f32) (p : Vec F S200x128 .f32) (j : S128x200x128.Idx) :
    outBlock x p j = FloatOps.addf (x j) (p (ix2 (⟨(j 1).val, lt_l j⟩ : Fin 200) (⟨(j 2).val, lt_d j⟩ : Fin 128))) := by
  obtain ⟨b, l, d, rfl⟩ : ∃ (b : Fin 128) (l : Fin 200) (d : Fin 128), j = ix3 b l d := ⟨j 0, j 1, j 2, eq_ix3 j⟩
  unfold outBlock
  rw [View.canon_unit_zero hzX, View.ld_unit_zero hzX, View.ld_unit_zero hzP]
  exact pay_apply x p b l d

/-- The blocks' indices, decided over the 8 points: the batch array's block index is the result's; the table's is
    zero on both axes; the result's is at most 7 on the batch axis and zero on the other two. -/
theorem idx_facts : ∀ t : Fin cfg1.N, win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 2) = 0
    ∧ win1_1.index t (1 : Fin 2) = 0
    ∧ win1_2.index t (0 : Fin 3) ≤ 7
    ∧ win1_2.index t (1 : Fin 3) = 0
    ∧ win1_2.index t (2 : Fin 3) = 0 :=
  (by decide +kernel : ∀ t : Fin grid1.N, _)

/-- Every block of the batch axis is some point's. -/
theorem idx_onto : ∀ (q : Fin 8), ∃ t : Fin cfg1.N, win1_2.index t = ![q.val, 0, 0] :=
  (by decide +kernel : ∀ (q : Fin 8), ∃ t : Fin grid1.N, win1_2.index t = ![q.val, 0, 0])

/-- What point `t` writes back is block `t` of `G` of the two arrays as the stage finds them. -/
theorem flushed_eq (c : Dev nD) (t : Fin cfg1.N) :
    (dats (Ix := Ix) (U := U) V Rec 0 c).flushed 2 t = ((cfg1.win 2).blk t).view.read (Elt F) (Cert.Spec.G (V c main_arg0) (V c main_v0)) := by
  show (cfg1.win 2).cut (grid1.coords t) ((dats (Ix := Ix) (U := U) V Rec 0 c).after 2 t) = _
  rw [after_out]
  obtain ⟨e0, e1, e2, e3, e4, e5, e6, e7⟩ := idx_facts t
  funext j
  refine (outBlock_apply (iblk V c 0 t) (iblk V c 1 t) ((cfg1.win 2).xinj (grid1.coords t) j)).trans ?_
  show FloatOps.addf (V c main_arg0 (((cfg1.win 0).blk t).view.emb j))
      (V c main_v0 (((cfg1.win 1).blk t).view.emb (ix2 (⟨(j 1).val, (j 1).isLt⟩ : Fin 200) (⟨(j 2).val, (j 2).isLt⟩ : Fin 128))))
    = FloatOps.addf (V c main_arg0 (((cfg1.win 2).blk t).view.emb j)) (V c main_v0 (Cert.Spec.row (((cfg1.win 2).blk t).view.emb j)))
  have h0 : ((cfg1.win 0).blk t).view.emb j = ((cfg1.win 2).blk t).view.emb j := by
    funext a; apply Fin.ext
    match a with
    | ⟨0, _⟩ => show win1_0.index t (0 : Fin 3) * 128 + 1 * (j 0).val = win1_2.index t (0 : Fin 3) * 128 + 1 * (j 0).val; omega
    | ⟨1, _⟩ => show win1_0.index t (1 : Fin 3) * 200 + 1 * (j 1).val = win1_2.index t (1 : Fin 3) * 200 + 1 * (j 1).val; omega
    | ⟨2, _⟩ => show win1_0.index t (2 : Fin 3) * 128 + 1 * (j 2).val = win1_2.index t (2 : Fin 3) * 128 + 1 * (j 2).val; omega
  have h1 : ((cfg1.win 1).blk t).view.emb (ix2 (⟨(j 1).val, (j 1).isLt⟩ : Fin 200) (⟨(j 2).val, (j 2).isLt⟩ : Fin 128))
      = Cert.Spec.row (((cfg1.win 2).blk t).view.emb j) := by
    funext a; apply Fin.ext
    match a with
    | ⟨0, _⟩ => show win1_1.index t (0 : Fin 2) * 200 + 1 * (j 1).val = win1_2.index t (1 : Fin 3) * 200 + 1 * (j 1).val; omega
    | ⟨1, _⟩ => show win1_1.index t (1 : Fin 2) * 128 + 1 * (j 2).val = win1_2.index t (2 : Fin 3) * 128 + 1 * (j 2).val; omega
  rw [h0, h1]

/-- An index of the result array is in point `t`'s block iff each coordinate is in the block's range on its axis. -/
theorem mem_blk (t : Fin cfg1.N) (i : S1024x200x128.Idx) :
    i ∈ ((cfg1.win 2).blk t).view.set ↔ ∀ a : Fin 3, win1_2.index t a * S128x200x128.size a ≤ (i a).val ∧ (i a).val < win1_2.index t a * S128x200x128.size a + S128x200x128.size a := by
  show i ∈ ((View.whole main_v1).slice (win1_2.rect t)).set ↔ _
  rw [View.set_slice_whole, Rect.mem_set_unit]
  exact Iff.rfl

/-- The blocks tile the array: batch row `b` lies in the block of point `b / 128`. -/
theorem cover (i : S1024x200x128.Idx) :
    ∃ t : Fin cfg1.N, (cfg1.win 2).flush t = true ∧ i ∈ ((cfg1.win 2).blk t).view.set := by
  have hi0 : (i 0).val < 1024 := (i 0).isLt
  have hi1 : (i 1).val < 200 := (i 1).isLt
  have hi2 : (i 2).val < 128 := (i 2).isLt
  obtain ⟨t, ht⟩ := idx_onto ⟨(i 0).val / 128, by omega⟩
  have q0 : win1_2.index t (0 : Fin 3) = (i 0).val / 128 := congrFun ht 0
  have q1 : win1_2.index t (1 : Fin 3) = 0 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 128 ≤ (i 0).val ∧ (i 0).val < win1_2.index t (0 : Fin 3) * 128 + 128; omega
  | ⟨1, _⟩ => show win1_2.index t (1 : Fin 3) * 200 ≤ (i 1).val ∧ (i 1).val < win1_2.index t (1 : Fin 3) * 200 + 200; omega
  | ⟨2, _⟩ => show win1_2.index t (2 : Fin 3) * 128 ≤ (i 2).val ∧ (i 2).val < win1_2.index t (2 : Fin 3) * 128 + 128; omega

/-- The result array after the stage: `G` of the two arrays as the stage finds them. -/
theorem final_out (c : Dev nD) : (dats (Ix := Ix) (U := U) V Rec 0 c).arrAt 2 cfg1.N = Cert.Spec.G (V c main_arg0) (V c main_v0) :=
  (dats (Ix := Ix) (U := U) V Rec 0 c).arrAt_eq_of_cover 2 (Cert.Spec.G (V c main_arg0) (V c main_v0)) (fun t _ => flushed_eq V Rec c t) cover

end Cert.Kernel.Region

end
-- ==== Proof.ScSets.lean ====
/-
  The two halves of the position numbers and of the gathered array partition them.

  The position numbers `[200]` are handed out as positions `[0, 96)` and `[96, 200)`; the gathered array `[200, 128]` as
  rows `[0, 96)` and `[96, 200)`, each with all 128 columns. In both cases the two parts share no element (the first
  ends on the leading axis where the second begins) and together hold every element (a leading coordinate below 200 is
  below 96 or not).
-/
import proofs.«202774_g12489764896814_cont_fleet_578_23_alg».proof.Proof.ScCommon

noncomputable section

namespace Cert.Kernel.Sc

open Cert.Kernel Cert.Kernel.Gen
open Idealize.ShloMosaic

/-- The two row ranges of the gathered array share no element. -/
theorem o_disj : Disjoint (oA).view.set (oB).view.set := by
  show Disjoint ((View.whole main_v0_scv).slice (Rect.unit (s := S200x128) ![0, 0] S96x128.size Facts₀.inb_S200x128_S96x128_0_0)).set
    ((View.whole main_v0_scv).slice (Rect.unit (s := S200x128) ![96, 0] S104x128.size Facts₀.inb_S200x128_S104x128_96_0)).set
  rw [View.set_slice_whole, View.set_slice_whole]
  exact Rect.unit_disjoint (0 : Fin 2) (Or.inl (Nat.le_refl 96))

/-- Together they are the whole gathered array. -/
theorem o_cover : (oA).view.set ∪ (oB).view.set = Finset.univ := by
  show ((View.whole main_v0_scv).slice (Rect.unit (s := S200x128) ![0, 0] S96x128.size Facts₀.inb_S200x128_S96x128_0_0)).set
    ∪ ((View.whole main_v0_scv).slice (Rect.unit (s := S200x128) ![96, 0] S104x128.size Facts₀.inb_S200x128_S104x128_96_0)).set = Finset.univ
  rw [View.set_slice_whole, View.set_slice_whole]
  ext i
  simp only [Finset.mem_union, Finset.mem_univ, iff_true]
  rw [Rect.mem_set_unit, Rect.mem_set_unit]
  have h0 : (i 0).val < 200 := (i 0).isLt
  have h1 : (i 1).val < 128 := (i 1).isLt
  by_cases h : (i 0).val < 96
  · left; intro a
    match a with
    | ⟨0, _⟩ => show 0 ≤ (i 0).val ∧ (i 0).val < 0 + 96; omega
    | ⟨1, _⟩ => show 0 ≤ (i 1).val ∧ (i 1).val < 0 + 128; omega
  · right; intro a
    match a with
    | ⟨0, _⟩ => show 96 ≤ (i 0).val ∧ (i 0).val < 96 + 104; omega
    | ⟨1, _⟩ => show 0 ≤ (i 1).val ∧ (i 1).val < 0 + 128; omega

/-- The two ranges of the position numbers share no element. -/
theorem c_disj : Disjoint (cA).view.set (cB).view.set := by
  show Disjoint ((View.whole main_c_scv).slice (Rect.unit (s := S200) ![0] S96.size Facts₀.inb_S200_S96_0)).set
    ((View.whole main_c_scv).slice (Rect.unit (s := S200) ![96] S104.size Facts₀.inb_S200_S104_96)).set
  rw [View.set_slice_whole, View.set_slice_whole]
  exact Rect.unit_disjoint (0 : Fin 1) (Or.inl (Nat.le_refl 96))

/-- Together they are all the position numbers. -/
theorem c_cover : (cA).view.set ∪ (cB).view.set = Finset.univ := by
  show ((View.whole main_c_scv).slice (Rect.unit (s := S200) ![0] S96.size Facts₀.inb_S200_S96_0)).set
    ∪ ((View.whole main_c_scv).slice (Rect.unit (s := S200) ![96] S104.size Facts₀.inb_S200_S104_96)).set = Finset.univ
  rw [View.set_slice_whole, View.set_slice_whole]
  ext i
  simp only [Finset.mem_union, Finset.mem_univ, iff_true]
  rw [Rect.mem_set_unit, Rect.mem_set_unit]
  have h0 : (i 0).val < 200 := (i 0).isLt
  by_cases h : (i 0).val < 96
  · left; intro a
    match a with
    | ⟨0, _⟩ => show 0 ≤ (i 0).val ∧ (i 0).val < 0 + 96; omega
  · right; intro a
    match a with
    | ⟨0, _⟩ => show 96 ≤ (i 0).val ∧ (i 0).val < 96 + 104; omega

end Cert.Kernel.Sc

end
-- ==== Proof.ScRegion.lean ====
/-
  The whole program's run: the launch of the SparseCore call, @main on the TensorCore around it — the constant
  position numbers, the call, then the addition region — and what the final memory holds.

  After the call the gathered array holds the table, row for row; the addition region then leaves, at entry
  `(b, l, d)` of the result, `x (b, l, d)` plus the gathered array's entry `(l, d)`, that is the table's.
-/
import proofs.«202774_g12489764896814_cont_fleet_578_23_alg».proof.Proof.ScTile
import proofs.«202774_g12489764896814_cont_fleet_578_23_alg».proof.Proof.RegionK
import proofs.«202774_g12489764896814_cont_fleet_578_23_alg».proof.Proof.Spec
import proofs.«202774_g12489764896814_cont_fleet_578_23_alg».proof.Proof.ScSets

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The call's operands split among the subcores -/

omit [FloatOps F] in
theorem bigSep_emp' {I : Type} (s : Finset I) : (bigSep s fun _ => iprop(emp)) = (iprop(emp) : sProp 𝕄) := bigSep_emp_const s

/-- All sixteen tasks' shares are subcore 0's. -/
theorem tiles_eq (d : Dev nD) (c : ℕ) (f : Buf (Elt F) (oLoc d)) :
    (bigSep Finset.univ fun i : Fin ((K (F := F)).nSub 0) => forTile m d c i.val f : sProp 𝕄)
      = iprop(forCore m d c f ∗ emp) := by
  rw [BI.bigSep_univ_split (⟨0, Nat.succ_pos 15⟩ : Fin ((K (F := F)).nSub 0))]
  rw [show forTile m d c (⟨0, Nat.succ_pos 15⟩ : Fin ((K (F := F)).nSub 0)).val f = forCore m d c f from forTile_zero m d c f]
  rw [bigSep_congr (fun (i : Fin ((K (F := F)).nSub 0)) hi => forTile_pos m d c i.val (fun h => (Finset.mem_erase.mp hi).1 (Fin.ext h)) f), bigSep_emp']
  rfl

theorem vecSplit : (K (F := F)).VecSplit' (P m) 0 := by
  intro d c
  show forCore m d c.val (m (oLoc d)) ⊢ |={Set.univ}=> iprop(
      (bigSep Finset.univ fun i : Fin ((K (F := F)).nSub 0) => forTile m d c.val i.val (m (oLoc d)))
      ∗ ((bigSep Finset.univ fun i : Fin ((K (F := F)).nSub 0) => forTile m d c.val i.val (peAsO m d)) -∗ forCore m d c.val (peAsO m d)))
  rw [tiles_eq, tiles_eq]
  iintro H; imodintro
  isplitl [H]
  · isplitl [H]; · iexact H
    iempintro
  iintro ⟨H, -⟩; iexact H

/-! ## The launch element: the handshakes' rounds, the addition region's staging cells, no transfer yet counted -/

abbrev adm : (p : Fin 1) → (pcfgs (F := F) p).Adm := fun p => (cfgs p).toPCfg_adm

theorem cellOf_inj' : Function.Injective (Pipeline.cellOf (nD := nD) (τ := τ) (Pipeline.pin (pcfgs (F := F)) adm)) := Gen.cellOf_inj

def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), (1 : Counters)))

/-- The region's staging cells' ghost state and duty tokens, which @main's proof enters the region with. -/
def GP (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (show BI.own (((Emb.inl : Emb UP (UP × Counters)).trans (embR : Emb (UP × Counters) 𝕄)) _) ⊢ BI.own ((EP : Emb UP 𝕄) _) from BI.Entails.refl _) $$ HP
  imod (Pipeline.fund_ghost (Pipeline.pin (pcfgs (F := F)) adm) (EP : Emb UP 𝕄) cellOf_inj') $$ HP' with ⟨Hg, Ht⟩
  imodintro
  isplitl [HH]; · iexact HH
  isplitl [Hg Ht]
  · unfold GP
    rw [bigSep_sep']
    isplitl [Hg]
    · ihave Hg' := (Entails.of_eq (bigSep_congr fun d _ => (bigSep_univ_of_subsingleton (0 : Fin 1)))) $$ Hg
      iexact Hg'
    · ihave Ht' := (Entails.of_eq (bigSep_congr fun d _ => (bigSep_univ_of_subsingleton (0 : Fin 1)))) $$ Ht
      iexact Ht'
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (peLoc d ↦{fullShare} W main_arg1) ∗ (cLoc d ↦{fullShare} W main_c)
      ∗ (oLoc d ↦{fullShare} W main_v0) ∗ rLoc d ↦{fullShare} W main_v1) := by
  unfold unscopedBufs
  rw [show (Finset.univ.filter fun b : Ref sig .tc => ¬ b.isScoped) = {main_arg0, main_arg1, main_c, main_v0, main_v1} by decide,
    SparseCore.bigSep_insert' (by decide), SparseCore.bigSep_insert' (by decide), SparseCore.bigSep_insert' (by decide),
    SparseCore.bigSep_insert' (by decide), bigSep_singleton]

abbrev c' : DevRef τ sig := Proc.devRef .tc (main_c : Ref sig .tc)
abbrev opC : HloOp τ sig (Elt F) := StableHlo.nullary main_c (fun i => lit0 (S200.rowMajor i))
def V0 (d : Dev nD) : Valuation τ sig (Elt F) := fun b => m (d, b)

/-- The arrays as the addition region finds them: the position numbers written, the gathered array at the table. -/
def Vr (d : Dev nD) (b : Ref sig .tc) : Buf (Elt F) ((d.tc : Thread nD τ).loc b) :=
  Function.update (Function.update (fun b => m ((d.tc : Thread nD τ).loc b)) main_c (cval (F := F) d)) main_v0 (peAsO m d) b

theorem Vr_x (d : Dev nD) : Vr m d main_arg0 = m (xLoc d) := by
  unfold Vr; rw [Function.update_of_ne (by decide : (_ : Ref sig .tc) ≠ _), Function.update_of_ne (by decide : (_ : Ref sig .tc) ≠ _)]
theorem Vr_pe (d : Dev nD) : Vr m d main_arg1 = m (peLoc d) := by
  unfold Vr; rw [Function.update_of_ne (by decide : (_ : Ref sig .tc) ≠ _), Function.update_of_ne (by decide : (_ : Ref sig .tc) ≠ _)]
theorem Vr_c (d : Dev nD) : Vr m d main_c = cval (F := F) d := by
  unfold Vr; rw [Function.update_of_ne (by decide : (_ : Ref sig .tc) ≠ _), Function.update_self]
theorem Vr_o (d : Dev nD) : Vr m d main_v0 = peAsO m d := by
  unfold Vr; rw [Function.update_self]
theorem Vr_r (d : Dev nD) : Vr m d main_v1 = m (rLoc d) := by
  unfold Vr; rw [Function.update_of_ne (by decide : (_ : Ref sig .tc) ≠ _), Function.update_of_ne (by decide : (_ : Ref sig .tc) ≠ _)]

/-- The pairs the TensorCore may have recorded before the region: at levels of the call. -/
def Rec (d : Dev nD) : Set (SemLoc sig × HIx 1) := {p | (K (F := F)).lev (T d, p.1) p.2 ≤ 8}

/-- The addition region's proof data. -/
def pdats (p : Fin 1) (c : Dev nD) : Pipeline.Dat τ (Elt F) (HIx 1) ℕ UU ℕ (Pipeline.pin (pcfgs (F := F)) adm p) c :=
  Region.dats (Ix := HIx 1) (U := UU) (Vr m) (Rec (F := F)) p c

theorem hshare (c : Dev nD) (w : Fin cfg1.W) : (pdats m 0 c).share w = fullShare :=
  (pdats m 0 c).share_full (fun w => Region.q_eq (Ix := HIx 1) (U := UU) (Vr m) (Rec (F := F)) c w) w

omit [FloatOps F] in
theorem prefHeld_emp (c : Dev nD) (q) (pf) :
    (Pipeline.prefHeld (Ix := HIx 1) (Name := ℕ) (U := UU) (Lvl := ℕ) (Val := Elt F) (pcfgs (F := F) 0).pre c q pf : sProp 𝕄) = BI.emp := by
  unfold Pipeline.prefHeld; rw [Finset.univ_eq_empty, BI.bigSep_empty]

/-- The TensorCore's debts and recorded waits, as it enters and leaves the region: nothing owed, every recorded pair
    at a level of the call. -/
abbrev owesTc (c : Dev nD) : sProp 𝕄 := iprop(∃ W, ⌜(K (F := F)).WBelow (T c) W 8⌝ ∗ owes (T c) (0 : CellTallies nD τ sig (HIx 1)) W)

/-- The addition region. -/
def reg : Pipeline.RegionSeg (pcfgs (F := F)) adm (pdats m) (none : HIx 1) defs₀ 𝒱₀ (K (F := F)).L (K (F := F)).lev 0 where
  win := winFacts1.to₀
  block_pos := block_pos1
  stage_whole := stage_whole1
  K := PEmpty
  osem k := k.elim
  ho := Pipeline.OwnSemFacts.none _
  hbody c := (Region.body_obligation (Ix := HIx 1) (U := UU) (Vr m) (Rec (F := F)) none c).loose
  hwaits := Pipeline.hwaits_of_owed_zero _ _ _ _ _ _ 0 fun _ _ => rfl
  pre c := iprop(unscopedBufs c (Vr m c) ∗ (∃ r, prngReg c r) ∗ owesTc (F := F) c)
  post c := iprop((xLoc c ↦{fullShare} m (xLoc c)) ∗ (peLoc c ↦{fullShare} m (peLoc c))
    ∗ (rLoc c ↦{fullShare} Cert.Spec.G (m (xLoc c)) (m (peLoc c))) ∗ (∃ r, prngReg c r) ∗ owesTc (F := F) c)
  X c := iprop(∃ r, prngReg c r)
  Y c := iprop(∃ r, prngReg c r)
  Z c := Pipeline.unscopedRest spec1 c (Vr m c)
  hentry c := by
    rw [Pipeline.ownSems0_none, prefHeld_emp]
    iintro ⟨⟨Hu, Hp, %W, %hW, HO⟩, -, -⟩
    ihave Ha := (Pipeline.arrays_of_unscopedBufs (pcfgs (F := F)) adm (pdats m) (p := 0) winFacts1 arr_whole1 c (hshare m c) (Vr m c)
      (fun w => Region.A_eq (Ix := HIx 1) (U := UU) (Vr m) (Rec (F := F)) c w)) $$ Hu
    icases Ha with ⟨Ha, Hz⟩
    imodintro
    isplitl [Ha]; · iexact Ha
    isplitr; · iempintro
    isplitl [HO]
    · iexists W; isplitr
      · ipureintro; intro p hp; exact Or.inl (hW p hp)
      · iexact HO
    isplitl [Hp]; · iexact Hp
    iexact Hz
  hin c := by
    rw [show (pdats m 0 c).Φ 0 = Region.ΦR (F := F) (Ix := HIx 1) (U := UU) c from rfl]
    unfold Region.ΦR
    iintro ⟨HX, -, Hs⟩
    isplitl [Hs]; · iexact Hs
    iexact HX
  hout c := by
    rw [show (pdats m 0 c).Φ (Fin.last _) = Region.ΦR (F := F) (Ix := HIx 1) (U := UU) c from rfl, Pipeline.ownSems0_none]
    unfold Region.ΦR
    iintro ⟨Hs, HX⟩
    isplitl [HX]; · iexact HX
    isplitr; · iempintro
    iexact Hs
  hexit c := by
    rw [Pipeline.arrays_eq (Pipeline.pin (pcfgs (F := F)) adm) (pdats m) 0 c arr_whole1 (hshare m c), Gen.bigSep_W1, Gen.unscopedRest1_eq]
    have e0 : (pdats m 0 c).arrAt 0 (Pipeline.pin (pcfgs (F := F)) adm 0).N = m (xLoc c) :=
      (Region.final_in0 (Ix := HIx 1) (U := UU) (Vr m) (Rec (F := F)) c _).trans (Vr_x m c)
    have e2 : (pdats m 0 c).arrAt 2 (Pipeline.pin (pcfgs (F := F)) adm 0).N = Cert.Spec.G (m (xLoc c)) (m (peLoc c)) :=
      (Region.final_out (Ix := HIx 1) (U := UU) (Vr m) (Rec (F := F)) c).trans (by rw [Vr_x, Vr_o]; rfl)
    iintro ⟨⟨Hx, -, Hr⟩, ⟨%W, %hW, HO⟩, Hp, Hpe, -⟩
    ihave Hx' := (Entails.of_eq (congrArg (fun f => (xLoc c ↦{fullShare} f : sProp 𝕄)) e0)) $$ Hx
    ihave Hr' := (Entails.of_eq (congrArg (fun f => (rLoc c ↦{fullShare} f : sProp 𝕄)) e2)) $$ Hr
    ihave Hpe' := (Entails.of_eq (congrArg (fun f => (peLoc c ↦{fullShare} f : sProp 𝕄)) (Vr_pe m c))) $$ Hpe
    imodintro
    isplitl [Hx']; · iexact Hx'
    isplitl [Hpe']; · iexact Hpe'
    isplitl [Hr']; · iexact Hr'
    isplitl [Hp]; · iexact Hp
    iexists W; isplitr
    · ipureintro; intro p hp
      rcases hW hp with h | ⟨w, s, h⟩
      · exact h
      · subst h; exact Nat.zero_le _
    · iexact HO

/-! ### The region's step inside the SparseCore program's body table -/

set_option backward.isDefEq.respectTransparency.types false in
set_option maxHeartbeats 2000000 in
/-- The addition region on the TensorCore of `d`, as @main of the whole program calls it: from the region's entry state,
    its staging cells' ghost state and the level facts to its exit state. -/
theorem wp_region (d : Dev nD) (Q : PUnit → sProp 𝕄) :
    iprop((iprop(boundary (d.tc : Thread nD τ) ∗ (reg m).post d)
          -∗ wp frame (wpE (D (F := F)) 𝒱 (d.tc : Thread nD τ) none) Set.univ (.ret ⟨⟩) Q)
        ∗ boundary (d.tc : Thread nD τ) ∗ (reg m).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun _ => .ret ⟨⟩) Q :=
  Pipeline.RegionSeg.wp (pcfgs (F := F)) adm (pdats m) (none : HIx 1) cellOf_inj' EP defs₀ 𝒱₀ (K (F := F)).L (K (F := F)).lev (reg m) d none
    (fun u hu => nomatch hu) (fun _ => .ret ⟨⟩) Q

end Cert.Kernel.Sc

end
-- ==== Proof.ScValue.lean ====
/-
  What a working subcore's three copies leave in the gathered array, as pure data movement.

  The first subcore copies position numbers 0..95 over its whole list buffer; the indirect gather writes into its
  row buffer, at row `k`, the table's row whose number is entry `k` of the list; the row buffer is then copied
  whole onto rows 0..95 of the gathered array. Entry `k` of the list is `k`, so on those rows the gathered array
  ends equal to the table. The second subcore does the same with position numbers 96..199: entry `k` of its list is
  `96 + k` and its row buffer lands on rows 96..199, so row `96 + k` of the gathered array is row `96 + k` of the
  table. Nothing here runs a program: both statements are equations between contents.
-/
import proofs.«202774_g12489764896814_cont_fleet_578_23_alg».proof.Proof.ScCommon
import Idealize.ShloMosaic.Lib.Writes

noncomputable section

namespace Cert.Kernel.Sc

open Cert.Kernel Cert.Kernel.Gen
open Idealize.ShloMosaic

variable {F : FTy → Type}

local notation "sIa" => (Memref.whole Cert.Kernel.cc0_scratch0 : Memref Cert.Kernel.sig Kind.scVector Space.vmem Cert.Kernel.S96 EltTy.i32)
local notation "sIb" => (Memref.whole Cert.Kernel.cc0_scratch1 : Memref Cert.Kernel.sig Kind.scVector Space.vmem Cert.Kernel.S104 EltTy.i32)
local notation "sRa" => (Memref.whole Cert.Kernel.cc0_scratch2 : Memref Cert.Kernel.sig Kind.scVector Space.vmem Cert.Kernel.S96x128 EltTy.f32)
local notation "sRb" => (Memref.whole Cert.Kernel.cc0_scratch3 : Memref Cert.Kernel.sig Kind.scVector Space.vmem Cert.Kernel.S104x128 EltTy.f32)

/-! ## Small facts about the literal table and about indices of literal shapes -/

/-- The literal table of position numbers holds `k` at position `k`. -/
theorem lit0_toNat : ∀ k : Fin 200, (lit0 k).toNat = k.val := by decide

/-- A position in a one-axis shape is its one coordinate. -/
theorem rowMajor_symm_val {n : Nat} (k : Fin (⟨1, ![n]⟩ : Shape).numel) :
    (((⟨1, ![n]⟩ : Shape).rowMajor.symm k) 0).val = k.val := by
  have h := Shape.rowMajor_val_one (d := ![n]) ((⟨1, ![n]⟩ : Shape).rowMajor.symm k)
  rw [Equiv.apply_symm_apply] at h
  exact h.symm

/-- Two indices of a two-axis shape with equal coordinates are equal. -/
theorem idx2_ext {n0 n1 : Nat} (u v : (⟨2, ![n0, n1]⟩ : Shape).Idx) (h0 : (u 0).val = (v 0).val) (h1 : (u 1).val = (v 1).val) :
    u = v := by
  funext a
  match a with
  | ⟨0, _⟩ => exact Fin.ext h0
  | ⟨1, _⟩ => exact Fin.ext h1

/-! ## The first subcore: rows 0..95 -/

/-- The rows the first subcore's list names: entry `k` of the list, position numbers 0..95 copied over the whole list buffer, is `k`. -/
theorem rowsA_val (d d' : Dev nD) (c : Fin τ.nSC) (j : Fin τ.nSub)
    (fi : Buf (Elt F) ((sIa).view.loc (SparseCore.V d' c j)))
    (hn : S96.numel = S96x128.size Facts₀.gathers_S200x128_S96x128.axis')
    (hin : ∀ x, ((View.read (Elt F) (sIa).view (View.write (Elt F) (sIa).view fi (View.read (Elt F) (cA).view (cval (F := F) d)) Finset.univ)) x).toNat
        < S200x128.size Facts₀.gathers_S200x128_S96x128.axis)
    (k : Fin (S96x128.size Facts₀.gathers_S200x128_S96x128.axis')) :
    (SparseCore.rows (View.read (Elt F) (sIa).view (View.write (Elt F) (sIa).view fi (View.read (Elt F) (cA).view (cval (F := F) d)) Finset.univ)) hn hin k).val
      = k.val := by
  show ((View.read (Elt F) (sIa).view (View.write (Elt F) (sIa).view fi (View.read (Elt F) (cA).view (cval (F := F) d)) Finset.univ))
      (S96.rowMajor.symm (k.cast hn.symm))).toNat = k.val
  rw [View.read_write_univ, View.read_apply, cast_eq]
  refine (lit0_toNat (S200.rowMajor ((cA).view.emb (S96.rowMajor.symm (k.cast hn.symm))))).trans ?_
  refine (Shape.rowMajor_val_one (d := ![200]) ((cA).view.emb (S96.rowMajor.symm (k.cast hn.symm)))).trans ?_
  show 0 + 1 * ((S96.rowMajor.symm (k.cast hn.symm)) 0).val = k.val
  refine (congrArg (fun t => 0 + 1 * t) (rowMajor_symm_val (n := 96) (k.cast hn.symm))).trans ?_
  show 0 + 1 * k.val = k.val
  omega

/-- After the first subcore's copies, an element of rows 0..95 of the gathered array is the table's element at the same place: the row buffer, copied whole onto those rows, holds at row `k` the table's row that entry `k` of the list names, which is row `k`. -/
theorem valueA (d d' : Dev nD) (c : Fin τ.nSC) (j : Fin τ.nSub) (pe : Buf (Elt F) (peLoc d)) (o : Buf (Elt F) (oLoc d))
    (fi : Buf (Elt F) ((sIa).view.loc (SparseCore.V d' c j))) (fr : Buf (Elt F) ((sRa).view.loc (SparseCore.V d' c j)))
    (hn : S96.numel = S96x128.size Facts₀.gathers_S200x128_S96x128.axis')
    (hin : ∀ x, ((View.read (Elt F) (sIa).view (View.write (Elt F) (sIa).view fi (View.read (Elt F) (cA).view (cval (F := F) d)) Finset.univ)) x).toNat
        < S200x128.size Facts₀.gathers_S200x128_S96x128.axis)
    (i : Idx (oLoc d)) (hi : i ∈ (oA).view.set) :
    (oA).view.writes (Elt F) o [⟨Rect.whole S96x128, (sRa).view.read (Elt F) (View.write (Elt F) (sRa).view fr
        (SparseCore.gatherPayload Facts₀.gathers_S200x128_S96x128 (View.read (Elt F) (peAll).view pe)
          (SparseCore.rows (View.read (Elt F) (sIa).view (View.write (Elt F) (sIa).view fi (View.read (Elt F) (cA).view (cval (F := F) d)) Finset.univ)) hn hin))
        Finset.univ)⟩] i
      = pe i := by
  obtain ⟨y, -, rfl⟩ := Finset.mem_map.mp hi
  rw [View.writes_singleton]
  -- the whole-shape rectangle of the slice places an index where the slice does
  have e : (oA).view.emb y = ((oA).view.slice (Rect.whole S96x128)).emb y := by
    rw [View.emb_slice]
    show _ = (oA).view.emb ((Rect.whole S96x128).emb y)
    rw [Rect.emb_whole_apply]
  -- the element written is the row buffer's, which holds the gather's payload
  rw [e, View.write_emb_of_mem _ _ (Finset.mem_univ _), View.read_write_univ]
  unfold SparseCore.gatherPayload
  rw [View.read_apply, cast_cast, cast_eq, ← e]
  -- the table's entry the payload reads is the entry at the destination's own place
  congr 1
  refine idx2_ext _ _ ?_ ?_
  · have h1 := congrArg Fin.val (Shape.Gathers.idx_axis Facts₀.gathers_S200x128_S96x128
      (SparseCore.rows (View.read (Elt F) (sIa).view (View.write (Elt F) (sIa).view fi (View.read (Elt F) (cA).view (cval (F := F) d)) Finset.univ)) hn hin) y)
    have h2 := rowsA_val d d' c j fi hn hin (y Facts₀.gathers_S200x128_S96x128.axis')
    show 0 + 1 * (Facts₀.gathers_S200x128_S96x128.idx _ y Facts₀.gathers_S200x128_S96x128.axis).val
      = 0 + 1 * (y Facts₀.gathers_S200x128_S96x128.axis').val
    rw [h1, h2]
  · have h1 := Shape.Gathers.idx_of_ne Facts₀.gathers_S200x128_S96x128
      (SparseCore.rows (View.read (Elt F) (sIa).view (View.write (Elt F) (sIa).view fi (View.read (Elt F) (cA).view (cval (F := F) d)) Finset.univ)) hn hin) y
      1 (by decide)
    show 0 + 1 * (Facts₀.gathers_S200x128_S96x128.idx _ y 1).val = 0 + 1 * (y 1).val
    rw [h1]
    rfl

/-! ## The second subcore: rows 96..199 -/

/-- The rows the second subcore's list names: entry `k` of the list, position numbers 96..199 copied over the whole list buffer, is `96 + k`. -/
theorem rowsB_val (d d' : Dev nD) (c : Fin τ.nSC) (j : Fin τ.nSub)
    (fi : Buf (Elt F) ((sIb).view.loc (SparseCore.V d' c j)))
    (hn : S104.numel = S104x128.size Facts₀.gathers_S200x128_S104x128.axis')
    (hin : ∀ x, ((View.read (Elt F) (sIb).view (View.write (Elt F) (sIb).view fi (View.read (Elt F) (cB).view (cval (F := F) d)) Finset.univ)) x).toNat
        < S200x128.size Facts₀.gathers_S200x128_S104x128.axis)
    (k : Fin (S104x128.size Facts₀.gathers_S200x128_S104x128.axis')) :
    (SparseCore.rows (View.read (Elt F) (sIb).view (View.write (Elt F) (sIb).view fi (View.read (Elt F) (cB).view (cval (F := F) d)) Finset.univ)) hn hin k).val
      = 96 + k.val := by
  show ((View.read (Elt F) (sIb).view (View.write (Elt F) (sIb).view fi (View.read (Elt F) (cB).view (cval (F := F) d)) Finset.univ))
      (S104.rowMajor.symm (k.cast hn.symm))).toNat = 96 + k.val
  rw [View.read_write_univ, View.read_apply, cast_eq]
  refine (lit0_toNat (S200.rowMajor ((cB).view.emb (S104.rowMajor.symm (k.cast hn.symm))))).trans ?_
  refine (Shape.rowMajor_val_one (d := ![200]) ((cB).view.emb (S104.rowMajor.symm (k.cast hn.symm)))).trans ?_
  show 96 + 1 * ((S104.rowMajor.symm (k.cast hn.symm)) 0).val = 96 + k.val
  refine (congrArg (fun t => 96 + 1 * t) (rowMajor_symm_val (n := 104) (k.cast hn.symm))).trans ?_
  show 96 + 1 * k.val = 96 + k.val
  omega

/-- After the second subcore's copies, an element of rows 96..199 of the gathered array is the table's element at the same place: the row buffer, copied whole onto those rows, holds at row `k` the table's row that entry `k` of the list names, row `96 + k`, and lands on row `96 + k`. -/
theorem valueB (d d' : Dev nD) (c : Fin τ.nSC) (j : Fin τ.nSub) (pe : Buf (Elt F) (peLoc d)) (o : Buf (Elt F) (oLoc d))
    (fi : Buf (Elt F) ((sIb).view.loc (SparseCore.V d' c j))) (fr : Buf (Elt F) ((sRb).view.loc (SparseCore.V d' c j)))
    (hn : S104.numel = S104x128.size Facts₀.gathers_S200x128_S104x128.axis')
    (hin : ∀ x, ((View.read (Elt F) (sIb).view (View.write (Elt F) (sIb).view fi (View.read (Elt F) (cB).view (cval (F := F) d)) Finset.univ)) x).toNat
        < S200x128.size Facts₀.gathers_S200x128_S104x128.axis)
    (i : Idx (oLoc d)) (hi : i ∈ (oB).view.set) :
    (oB).view.writes (Elt F) o [⟨Rect.whole S104x128, (sRb).view.read (Elt F) (View.write (Elt F) (sRb).view fr
        (SparseCore.gatherPayload Facts₀.gathers_S200x128_S104x128 (View.read (Elt F) (peAll).view pe)
          (SparseCore.rows (View.read (Elt F) (sIb).view (View.write (Elt F) (sIb).view fi (View.read (Elt F) (cB).view (cval (F := F) d)) Finset.univ)) hn hin))
        Finset.univ)⟩] i
      = pe i := by
  obtain ⟨y, -, rfl⟩ := Finset.mem_map.mp hi
  rw [View.writes_singleton]
  -- the whole-shape rectangle of the slice places an index where the slice does
  have e : (oB).view.emb y = ((oB).view.slice (Rect.whole S104x128)).emb y := by
    rw [View.emb_slice]
    show _ = (oB).view.emb ((Rect.whole S104x128).emb y)
    rw [Rect.emb_whole_apply]
  -- the element written is the row buffer's, which holds the gather's payload
  rw [e, View.write_emb_of_mem _ _ (Finset.mem_univ _), View.read_write_univ]
  unfold SparseCore.gatherPayload
  rw [View.read_apply, cast_cast, cast_eq, ← e]
  -- the table's entry the payload reads is the entry at the destination's own place
  congr 1
  refine idx2_ext _ _ ?_ ?_
  · have h1 := congrArg Fin.val (Shape.Gathers.idx_axis Facts₀.gathers_S200x128_S104x128
      (SparseCore.rows (View.read (Elt F) (sIb).view (View.write (Elt F) (sIb).view fi (View.read (Elt F) (cB).view (cval (F := F) d)) Finset.univ)) hn hin) y)
    have h2 := rowsB_val d d' c j fi hn hin (y Facts₀.gathers_S200x128_S104x128.axis')
    show 0 + 1 * (Facts₀.gathers_S200x128_S104x128.idx _ y Facts₀.gathers_S200x128_S104x128.axis).val
      = 96 + 1 * (y Facts₀.gathers_S200x128_S104x128.axis').val
    rw [h1, h2]
    omega
  · have h1 := Shape.Gathers.idx_of_ne Facts₀.gathers_S200x128_S104x128
      (SparseCore.rows (View.read (Elt F) (sIb).view (View.write (Elt F) (sIb).view fi (View.read (Elt F) (cB).view (cval (F := F) d)) Finset.univ)) hn hin) y
      1 (by decide)
    show 0 + 1 * (Facts₀.gathers_S200x128_S104x128.idx _ y 1).val = 0 + 1 * (y 1).val
    rw [h1]
    rfl

end Cert.Kernel.Sc

end
-- ==== Proof.ScMain.lean ====
/-
  The whole program's run: the launch of the SparseCore call, @main on the TensorCore around it — the constant
  position numbers, the call, then the addition region — and what the final memory holds.

  After the call the gathered array holds the table, row for row; the addition region then leaves, at entry
  `(b, l, d)` of the result, `x (b, l, d)` plus the gathered array's entry `(l, d)`, that is the table's.
-/
import proofs.«202774_g12489764896814_cont_fleet_578_23_alg».proof.Proof.ScRegion
import proofs.«202774_g12489764896814_cont_fleet_578_23_alg».proof.Proof.ScValue

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ### The run of @main -/

abbrev FIN (d : Dev nD) : sProp 𝕄 :=
  iprop((xLoc d ↦{fullShare} m (xLoc d)) ∗ (peLoc d ↦{fullShare} m (peLoc d)) ∗ rLoc d ↦{fullShare} Cert.Spec.G (m (xLoc d)) (m (peLoc d)))

theorem st0_eq (d : Dev nD) : (bigSep Finset.univ fun c : Fin ((K (F := F)).nCore 0) => (P m).st 0 d c)
    = iprop(forCore m d 0 (m (oLoc d)) ∗ forCore m d 1 (m (oLoc d))) := by
  show (bigSep (Finset.univ : Finset (Fin 2)) fun c => forCore m d c.val (m (oLoc d))) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c)
    = iprop(forCore m d 0 (peAsO m d) ∗ forCore m d 1 (peAsO m d)) := by
  show (bigSep (Finset.univ : Finset (Fin 2)) fun c => forCore m d c.val (peAsO m d)) = _
  rw [show (Finset.univ : Finset (Fin 2)) = {0, 1} by decide, SparseCore.bigSep_insert' (by decide), bigSep_singleton]
  rfl

/-- The region's call in @main of the whole program is the region's call, lifted to the whole program's labels. -/
theorem lift_call :
    (SparseCore.liftProg (Q := 1) (.op (.customCall (Pipeline.entry 0) ()) fun _ => .ret ⟨⟩
        : Prog (TpuEff nD τ sig (Elt F) (ΛP (F := F)) .tc) PUnit)
      : Prog (TpuEff nD τ sig (Elt F) (SparseCore.Sig (ΛP (F := F)) 1) .tc) PUnit)
      = Prog.lift (.customCall (SparseCore.inner (Pipeline.entry 0)) ()) := rfl

theorem lift_wp (d : Dev nD) (Q : PUnit → sProp 𝕄) :
    wp frame (wpE (D (F := F)) 𝒱 (d.tc : Thread nD τ) none) Set.univ (.op (.customCall (Pipeline.entry 0) ()) fun _ => .ret ⟨⟩) Q
      ⊢ wp frame (wpE ((K (F := F)).defs (D (F := F))) 𝒱 (d.tc : Thread nD τ) none) Set.univ
          (SparseCore.liftProg (Q := 1) (.op (.customCall (Pipeline.entry 0) ()) fun _ => .ret ⟨⟩)) Q :=
  (K (F := F)).wp_liftProg (D (F := F)) 𝒱 (d.tc : Thread nD τ) Set.univ none _ Q

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hpe, Hc, Ho, Hr⟩, -, Hprng⟩, Hgp⟩
  -- the position numbers' constant
  iapply (wp_hlo_within 𝒱 (SparseCore.T d) none Set.univ (op := opC (F := F)) (S := {c'}) (Finset.Subset.refl _) (V := V0 m d)) $$ [Hb Hc]
  · isplitl [Hb]; · iexact Hb
    unfold held; rw [bigSep_singleton]; iexact Hc
  iintro ⟨Hb, Hheld⟩
  ihave Hc := (Entails.of_eq (show (held (SparseCore.T d) {c'} ((opC (F := F)).result (V0 m d)) : sProp 𝕄) = (cLoc d ↦{fullShare} cval (F := F) d) from by
      unfold held; rw [bigSep_singleton]
      exact congrArg (fun f => (cLoc d ↦{fullShare} f : sProp 𝕄)) (StableHlo.nullary_result main_c _ _ (V0 m d)))) $$ Hheld
  rw [wp_ret]; imodintro
  -- the call: each SparseCore half a share of the table, its rows of the position numbers and of the gathered array
  ihave Hpes := (pointsTo_share (PosShare.mem_left_op_right fullShare)).1 $$ Hpe
  icases Hpes with ⟨HpeL, HpeR⟩
  ihave Hc2 := (Entails.of_eq (show (cLoc d ↦{fullShare} cval (F := F) d : sProp 𝕄) = (cLoc d ↦[(cA).view.set ∪ (cB).view.set]{fullShare} cval (F := F) d) from by rw [c_cover])) $$ Hc
  ihave Hcs := (pointsTo_union (ℓ := cLoc d) (q := fullShare) (f := cval (F := F) d) (I := (cA).view.set) (J := (cB).view.set) c_disj).1 $$ Hc2
  icases Hcs with ⟨HcA, HcB⟩
  ihave Ho2 := (Entails.of_eq (show (oLoc d ↦{fullShare} m (oLoc d) : sProp 𝕄) = (oLoc d ↦[(oA).view.set ∪ (oB).view.set]{fullShare} m (oLoc d)) from by rw [o_cover])) $$ Ho
  ihave Hos := (pointsTo_union (ℓ := oLoc d) (q := fullShare) (f := m (oLoc d)) (I := (oA).view.set) (J := (oB).view.set) o_disj).1 $$ Ho2
  icases Hos with ⟨HoA, HoB⟩
  iapply ((K (F := F)).wp_run (D (F := F)) 𝒱 (EH := EH) (P := P m) κ d 0) $$ [Hst HpeL HpeR HcA HcB HoA HoB Hb Hx Hr Hprng Hgp]
  isplitr; · iexact Hctx
  isplitl [Hst]; · iexact Hst
  isplitl [HpeL HpeR HcA HcB HoA HoB]
  · rw [st0_eq, forCore_zero, forCore_one]
    isplitl [HpeL HcA HoA]
    · isplitl [HpeL]; · iexact HpeL
      isplitl [HcA]; · iexact HcA
      iexact HoA
    · isplitl [HpeR]; · iexact HpeR
      isplitl [HcB]; · iexact HcB
      iexact HoB
  iintro ⟨Hst, Hdn⟩
  ihave Hdn' := (Entails.of_eq ((dn0_eq m d).trans (by rw [forCore_zero, forCore_one]))) $$ Hdn
  icases Hdn' with ⟨⟨HpeL, HcA, HoA⟩, ⟨HpeR, HcB, HoB⟩⟩
  ihave Hpe := (pointsTo_share (PosShare.mem_left_op_right fullShare)).2 $$ [HpeL HpeR]; · isplitl [HpeL] <;> iassumption
  ihave Hc2 := (pointsTo_union (ℓ := cLoc d) (q := fullShare) (f := cval (F := F) d) (I := (cA).view.set) (J := (cB).view.set) c_disj).2 $$ [HcA HcB]; · isplitl [HcA] <;> iassumption
  ihave Hc := (Entails.of_eq (show (cLoc d ↦[(cA).view.set ∪ (cB).view.set]{fullShare} cval (F := F) d : sProp 𝕄) = (cLoc d ↦{fullShare} cval (F := F) d) from by rw [c_cover])) $$ Hc2
  ihave Ho2 := (pointsTo_union (ℓ := oLoc d) (q := fullShare) (f := peAsO m d) (I := (oA).view.set) (J := (oB).view.set) o_disj).2 $$ [HoA HoB]; · isplitl [HoA] <;> iassumption
  ihave Ho := (Entails.of_eq (show (oLoc d ↦[(oA).view.set ∪ (oB).view.set]{fullShare} peAsO m d : sProp 𝕄) = (oLoc d ↦{fullShare} peAsO m d) from by rw [o_cover])) $$ Ho2
  -- the addition region
  unfold SparseCore.Cfg.tcSt
  icases Hst with ⟨⟨%W, %hW, HO⟩, Hrest⟩
  ihave HO0 := (Entails.of_eq (congrArg (fun O => (owes (SparseCore.T d) O W : sProp 𝕄)) ((K (F := F)).Otc_end d (n := (0 : Fin 1).val + 1) (le_refl 1)))) $$ HO
  ihave Hlv := (SparseCore.Cfg.ctx_levAts κ) $$ Hctx
  unfold GP
  icases Hgp with ⟨Hg, Ht⟩
  rw [← lift_call (F := F)]
  iapply (lift_wp (F := F) d _)
  iapply (wp_region m d _) $$ [Hb Hx Hpe Hc Ho Hr Hprng HO0 Hg Ht Hrest]
  isplitl [Hrest]
  · iintro ⟨Hb, Hpost⟩
    rw [wp_ret]
    ihave Hpost' := (Entails.of_eq (show (reg m).post d = iprop((xLoc d ↦{fullShare} m (xLoc d)) ∗ (peLoc d ↦{fullShare} m (peLoc d))
      ∗ (rLoc d ↦{fullShare} Cert.Spec.G (m (xLoc d)) (m (peLoc d))) ∗ (∃ r, prngReg d r) ∗ owesTc (F := F) d) from rfl)) $$ Hpost
    icases Hpost' with ⟨Hx, Hpe, Hr, -, %W', %hW', HO⟩
    imodintro; imodintro
    isplitl [HO Hrest]
    · isplitl [HO]
      · iexists W'; isplitr
        · ipureintro; exact hW'
        · iapply (Entails.of_eq (congrArg (fun O => (owes (SparseCore.T d) O W' : sProp 𝕄)) ((K (F := F)).Otc_end d (n := 1) (le_refl 1)).symm)); iexact HO
      · iexact Hrest
    · isplitl [Hx]; · iexact Hx
      isplitl [Hpe]; · iexact Hpe
      iexact Hr
  isplitl [Hb]; · iexact Hb
  isplitl [Hx Hpe Hc Ho Hr Hprng HO0]
  · rw [show (reg m).pre d = iprop(unscopedBufs d (Vr m d) ∗ (∃ r, prngReg d r) ∗ owesTc (F := F) d) from rfl, unscopedBufs_eq, Vr_x, Vr_pe, Vr_c, Vr_o, Vr_r]
    isplitl [Hx Hpe Hc Ho Hr]
    · isplitl [Hx]; · iexact Hx
      isplitl [Hpe]; · iexact Hpe
      isplitl [Hc]; · iexact Hc
      isplitl [Ho]; · iexact Ho
      iexact Hr
    isplitl [Hprng]; · iexists _; iexact Hprng
    iexists W; isplitr
    · ipureintro; exact hW
    · iexact HO0
  isplitr; · iexact Hlv
  isplitl [Hg]; · iexact Hg
  iexact Ht

/-! ### The final memory -/

def fq (d : Dev nD) (s' : Phys nD τ sig (Elt F)) : Prop :=
  s'.mem.mem (rLoc d) = Cert.Spec.G (m (xLoc d)) (m (peLoc d)) ∧ s'.mem.mem (xLoc d) = m (xLoc d) ∧ s'.mem.mem (peLoc d) = m (peLoc d)

set_option maxRecDepth 16384 in
theorem hfin (d : Dev nD) (s' : Phys nD τ sig (Elt F)) : iprop(FIN m d ∗ SI s') ⊢ (⌜fq m d s'⌝ : sProp 𝕄) := by
  iintro ⟨⟨Hx, Hpe, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := peLoc d) (I := Finset.univ) (q := fullShare) (f := m (peLoc d)))) $$ [HSI Hpe]
  · isplitl [HSI] <;> iassumption
  icases H with ⟨%h2, HSI, -⟩
  ihave H := (SI_pointsTo_agree (st := s') (ℓ := rLoc d) (I := Finset.univ) (q := fullShare) (f := Cert.Spec.G (m (xLoc d)) (m (peLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ### The program's run -/

/-- What every final state holds: the result at the sum, the two arguments as launched. -/
def QC : PUnit × MemSt nD τ sig (Elt F) → Prop := fun r => ∀ c : Dev nD,
  r.2.mem (rLoc c) = Cert.Spec.G (m (xLoc c)) (m (peLoc c)) ∧ r.2.mem (xLoc c) = m (xLoc c) ∧ r.2.mem (peLoc c) = m (peLoc c)

theorem valA (d : Dev nD) : ValA (F := F) m d := fun fi fr hn hin i hi =>
  valueA (F := F) d d (cV LA) (jV LA) (m (peLoc d)) (m (oLoc d)) fi fr hn hin i hi
theorem valB (d : Dev nD) : ValB (F := F) m d := fun fi fr hn hin i hi =>
  valueB (F := F) d d (cV LB) (jV LB) (m (peLoc d)) (m (oLoc d)) fi fr hn hin i hi

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (valA m) (valB m))
    (fun q _ => match q with | 0 => SparseCore.Cfg.VecSplit.of_plain (vecSplit m))
    m ρ main (fun d => GP (F := F) d) (FIN m) (u₀ (F := F)) (sep_elim_left.trans (hu₀ m)) (hmain m ρ) (fq m) (hfin m) (QC m) (fun _ h => h)

end Cert.Kernel.Sc

end
-- ==== Proof.ScCommonI.lean ====
/-
  The SparseCore program as its launch sees it, and what each handshake carries.

  One call runs on both SparseCores; on each only vector subcore 0 works. Subcore 0 of SparseCore 0 fetches the
  first 96 position numbers, gathers those rows of the table and writes them to rows 0..95 of the gathered array;
  subcore 0 of SparseCore 1 does the same for the remaining 104 rows. The position numbers are 0, 1, …, 199 in
  order, so row `l` of the gathered array is row `l` of the table. Each working subcore is handed half a share of
  the table (both read all of it), its own rows of the position numbers and its own rows of the gathered array, and
  hands them back, the latter holding the table's rows.
-/
import proofs.«202774_g12489764896814_cont_fleet_578_23_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«202774_g12489764896814_cont_fleet_578_23_alg».proof.Proof.Gen.KernelIdeal
import proofs.«202774_g12489764896814_cont_fleet_578_23_alg».proof.Proof.Gen.KernelIdeal.Skeleton
import proofs.«202774_g12489764896814_cont_fleet_578_23_alg».proof.Proof.Gen.KernelIdeal.Launch
import proofs.«202774_g12489764896814_cont_fleet_578_23_alg».proof.Proof.Gen.KernelIdeal.Points

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the buffers -/

variable (m : (ℓ : Loc nD τ sig) → Buf (Elt F) ℓ) (ρ : Dev nD → PrngReg)

abbrev xLoc (d : Dev nD) : Loc nD τ sig := (SparseCore.T d).loc main_arg0
abbrev peLoc (d : Dev nD) : Loc nD τ sig := (SparseCore.T d).loc main_arg1
abbrev cLoc (d : Dev nD) : Loc nD τ sig := (SparseCore.T d).loc main_c
abbrev oLoc (d : Dev nD) : Loc nD τ sig := (SparseCore.T d).loc main_v0
abbrev rLoc (d : Dev nD) : Loc nD τ sig := (SparseCore.T d).loc main_v1

local notation "peW" => (Memref.whole Cert.KernelIdeal.main_arg1_scv : Memref Cert.KernelIdeal.sig Kind.scVector Space.hbm Cert.KernelIdeal.S200x128 EltTy.f32)
local notation "cW" => (Memref.whole Cert.KernelIdeal.main_c_scv : Memref Cert.KernelIdeal.sig Kind.scVector Space.hbm Cert.KernelIdeal.S200 EltTy.i32)
local notation "oW" => (Memref.whole Cert.KernelIdeal.main_v0_scv : Memref Cert.KernelIdeal.sig Kind.scVector Space.hbm Cert.KernelIdeal.S200x128 EltTy.f32)

/-- The position numbers' first 96 and last 104, the gathered array's first 96 rows and last 104, and all of the
    table, as the tasks slice them. -/
abbrev cA : Memref sig .scVector .hbm S96 .i32 := (cW).slice (Rect.unit (s := S200) ![0] S96.size Facts₀.inb_S200_S96_0) (fun _ => rfl)
abbrev cB : Memref sig .scVector .hbm S104 .i32 := (cW).slice (Rect.unit (s := S200) ![96] S104.size Facts₀.inb_S200_S104_96) (fun _ => rfl)
abbrev oA : Memref sig .scVector .hbm S96x128 .f32 := (oW).slice (Rect.unit (s := S200x128) ![0, 0] S96x128.size Facts₀.inb_S200x128_S96x128_0_0) (fun _ => rfl)
abbrev oB : Memref sig .scVector .hbm S104x128 .f32 := (oW).slice (Rect.unit (s := S200x128) ![96, 0] S104x128.size Facts₀.inb_S200x128_S104x128_96_0) (fun _ => rfl)
abbrev peAll : Memref sig .scVector .hbm S200x128 .f32 := (peW).slice (Rect.unit (s := S200x128) ![0, 0] S200x128.size Facts₀.inb_S200x128_S200x128_0_0) (fun _ => rfl)

/-- The position numbers as @main's constant writes them: `l` at position `l`. -/
def cval (d : Dev nD) : Buf (Elt F) (cLoc d) := fun i => lit0 (S200.rowMajor i)

/-- The table's launch contents, as contents of the gathered array (the two have one shape and type). -/
def peAsO (d : Dev nD) : Buf (Elt F) (oLoc d) := m (peLoc d)

variable [FloatOps F]

/-! ## What the handshakes carry -/

/-- What the call hands SparseCore `c` (and its subcore 0) and takes back, the gathered array's rows at `f`. -/
def forCore (d : Dev nD) (c : ℕ) (f : Buf (Elt F) (oLoc d)) : sProp 𝕄 :=
  if c = 0 then iprop((peLoc d ↦{fullShare.left} m (peLoc d)) ∗ (cLoc d ↦[(cA).view.set]{fullShare} cval d) ∗ (oLoc d ↦[(oA).view.set]{fullShare} f))
  else iprop((peLoc d ↦{fullShare.right} m (peLoc d)) ∗ (cLoc d ↦[(cB).view.set]{fullShare} cval d) ∗ (oLoc d ↦[(oB).view.set]{fullShare} f))

theorem forCore_zero (d : Dev nD) (f : Buf (Elt F) (oLoc d)) :
    forCore m d 0 f = iprop((peLoc d ↦{fullShare.left} m (peLoc d)) ∗ (cLoc d ↦[(cA).view.set]{fullShare} cval d) ∗ (oLoc d ↦[(oA).view.set]{fullShare} f)) := if_pos rfl
theorem forCore_one (d : Dev nD) (f : Buf (Elt F) (oLoc d)) :
    forCore m d 1 f = iprop((peLoc d ↦{fullShare.right} m (peLoc d)) ∗ (cLoc d ↦[(cB).view.set]{fullShare} cval d) ∗ (oLoc d ↦[(oB).view.set]{fullShare} f)) := if_neg Nat.one_ne_zero

instance forCore_storable (d : Dev nD) (c : ℕ) (f : Buf (Elt F) (oLoc d)) : BI.Storable (upEmb : UEmb _ 𝕄) (forCore m d c f) := by
  unfold forCore; split <;> infer_instance

/-- What a task is handed: subcore 0 its SparseCore's, the others nothing. -/
def forTile (d : Dev nD) (c i : ℕ) (f : Buf (Elt F) (oLoc d)) : sProp 𝕄 := if i = 0 then forCore m d c f else iprop(emp)

theorem forTile_zero (d : Dev nD) (c : ℕ) (f : Buf (Elt F) (oLoc d)) : forTile m d c 0 f = forCore m d c f := if_pos rfl
theorem forTile_pos (d : Dev nD) (c i : ℕ) (h : i ≠ 0) (f : Buf (Elt F) (oLoc d)) : forTile m d c i f = iprop(emp) := if_neg h

instance forTile_storable (d : Dev nD) (c i : ℕ) (f : Buf (Elt F) (oLoc d)) : BI.Storable (upEmb : UEmb _ 𝕄) (forTile m d c i f) := by
  unfold forTile; split <;> infer_instance

def P : (K (F := F)).Pay (nD := nD) (Val := Elt F) (Name := ℕ) (U := UU) where
  st := fun _ d c => forCore m d c.val (m (oLoc d))
  dn := fun _ d c => forCore m d c.val (peAsO m d)
  go := fun _ d c i => forTile m d c.val i.val (m (oLoc d))
  td := fun _ d c i => forTile m d c.val i.val (peAsO m d)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.KernelIdeal.Sc

end
-- ==== Proof.ScTileI.lean ====
/-
  One vector subcore's task, at each of the three kinds of place.

  A subcore's number is twice its index within its SparseCore plus the SparseCore's index. Number 0 copies the first
  96 position numbers into its list buffer, gathers the table's rows they name into its row buffer and copies the row
  buffer to rows 0..95 of the gathered array; number 1 does the same for the last 104; every other number does
  nothing. The position numbers are all below 200, so every gathered row exists.
-/
import proofs.«202774_g12489764896814_cont_fleet_578_23_alg».proof.Proof.ScCommonI

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "peW" => (Memref.whole Cert.KernelIdeal.main_arg1_scv : Memref Cert.KernelIdeal.sig Kind.scVector Space.hbm Cert.KernelIdeal.S200x128 EltTy.f32)
local notation "cW" => (Memref.whole Cert.KernelIdeal.main_c_scv : Memref Cert.KernelIdeal.sig Kind.scVector Space.hbm Cert.KernelIdeal.S200 EltTy.i32)
local notation "oW" => (Memref.whole Cert.KernelIdeal.main_v0_scv : Memref Cert.KernelIdeal.sig Kind.scVector Space.hbm Cert.KernelIdeal.S200x128 EltTy.f32)
local notation "sIa" => (Memref.whole Cert.KernelIdeal.cc0_scratch0 : Memref Cert.KernelIdeal.sig Kind.scVector Space.vmem Cert.KernelIdeal.S96 EltTy.i32)
local notation "sIb" => (Memref.whole Cert.KernelIdeal.cc0_scratch1 : Memref Cert.KernelIdeal.sig Kind.scVector Space.vmem Cert.KernelIdeal.S104 EltTy.i32)
local notation "sRa" => (Memref.whole Cert.KernelIdeal.cc0_scratch2 : Memref Cert.KernelIdeal.sig Kind.scVector Space.vmem Cert.KernelIdeal.S96x128 EltTy.f32)
local notation "sRb" => (Memref.whole Cert.KernelIdeal.cc0_scratch3 : Memref Cert.KernelIdeal.sig Kind.scVector Space.vmem Cert.KernelIdeal.S104x128 EltTy.f32)

variable [FloatOps F]

section Tile

variable (d : Dev nD) (L : grid0.Coords)

abbrev cV (L : grid0.Coords) : Fin τ.nSC := (L 0).castLE Facts₀.hcore0
abbrev jV (L : grid0.Coords) : Fin τ.nSub := (L 1).castLE Facts₀.hsub0

/-- The two conditions of the body: the subcore's number is 0; it is 1. -/
abbrev isZero (L : grid0.Coords) : BitVec 1 :=
  Scalar.cmpi .ne (Scalar.extui (Scalar.cmpi .eq (Scalar.addi (Scalar.muli (BitVec.ofNat 32 (L 1).val) 2#32) (BitVec.ofNat 32 (L 0).val)) 0#32)) 0#32
abbrev isOne (L : grid0.Coords) : BitVec 1 :=
  Scalar.cmpi .ne (Scalar.extui (Scalar.cmpi .eq (Scalar.addi (Scalar.muli (BitVec.ofNat 32 (L 1).val) 2#32) (BitVec.ofNat 32 (L 0).val)) 1#32)) 0#32

def coordsV (c : Fin (grid0.bound 0)) (s : Fin (grid0.bound 1)) : grid0.Coords :=
  fun | 0 => c | 1 => s | ⟨_ + 2, h⟩ => absurd h (Nat.not_lt.2 (Nat.le_add_left _ _))

/-- The subcore's six DMA cells in use. -/
abbrev cell (d : Dev nD) (c : Fin τ.nSC) (i : Fin τ.nSub) (s : DmaSem sig) : GSem nD τ sig := (V d c i, .dma s)

/-- A subcore that is neither number 0 nor number 1 does nothing. -/
theorem tile_idle (O : CellTallies nD τ sig (HIx 1)) (W : Waits sig (HIx 1)) (k0_h1 : ¬ isZero L = 1#1) (k0_h2 : ¬ isOne L = 1#1)
    (G G' : sProp 𝕄) (hG : G ⊢ G') :
    iprop(levAts (K (F := F)).L (K (F := F)).lev ∗ emp ∗ G
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L peW (Memref.isWhole_whole _) cW (Memref.isWhole_whole _) oW (Memref.isWhole_whole _)
            sIa (Memref.isWhole_whole _) sIb (Memref.isWhole_whole _) sRa (Memref.isWhole_whole _) sRb (Memref.isWhole_whole _)
            cc0_scratch4 cc0_scratch5 cc0_scoped0 cc0_scoped1 cc0_scoped2 cc0_scoped3)
          fun _ => iprop(G' ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  iintro ⟨-, -, HG, Hsb, Hss, HO⟩
  sl_exec
  sl_step
  isplitl [HG]; · iapply hG; iexact HG
  isplitl [Hsb]; · iexact Hsb
  isplitl [Hss]; · iexact Hss
  iexists W; isplitr
  · ipureintro; exact fun p hp => .inl hp
  · iexact HO

omit [FloatOps F] in
/-- Held on all of its elements is held, when the element set is all of them. -/
theorem pts_univ_set {ℓ : Loc nD τ sig} {q : PosShare TreeShare} (f : Buf (Elt F) ℓ) (s : Finset (Idx ℓ)) (h : s = Finset.univ) :
    (ℓ ↦{q} f : sProp 𝕄) = (ℓ ↦[s]{q} f) := by subst h; rfl

omit [FloatOps F] in
/-- Three of a vector subcore's DMA cells apart from the rest of its own. -/
theorem ownSems0_peel (c : Fin τ.nSC) (i : Fin τ.nSub) (s1 s2 s3 : DmaSem sig) (h12 : s2 ≠ s1) (h13 : s3 ≠ s1) (h23 : s3 ≠ s2)
    (hs1 : (SemLoc.dma s1 : SemLoc sig).isScoped .scVector = true) (hs2 : (SemLoc.dma s2 : SemLoc sig).isScoped .scVector = true)
    (hs3 : (SemLoc.dma s3 : SemLoc sig).isScoped .scVector = true) :
    (ownSems0 (V d c i) : sProp 𝕄)
      = iprop(semVal (cell d c i s1) 0 ∗ semVal (cell d c i s2) 0 ∗ semVal (cell d c i s3) 0
          ∗ bigSep ((((ownCells (V d c i)).erase (cell d c i s1)).erase (cell d c i s2)).erase (cell d c i s3)) fun g => semVal g 0) := by
  have n12 : cell d c i s2 ≠ cell d c i s1 := fun e => h12 (SemLoc.dma.inj (Prod.mk.inj e).2)
  have n13 : cell d c i s3 ≠ cell d c i s1 := fun e => h13 (SemLoc.dma.inj (Prod.mk.inj e).2)
  have n23 : cell d c i s3 ≠ cell d c i s2 := fun e => h23 (SemLoc.dma.inj (Prod.mk.inj e).2)
  unfold SparseCore.Cfg.ownSems0
  rw [SparseCore.bigSep_erase' ((mem_ownCells (g := cell d c i s1)).mpr ⟨rfl, hs1⟩),
    SparseCore.bigSep_erase' (Finset.mem_erase.mpr ⟨n12, (mem_ownCells (g := cell d c i s2)).mpr ⟨rfl, hs2⟩⟩),
    SparseCore.bigSep_erase' (Finset.mem_erase.mpr ⟨n23, Finset.mem_erase.mpr ⟨n13, (mem_ownCells (g := cell d c i s3)).mpr ⟨rfl, hs3⟩⟩⟩)]

omit [FloatOps F] in
/-- Two of a vector subcore's own buffers, at some contents, apart from the rest. -/
theorem ownBufs_A (c : Fin τ.nSC) (i : Fin τ.nSub) :
    (ownBufs (V d c i) : sProp 𝕄)
      = iprop((∃ f, (V d c i).loc cc0_scratch0 ↦{fullShare} f) ∗ (∃ f, (V d c i).loc cc0_scratch2 ↦{fullShare} f)
          ∗ bigSep (((ownRefs (τ := τ) (.scVector c i)).erase ((Proc.scVector c i).devRef cc0_scratch0)).erase ((Proc.scVector c i).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch2 : Ref sig .scVector) ≠ cc0_scratch0 by decide),
    SparseCore.Cfg.mem_ownRefs_of_owner (p := Proc.scVector c i) (b := (Proc.scVector c i).devRef cc0_scratch2) rfl⟩)]

omit [FloatOps F] in
/-- Two of a vector subcore's own buffers, at some contents, apart from the rest. -/
theorem ownBufs_B (c : Fin τ.nSC) (i : Fin τ.nSub) :
    (ownBufs (V d c i) : sProp 𝕄)
      = iprop((∃ f, (V d c i).loc cc0_scratch1 ↦{fullShare} f) ∗ (∃ f, (V d c i).loc cc0_scratch3 ↦{fullShare} f)
          ∗ bigSep (((ownRefs (τ := τ) (.scVector c i)).erase ((Proc.scVector c i).devRef cc0_scratch1)).erase ((Proc.scVector c i).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch1) rfl)).trans ?_
  rw [SparseCore.bigSep_erase' (Finset.mem_erase.mpr ⟨fun e => absurd (Proc.devRef_injective _ e) (show (cc0_scratch3 : Ref sig .scVector) ≠ cc0_scratch1 by decide),
    SparseCore.Cfg.mem_ownRefs_of_owner (p := Proc.scVector c i) (b := (Proc.scVector c i).devRef cc0_scratch3) rfl⟩)]

/-- The place of subcore 0 of SparseCore 0. -/
abbrev LA : grid0.Coords := coordsV ⟨0, by decide⟩ ⟨0, by decide⟩

omit [FloatOps F] in
/-- Every position number is below the table's row count, whatever the list buffer held before the fetch. -/
theorem inb_A (fs : Buf (Elt F) ((V d (cV LA) (jV LA)).loc cc0_scratch0)) (pay : S96.Idx → Elt F .i32)
    (hpay : pay = (cA).view.read (Elt F) (cval (F := F) d)) :
    ∀ x, ((sIa).view.read (Elt F) (View.write (Elt F) (sIa).view fs pay Finset.univ) x).toNat < S200x128.size (Facts₀.gathers_S200x128_S96x128).axis := by
  subst hpay; intro x
  rw [View.write_whole_univ]
  simp only [Memref.view_whole, View.read_whole]
  rw [show ∀ j, (cA).view.read (Elt F) (cval (F := F) d) j = cval (F := F) d ((cA).view.emb j) from fun j => (View.read_apply _ _).trans (cast_eq _ _)]
  exact (by decide : ∀ k : Fin 200, (lit0 k).toNat < 200) _

/-- What the three copies leave on the subcore's rows of the gathered array: the table's rows. -/
def ValA : Prop :=
  ∀ (fi : Buf (Elt F) ((sIa).view.loc (V d (cV LA) (jV LA)))) (fr : Buf (Elt F) ((sRa).view.loc (V d (cV LA) (jV LA))))
    (hn : S96.numel = S96x128.size (Facts₀.gathers_S200x128_S96x128).axis')
    (hin : ∀ x, ((sIa).view.read (Elt F) (View.write (Elt F) (sIa).view fi (View.read (Elt F) (cA).view (cval (F := F) d)) Finset.univ) x).toNat
      < S200x128.size (Facts₀.gathers_S200x128_S96x128).axis),
    ∀ i ∈ (oA).view.set,
      (oA).view.writes (Elt F) (m (oLoc d)) [⟨Rect.whole S96x128, (sRa).view.read (Elt F) (View.write (Elt F) (sRa).view fr
          (SparseCore.gatherPayload Facts₀.gathers_S200x128_S96x128 (View.read (Elt F) (peAll).view (m (peLoc d)))
            (SparseCore.rows (View.read (Elt F) (sIa).view (View.write (Elt F) (sIa).view fi (View.read (Elt F) (cA).view (cval (F := F) d)) Finset.univ)) hn hin))
          Finset.univ)⟩] i
        = peAsO m d i

set_option maxHeartbeats 4000000 in
theorem tile_bodyA (hF : (K (F := F)).Facts) (O : CellTallies nD τ sig (HIx 1)) (W : Waits sig (HIx 1)) (hO : ∀ g, O g none = 0)
    (hval : ValA (F := F) m d) :
    iprop(levAts (K (F := F)).L (K (F := F)).lev ∗ emp ∗ forCore m d 0 (m (oLoc d))
        ∗ scopedBufs (V d (cV LA) (jV LA)) ∗ scopedSems0 (V d (cV LA) (jV LA)) ∗ owes (V d (cV LA) (jV LA)) O W)
      ⊢ wp frame (wpE (defs₀ (F := F)) 𝒱₀ (V d (cV LA) (jV LA)) none) Set.univ
          (cc0_k LA peW (Memref.isWhole_whole _) cW (Memref.isWhole_whole _) oW (Memref.isWhole_whole _)
            sIa (Memref.isWhole_whole _) sIb (Memref.isWhole_whole _) sRa (Memref.isWhole_whole _) sRb (Memref.isWhole_whole _)
            cc0_scratch4 cc0_scratch5 cc0_scoped0 cc0_scoped1 cc0_scoped2 cc0_scoped3)
          fun _ => iprop(forCore m d 0 (peAsO m d) ∗ scopedBufs (V d (cV LA) (jV LA)) ∗ scopedSems0 (V d (cV LA) (jV LA))
            ∗ ∃ W', ⌜∀ p ∈ W', p ∈ W ∨ p.2 = none⌝ ∗ owes (V d (cV LA) (jV LA)) O W') := by
  have k0_h1 : isZero LA = 1#1 := by decide
  have k0_h2 : ¬ isOne LA = 1#1 := by decide
  simp only [cc0_k_eq_skeleton]; unfold cc0_k_skel
  rw [forCore_zero, forCore_zero, (K (F := F)).scopedBufs_V hF d (cV LA) (jV LA), SparseCore.Cfg.scopedSems0_V (Val := Elt F) d (cV LA) (jV LA),
    ownSems0_peel (F := F) d (cV LA) (jV LA) cc0_scoped0.sem cc0_scratch4.sem cc0_scoped1.sem (by decide) (by decide) (by decide) (by decide) (by decide) (by decide),
    ownBufs_A]
  iintro ⟨#Hlv, -, ⟨Hpe, Hc, Ho⟩, ⟨⟨%fi, Hi⟩, ⟨%fr, Hr⟩, Hbufs⟩, ⟨HsemF, HsemG, HsemO, Hsems⟩, HO⟩
  ihave Hmw := (show levAts (K (F := F)).L (K (F := F)).lev ⊢ Transfers.MayWaits (V d (cV LA) (jV LA)) (default : HIx 1) O from
    (K (F := F)).mayWaits_none (thr := V d (cV LA) (jV LA)) hO) $$ Hlv
  ihave Hc' := (Entails.of_eq (show (cLoc d ↦[(cA).view.set]{fullShare} cval (F := F) d : sProp 𝕄)
      = ((cA).view.loc (V d (cV LA) (jV LA)) ↦[(cA).view.set]{fullShare} cval (F := F) d) from rfl)) $$ Hc
  ihave Ho' := (Entails.of_eq (show (oLoc d ↦[(oA).view.set]{fullShare} m (oLoc d) : sProp 𝕄)
      = ((oA).view.loc (V d (cV LA) (jV LA)) ↦[(oA).view.set]{fullShare} m (oLoc d)) from rfl)) $$ Ho
  ihave Hpe' := (Entails.of_eq (show (peLoc d ↦{fullShare.left} m (peLoc d) : sProp 𝕄)
      = ((peW).view.loc (V d (cV LA) (jV LA)) ↦{fullShare.left} m (peLoc d)) from rfl)) $$ Hpe
  ihave Hi' := (Entails.of_eq (show ((V d (cV LA) (jV LA)).loc cc0_scratch0 ↦{fullShare} fi : sProp 𝕄)
      = ((sIa).view.loc (V d (cV LA) (jV LA)) ↦{fullShare} fi) from rfl)) $$ Hi
  ihave Hr' := (Entails.of_eq (show ((V d (cV LA) (jV LA)).loc cc0_scratch2 ↦{fullShare} fr : sProp 𝕄)
      = ((sRa).view.loc (V d (cV LA) (jV LA)) ↦{fullShare} fr) from rfl)) $$ Hr
  sl_exec
  ihave Hxs := (pointsTo_split_subset (q := fullShare.left) (f := m (peLoc d)) (S := Finset.univ) (Finset.subset_univ (peAll).view.set)).1 $$ Hpe'
  icases Hxs with ⟨Hxs, Hxr⟩
  have hrs : (sRa).view.set = Finset.univ := View.set_whole _
  have hss : (sIa).view.set = Finset.univ := View.set_whole _
  ihave Hr'' := (Entails.of_eq (pts_univ_set (F := F) _ _ hrs)) $$ Hr'
  ihave Hi'' := (Entails.of_eq (pts_univ_set (F := F) _ _ hss)) $$ Hi'
  have hN : ∀ h : S200x128.Gathers 0 S96x128, ∑ j, ((sRa).slice (S96x128.rowRect h.axis' j) (S96x128.stride_rowRect h.axis' j)).view.dmaCredit
      = (sRa).view.dmaCredit := by decide
  iapply (SparseCore.wp_indirectGatherLocal countersEmb 𝒱₀ (V d (cV LA) (jV LA)) none (hg := Facts₀.gathers_S200x128_S96x128) (default : HIx 1)
      (sRa).view.dmaCredit (hN _) (by decide) (inb_A d fi _ rfl)) $$ [Hxs Hr'' Hi'' HsemG]
  · isplitl [Hxs]; · iexact Hxs
    isplitl [Hr'']; · iexact Hr''
    isplitl [Hi'']; · iexact Hi''
    iexact HsemG
  iintro Hfl
  sl_exec
  iapply (Transfers.wp_waitLocalO countersEmb 𝒱₀ (V d (cV LA) (jV LA)) none (default : HIx 1) (rfl : (sRa).view.dmaCredit = _)) $$ [Hfl HO]
  · isplitl [Hfl]; · iexact Hfl
    isplitl [HO]; · iexact HO
    iapply (Transfers.MayWaits.elim (SemLoc.dma cc0_scratch4.sem)) $$ Hmw
  iintro ⟨⟨Hr', Hxs, Hi'⟩, HsemG, HO⟩
  ihave Hpe' := (pointsTo_split_subset (q := fullShare.left) (f := m (peLoc d)) (S := Finset.univ) (Finset.subset_univ (peAll).view.set)).2 $$ [Hxs Hxr]; · isplitl [Hxs] <;> iassumption
  ihave Hr3 := (Entails.of_eq (pts_univ_set (F := F) _ _ hrs).symm) $$ Hr'
  ihave Hi3 := (Entails.of_eq (pts_univ_set (F := F) _ _ hss).symm) $$ Hi'
  sl_exec
  sl_step
  ihave Ho3 := (Entails.of_eq (pointsTo_congr (fun i hi => hval fi fr _ _ i hi))) $$ Ho'
  isplitl [Hpe' Hc' Ho3]
  · isplitl [Hpe']; · iexact Hpe'
    isplitl [Hc']; · iexact Hc'
    iexact Ho3
  isplitl [Hi3 Hr3 Hbufs]
  · isplitl [Hi3]; · iexists _; iexact Hi3
    isplitl [Hr3]; · iexists _; iexact Hr3
    iexact Hbufs
  isplitl [HsemF HsemG HsemO Hsems]
  · isplitl [HsemF]; · iexact HsemF
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The place of subcore 0 of SparseCore 1. -/
abbrev LB : grid0.Coords := coordsV ⟨1, by decide⟩ ⟨0, by decide⟩

omit [FloatOps F] in
/-- Every position number is below the table's row count, whatever the list buffer held before the fetch. -/
theorem inb_B (fs : Buf (Elt F) ((V d (cV LB) (jV LB)).loc cc0_scratch1)) (pay : S104.Idx → Elt F .i32)
    (hpay : pay = (cB).view.read (Elt F) (cval (F := F) d)) :
    ∀ x, ((sIb).view.read (Elt F) (View.write (Elt F) (sIb).view fs pay Finset.univ) x).toNat < S200x128.size (Facts₀.gathers_S200x128_S104x128).axis := by
  subst hpay; intro x
  rw [View.write_whole_univ]
  simp only [Memref.view_whole, View.read_whole]
  rw [show ∀ j, (cB).view.read (Elt F) (cval (F := F) d) j = cval (F := F) d ((cB).view.emb j) from fun j => (View.read_apply _ _).trans (cast_eq _ _)]
  exact (by decide : ∀ k : Fin 200, (lit0 k).toNat < 200) _

/-- What the three copies leave on the subcore's rows of the gathered array: the table's rows. -/
def ValB : Prop :=
  ∀ (fi : Buf (Elt F) ((sIb).view.loc (V d (cV LB) (jV LB)))) (fr : Buf (Elt F) ((sRb).view.loc (V d (cV LB) (jV LB))))
    (hn : S104.numel = S104x128.size (Facts₀.gathers_S200x128_S104x128).axis')
    (hin : ∀ x, ((sIb).view.read (Elt F) (View.write (Elt F) (sIb).view fi (View.read (Elt F) (cB).view (cval (F := F) d)) Finset.univ) x).toNat
      < S200x128.size (Facts₀.gathers_S200x128_S104x128).axis),
    ∀ i ∈ (oB).view.set,
      (oB).view.writes (Elt F) (m (oLoc d)) [⟨Rect.whole S104x128, (sRb).view.read (Elt F) (View.write (Elt F) (sRb).view fr
          (SparseCore.gatherPayload Facts₀.gathers_S200x128_S104x128 (View.read (Elt F) (peAll).view (m (peLoc d)))
            (SparseCore.rows (View.read (Elt F) (sIb).view (View.write (Elt F) (sIb).view fi (View.read (Elt F) (cB).view (cval (F := F) d)) Finset.univ)) hn hin))
          Finset.univ)⟩] i
        = peAsO m d i

set_option maxHeartbeats 4000000 in
theorem tile_bodyB (hF : (K (F := F)).Facts) (O : CellTallies nD τ sig (HIx 1)) (W : Waits sig (HIx 1)) (hO : ∀ g, O g none = 0)
    (hval : ValB (F := F) m d) :
    iprop(levAts (K (F := F)).L (K (F := F)).lev ∗ emp ∗ forCore m d 1 (m (oLoc d))
        ∗ scopedBufs (V d (cV LB) (jV LB)) ∗ scopedSems0 (V d (cV LB) (jV LB)) ∗ owes (V d (cV LB) (jV LB)) O W)
      ⊢ wp frame (wpE (defs₀ (F := F)) 𝒱₀ (V d (cV LB) (jV LB)) none) Set.univ
          (cc0_k LB peW (Memref.isWhole_whole _) cW (Memref.isWhole_whole _) oW (Memref.isWhole_whole _)
            sIa (Memref.isWhole_whole _) sIb (Memref.isWhole_whole _) sRa (Memref.isWhole_whole _) sRb (Memref.isWhole_whole _)
            cc0_scratch4 cc0_scratch5 cc0_scoped0 cc0_scoped1 cc0_scoped2 cc0_scoped3)
          fun _ => iprop(forCore m d 1 (peAsO m d) ∗ scopedBufs (V d (cV LB) (jV LB)) ∗ scopedSems0 (V d (cV LB) (jV LB))
            ∗ ∃ W', ⌜∀ p ∈ W', p ∈ W ∨ p.2 = none⌝ ∗ owes (V d (cV LB) (jV LB)) O W') := by
  have k0_h1 : ¬ isZero LB = 1#1 := by decide
  have k0_h2 : isOne LB = 1#1 := by decide
  simp only [cc0_k_eq_skeleton]; unfold cc0_k_skel
  rw [forCore_one, forCore_one, (K (F := F)).scopedBufs_V hF d (cV LB) (jV LB), SparseCore.Cfg.scopedSems0_V (Val := Elt F) d (cV LB) (jV LB),
    ownSems0_peel (F := F) d (cV LB) (jV LB) cc0_scoped2.sem cc0_scratch5.sem cc0_scoped3.sem (by decide) (by decide) (by decide) (by decide) (by decide) (by decide),
    ownBufs_B]
  iintro ⟨#Hlv, -, ⟨Hpe, Hc, Ho⟩, ⟨⟨%fi, Hi⟩, ⟨%fr, Hr⟩, Hbufs⟩, ⟨HsemF, HsemG, HsemO, Hsems⟩, HO⟩
  ihave Hmw := (show levAts (K (F := F)).L (K (F := F)).lev ⊢ Transfers.MayWaits (V d (cV LB) (jV LB)) (default : HIx 1) O from
    (K (F := F)).mayWaits_none (thr := V d (cV LB) (jV LB)) hO) $$ Hlv
  ihave Hc' := (Entails.of_eq (show (cLoc d ↦[(cB).view.set]{fullShare} cval (F := F) d : sProp 𝕄)
      = ((cB).view.loc (V d (cV LB) (jV LB)) ↦[(cB).view.set]{fullShare} cval (F := F) d) from rfl)) $$ Hc
  ihave Ho' := (Entails.of_eq (show (oLoc d ↦[(oB).view.set]{fullShare} m (oLoc d) : sProp 𝕄)
      = ((oB).view.loc (V d (cV LB) (jV LB)) ↦[(oB).view.set]{fullShare} m (oLoc d)) from rfl)) $$ Ho
  ihave Hpe' := (Entails.of_eq (show (peLoc d ↦{fullShare.right} m (peLoc d) : sProp 𝕄)
      = ((peW).view.loc (V d (cV LB) (jV LB)) ↦{fullShare.right} m (peLoc d)) from rfl)) $$ Hpe
  ihave Hi' := (Entails.of_eq (show ((V d (cV LB) (jV LB)).loc cc0_scratch1 ↦{fullShare} fi : sProp 𝕄)
      = ((sIb).view.loc (V d (cV LB) (jV LB)) ↦{fullShare} fi) from rfl)) $$ Hi
  ihave Hr' := (Entails.of_eq (show ((V d (cV LB) (jV LB)).loc cc0_scratch3 ↦{fullShare} fr : sProp 𝕄)
      = ((sRb).view.loc (V d (cV LB) (jV LB)) ↦{fullShare} fr) from rfl)) $$ Hr
  sl_exec
  ihave Hxs := (pointsTo_split_subset (q := fullShare.right) (f := m (peLoc d)) (S := Finset.univ) (Finset.subset_univ (peAll).view.set)).1 $$ Hpe'
  icases Hxs with ⟨Hxs, Hxr⟩
  have hrs : (sRb).view.set = Finset.univ := View.set_whole _
  have hss : (sIb).view.set = Finset.univ := View.set_whole _
  ihave Hr'' := (Entails.of_eq (pts_univ_set (F := F) _ _ hrs)) $$ Hr'
  ihave Hi'' := (Entails.of_eq (pts_univ_set (F := F) _ _ hss)) $$ Hi'
  have hN : ∀ h : S200x128.Gathers 0 S104x128, ∑ j, ((sRb).slice (S104x128.rowRect h.axis' j) (S104x128.stride_rowRect h.axis' j)).view.dmaCredit
      = (sRb).view.dmaCredit := by decide
  iapply (SparseCore.wp_indirectGatherLocal countersEmb 𝒱₀ (V d (cV LB) (jV LB)) none (hg := Facts₀.gathers_S200x128_S104x128) (default : HIx 1)
      (sRb).view.dmaCredit (hN _) (by decide) (inb_B d fi _ rfl)) $$ [Hxs Hr'' Hi'' HsemG]
  · isplitl [Hxs]; · iexact Hxs
    isplitl [Hr'']; · iexact Hr''
    isplitl [Hi'']; · iexact Hi''
    iexact HsemG
  iintro Hfl
  sl_exec
  iapply (Transfers.wp_waitLocalO countersEmb 𝒱₀ (V d (cV LB) (jV LB)) none (default : HIx 1) (rfl : (sRb).view.dmaCredit = _)) $$ [Hfl HO]
  · isplitl [Hfl]; · iexact Hfl
    isplitl [HO]; · iexact HO
    iapply (Transfers.MayWaits.elim (SemLoc.dma cc0_scratch5.sem)) $$ Hmw
  iintro ⟨⟨Hr', Hxs, Hi'⟩, HsemG, HO⟩
  ihave Hpe' := (pointsTo_split_subset (q := fullShare.right) (f := m (peLoc d)) (S := Finset.univ) (Finset.subset_univ (peAll).view.set)).2 $$ [Hxs Hxr]; · isplitl [Hxs] <;> iassumption
  ihave Hr3 := (Entails.of_eq (pts_univ_set (F := F) _ _ hrs).symm) $$ Hr'
  ihave Hi3 := (Entails.of_eq (pts_univ_set (F := F) _ _ hss).symm) $$ Hi'
  sl_exec
  sl_step
  ihave Ho3 := (Entails.of_eq (pointsTo_congr (fun i hi => hval fi fr _ _ i hi))) $$ Ho'
  isplitl [Hpe' Hc' Ho3]
  · isplitl [Hpe']; · iexact Hpe'
    isplitl [Hc']; · iexact Hc'
    iexact Ho3
  isplitl [Hi3 Hr3 Hbufs]
  · isplitl [Hi3]; · iexists _; iexact Hi3
    isplitl [Hr3]; · iexists _; iexact Hr3
    iexact Hbufs
  isplitl [HsemF HsemG HsemO Hsems]
  · isplitl [HsemF]; · iexact HsemF
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- At any place whose subcore index is not 0 neither condition holds. -/
theorem cond_idle (c : Fin (grid0.bound 0)) (s : Fin (grid0.bound 1)) (h : s.val ≠ 0) :
    ¬ isZero (coordsV c s) = 1#1 ∧ ¬ isOne (coordsV c s) = 1#1 := by
  have key : ∀ (a : Fin 2) (b : Fin 16), b.val ≠ 0 →
      ¬ (Scalar.cmpi .ne (Scalar.extui (Scalar.cmpi .eq (Scalar.addi (Scalar.muli (BitVec.ofNat 32 b.val) 2#32) (BitVec.ofNat 32 a.val)) 0#32)) 0#32) = 1#1
      ∧ ¬ (Scalar.cmpi .ne (Scalar.extui (Scalar.cmpi .eq (Scalar.addi (Scalar.muli (BitVec.ofNat 32 b.val) 2#32) (BitVec.ofNat 32 a.val)) 1#32)) 0#32) = 1#1 := by decide
  exact key c s h

theorem defs₀_vector (c : Fin τ.nSC) (s : Fin τ.nSub) :
    defs₀ (F := F) (.scVector c s) 0 ()
      = SparseCore.onTile Facts₀.hcore0 Facts₀.hsub0 (fun c s => cc0_k (coordsV c s)
          peW (Memref.isWhole_whole _) cW (Memref.isWhole_whole _) oW (Memref.isWhole_whole _)
          sIa (Memref.isWhole_whole _) sIb (Memref.isWhole_whole _) sRa (Memref.isWhole_whole _) sRb (Memref.isWhole_whole _)
          cc0_scratch4 cc0_scratch5 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every vector subcore's task, by its place. -/
theorem tileObl (hF : (K (F := F)).Facts) (hvalA : ∀ d, ValA (F := F) m d) (hvalB : ∀ d, ValB (F := F) m d) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  obtain ⟨cv, hc⟩ := c
  obtain ⟨iv, hi⟩ := i
  rcases Nat.eq_zero_or_pos iv with rfl | hpos
  · have hcv : cv = 0 ∨ cv = 1 := by have : cv < 2 := hc; omega
    rcases hcv with rfl | rfl
    · have hA := tile_bodyA m d hF O W hO (hvalA d)
      rw [← forTile_zero m d 0 (m (oLoc d)), ← forTile_zero m d 0 (peAsO m d)] at hA
      exact hA.trans (wp_mono frame _ _ fun _ => obl_post)
    · have hB := tile_bodyB m d hF O W hO (hvalB d)
      rw [← forTile_zero m d 1 (m (oLoc d)), ← forTile_zero m d 1 (peAsO m d)] at hB
      exact hB.trans (wp_mono frame _ _ fun _ => obl_post)
  · have hne : iv ≠ 0 := by omega
    obtain ⟨h1, h2⟩ := cond_idle ⟨cv, hci.1⟩ ⟨iv, hci.2⟩ hne
    have hI := tile_idle (F := F) d (coordsV ⟨cv, hci.1⟩ ⟨iv, hci.2⟩) O W h1 h2 (forTile m d cv iv (m (oLoc d))) (forTile m d cv iv (peAsO m d))
      (by rw [forTile_pos m d cv iv hne, forTile_pos m d cv iv hne])
    exact hI.trans (wp_mono frame _ _ fun _ => obl_post)

end Tile

end Cert.KernelIdeal.Sc

end
-- ==== Proof.RegionKI.lean ====
/-
  The adding stage of the kernel program: every sequence of the batch plus the gathered table, as the data of a
  staged, blockwise computation.

  The stage walks the batch in 8 blocks of 128 sequences. At block `t` it holds rows `[128 t, 128 t + 128)` of the
  batch array `x : [1024, 200, 128]`, the whole table `p : [200, 128]` (brought in once, at the first block, and kept),
  and writes back rows `[128 t, 128 t + 128)` of the result. Inside a block, entry `(b, l, d)` of what is written is
  `x_block (b, l, d) + p (l, d)`: the table is viewed as one sequence and repeated over the 128 sequences of the block.
  Since block `t`'s entry `(b, l, d)` is entry `(128 t + b, l, d)` of the array, every block written is the
  corresponding block of ONE function of the two arrays, `G x p (b, l, d) = x (b, l, d) + p (l, d)`, and the 8 blocks
  tile the batch axis (row `b` lies in block `b / 128`): the result array ends holding `G x p`, the two inputs are
  never written.

  Everything is stated for the arrays `V` as the stage finds them, at any float instance, and is generic in the index
  type and the user algebra of the ambient ghost state.
-/
import proofs.«202774_g12489764896814_cont_fleet_578_23_alg».proof.Proof.Gen.KernelIdeal.Launch
import proofs.«202774_g12489764896814_cont_fleet_578_23_alg».proof.Proof.Gen.KernelIdeal.Skeleton
import proofs.«202774_g12489764896814_cont_fleet_578_23_alg».proof.Proof.Gen.KernelIdeal.Points
import proofs.«202774_g12489764896814_cont_fleet_578_23_alg».proof.Proof.Spec
import Idealize.ShloMosaic.Lib.Pipeline.FrameBody
import Idealize.ShloMosaic.Lib.Pipeline.Value
import Idealize.ShloMosaic.Lib.Tactic
import Idealize.ShloMosaic.Lib.ValueIdx
import Idealize.ShloMosaic.Lib.ValueLayout

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U]

local notation "𝕄" => MT nD τ sig Ix (Elt F) ℕ U ℕ

variable (V : (c : Dev nD) → (b : Ref sig .tc) → Buf (Elt F) ((c : Thread nD τ).loc b))

/-! ## The blocks of the arrays -/

/-- Window `w`'s block at point `t`, read off its array as the stage finds it: for the batch array and the result rows
    `[128 t, 128 t + 128)`, for the table all of it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The batch array's buffer holds the batch block of the point at every point, for any data whose array is `V`'s and
    whose body leaves the block in place. -/
theorem before_x_of {c : Dev nD} (dat : Dat τ (Elt F) Ix ℕ U ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The table's buffer holds the table at every point, although it is brought in at the first point only: at a later
    point the block index has not moved, and the body leaves the buffer as it found it. -/
theorem before_p_of {c : Dev nD} (dat : Dat τ (Elt F) Ix ℕ U ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The whole batch block, as a rectangle of itself. -/
abbrev rX : Rect S128x200x128 := Rect.unit (s := S128x200x128) ![0, 0, 0] S128x200x128.size inb_S128x200x128_S128x200x128_0_0_0
/-- The whole table, as a rectangle of itself. -/
abbrev rP : Rect S200x128 := Rect.unit (s := S200x128) ![0, 0] S200x128.size inb_S200x128_S200x128_0_0

theorem hzX : (![0, 0, 0] : Fin 3 → Nat) = fun _ => 0 := funext fun a => by fin_cases a <;> rfl
theorem hzP : (![0, 0] : Fin 2 → Nat) = fun _ => 0 := funext fun a => by fin_cases a <;> rfl

/-- The result block the body leaves, from the batch block `x` and the table `p`: its one store, of the sum of the
    batch block and the table repeated over the block's sequences, over the whole block. -/
def outBlock (x : Vec F S128x200x128 .f32) (p : Vec F S200x128 .f32) : Vec F S128x200x128 .f32 :=
  View.canon [⟨rX, k1_pay1 (View.ld x rX) (View.ld p rP)⟩]

/-- The one store covers the block. -/
theorem cover_out (p0 : Vec F S128x200x128 .f32) (y : S128x200x128.Idx) :
    ∃ pc ∈ ([⟨rX, p0⟩] : List (View.Piece (Elt F) S128x200x128 .f32)), y ∈ pc.1.set :=
  ⟨_, List.mem_singleton_self _, View.mem_set_unit_zero hzX inb_S128x200x128_S128x200x128_0_0_0 y⟩

/-! ## The body's triple -/

set_option maxHeartbeats 1000000 in
/-- The body on whole staging buffers, the two inputs' at read contents `x`, `p` and the result's at anything, runs to the
    continuation holding the inputs' as they were and the result's at `outBlock x p`. -/
theorem sound_kernel (c : Dev nD) (E : Set ℕ) (i : grid1.Coords) (arg1 : Memref sig .tc .vmem S128x200x128 .f32) (harg1 : arg1.IsWhole) (arg2 : Memref sig .tc .vmem S200x128 .f32) (harg2 : arg2.IsWhole) (arg3 : Memref sig .tc .vmem S128x200x128 .f32) (harg3 : arg3.IsWhole)
    (x : Vec F S128x200x128 .f32) (p : Vec F S200x128 .f32) (K : PUnit → sProp 𝕄) :
    iprop(owns (c : Thread nD τ) arg1 fullShare x ∗ owns (c : Thread nD τ) arg2 fullShare p ∗ (∃ d, owns (c : Thread nD τ) arg3 fullShare d)
        ∗ (iprop(owns (c : Thread nD τ) arg1 fullShare x ∗ owns (c : Thread nD τ) arg2 fullShare p ∗ owns (c : Thread nD τ) arg3 fullShare (outBlock x p)) -∗ K ⟨⟩))
      ⊢ wp frame (wpE (defs₀ (F := F)) Variants.none c none) E (cc1__tc_add_kernel i arg1 harg1 arg2 harg2 arg3 harg3) K := by
  simp only [cc1__tc_add_kernel_eq_skeleton]; unfold cc1__tc_add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data -/

variable (Rec : Dev nD → Set (SemLoc sig × Ix))

/-- The stage's invariant on core `c`: the core's scoped buffers that are no staging buffer, at some contents each, and
    its generator register at some state — what the body neither reads nor writes. -/
def ΦR (c : Dev nD) : sProp 𝕄 :=
  iprop(Pipeline.scopedRest (Ix := Ix) (Name := ℕ) (U := U) (Lvl := ℕ) (Val := Elt F) spec1 c ∗ ∃ r, prngReg c r)

/-- The proof data of the stage on core `c`: the arrays as the stage finds them (`V`); after the body at point `t` each
    input's buffer at its block and the result's at `outBlock` of the input blocks; the invariant `ΦR`; nothing owed;
    full shares. -/
def dats (_ : Fin 1) (c : Dev nD) : Dat τ (Elt F) Ix ℕ U ℕ cfg1 c where
  A w := V c (Pipeline.arrRef spec1 w)
  after w t := match w with
    | ⟨0, _⟩ => iblk V c 0 t
    | ⟨1, _⟩ => iblk V c 1 t
    | ⟨2, _⟩ => outBlock (iblk V c 0 t) (iblk V c 1 t)
  Φ _ := ΦR c
  q _ := fullShare
  owed _ := 0
  recorded _ := Rec c

/-- The proof data's arrays are the contents the stage finds. -/
theorem A_eq (c : Dev nD) (w : Fin cfg1.W) : (dats (Ix := Ix) (U := U) V Rec 0 c).A w = V c (Pipeline.arrRef spec1 w) := by
  dsimp only [dats]

/-- The invariant is the same at every point, -/
theorem Φ_eq (c : Dev nD) (t : Fin (cfg1.N + 1)) : (dats (Ix := Ix) (U := U) V Rec 0 c).Φ t = ΦR c := by dsimp only [dats]
/-- nothing is owed at any point, -/
theorem owed_eq (c : Dev nD) (t : Fin (cfg1.N + 1)) : (dats (Ix := Ix) (U := U) V Rec 0 c).owed t = 0 := by dsimp only [dats]
/-- and every array is held at the full share. -/
theorem q_eq (c : Dev nD) (w : Fin cfg1.W) : (dats (Ix := Ix) (U := U) V Rec 0 c).q w = fullShare := by dsimp only [dats]

/-- The waits recorded before point `t` lie within `Rec c`, at every point. -/
theorem recorded_eq (c : Dev nD) (t : Fin (cfg1.N + 1)) : (dats (Ix := Ix) (U := U) V Rec 0 c).recorded t = Rec c := by dsimp only [dats]

/-- What the body leaves, window by window. -/
theorem after_x (c : Dev nD) (t : Fin cfg1.N) : (dats (Ix := Ix) (U := U) V Rec 0 c).after 0 t = iblk V c 0 t := by dsimp only [dats]
theorem after_p (c : Dev nD) (t : Fin cfg1.N) : (dats (Ix := Ix) (U := U) V Rec 0 c).after 1 t = iblk V c 1 t := by dsimp only [dats]
theorem after_out (c : Dev nD) (t : Fin cfg1.N) : (dats (Ix := Ix) (U := U) V Rec 0 c).after 2 t = outBlock (iblk V c 0 t) (iblk V c 1 t) := by dsimp only [dats]

/-- Each input's current staging buffer holds its block at every point, brought in there or not. -/
theorem before_x (c : Dev nD) (t : Fin cfg1.N) (d) : (dats (Ix := Ix) (U := U) V Rec 0 c).before 0 t d = iblk V c 0 t :=
  before_x_of V (dats V Rec 0 c) (A_eq V Rec c 0) (after_x V Rec c) t d
theorem before_p (c : Dev nD) (t : Fin cfg1.N) (d) : (dats (Ix := Ix) (U := U) V Rec 0 c).before 1 t d = iblk V c 1 t :=
  before_p_of V (dats V Rec 0 c) (A_eq V Rec c 1) (after_p V Rec c) t d

/-! ## The body obligation, at a generic point -/

/-- What the body is called with at point `t`, the windows one by one, -/
def bodyPre (ι : Ix) (c : Dev nD) (t : Fin cfg1.N) : sProp 𝕄 :=
  iprop((dats (Ix := Ix) (U := U) V Rec 0 c).Φ t.castSucc ∗ (dats (Ix := Ix) (U := U) V Rec 0 c).owesAt ι t.castSucc
    ∗ (∃ d, owns (c : Thread nD τ) (st1_0 t) fullShare ((dats (Ix := Ix) (U := U) V Rec 0 c).before 0 t d))
    ∗ (∃ d, owns (c : Thread nD τ) (st1_1 t) fullShare ((dats (Ix := Ix) (U := U) V Rec 0 c).before 1 t d))
    ∗ (∃ d, owns (c : Thread nD τ) (st1_2 t) fullShare ((dats (Ix := Ix) (U := U) V Rec 0 c).before 2 t d)))

/-- and what it returns. -/
def bodyPost (ι : Ix) (c : Dev nD) (t : Fin cfg1.N) : sProp 𝕄 :=
  iprop((dats (Ix := Ix) (U := U) V Rec 0 c).Φ t.succ ∗ (dats (Ix := Ix) (U := U) V Rec 0 c).owesAt ι t.succ
    ∗ owns (c : Thread nD τ) (st1_0 t) fullShare ((dats (Ix := Ix) (U := U) V Rec 0 c).after 0 t)
    ∗ owns (c : Thread nD τ) (st1_1 t) fullShare ((dats (Ix := Ix) (U := U) V Rec 0 c).after 1 t)
    ∗ owns (c : Thread nD τ) (st1_2 t) fullShare ((dats (Ix := Ix) (U := U) V Rec 0 c).after 2 t))

/-- The body at any point: the inputs' buffers hold their blocks, so `sound_kernel` applies; the invariant and what the
    core owes pass through unread. -/
theorem sound_body (ι : Ix) (c : Dev nD) (t : Fin cfg1.N) :
    (bodyPre (U := U) V Rec ι c t : sProp 𝕄) ⊢ wp frame (wpE (defs₀ (F := F)) Variants.none c none) Set.univ (bodyAt1 t) (fun _ => bodyPost (U := U) V Rec ι c t) := by
  unfold bodyPre bodyPost bodyAt1
  simp only [before_x, before_p]
  rw [show (dats (Ix := Ix) (U := U) V Rec 0 c).Φ t.succ = (dats (Ix := Ix) (U := U) V Rec 0 c).Φ t.castSucc from rfl,
    show (dats (Ix := Ix) (U := U) V Rec 0 c).owesAt ι t.succ = (dats (Ix := Ix) (U := U) V Rec 0 c).owesAt ι t.castSucc from rfl,
    after_x, after_p, after_out]
  iintro ⟨HΦ, Ho, ⟨%d0, H0⟩, ⟨%d1, H1⟩, ⟨%d2, H2⟩⟩
  iapply (sound_kernel c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (ι : Ix) (c : Dev nD) : BodyObligation (dats (F := F) (Ix := Ix) (U := U) V Rec 0 c) (defs₀ (F := F)) Variants.none ι Set.univ := fun t => by
  rw [bigSep_W1, bigSep_W1]
  exact sound_body (U := U) V Rec ι c t

/-- The input arrays are never written. -/
theorem final_in0 (c : Dev nD) (n : Nat) : (dats (Ix := Ix) (U := U) V Rec 0 c).arrAt 0 n = V c main_arg0 :=
  ((dats V Rec 0 c).arrAt_in 0 rfl n).trans (A_eq V Rec c 0)
theorem final_in1 (c : Dev nD) (n : Nat) : (dats (Ix := Ix) (U := U) V Rec 0 c).arrAt 1 n = V c main_v0 :=
  ((dats V Rec 0 c).arrAt_in 1 rfl n).trans (A_eq V Rec c 1)

/-! ## The closed form: the result array as one function of the two arrays -/

theorem lt_l (j : S128x200x128.Idx) : (j 1).val < 200 := (j 1).isLt
theorem lt_d (j : S128x200x128.Idx) : (j 2).val < 128 := (j 2).isLt

/-- The body's sum at entry `(b, l, d)` of the block: the batch block's entry plus the table's entry `(l, d)` — the
    table is cast to one sequence `[1, 200, 128]` and repeated over the block's 128 sequences. -/
theorem pay_apply (x : Vec F S128x200x128 .f32) (p : Vec F S200x128 .f32) (b : Fin 128) (l : Fin 200) (d : Fin 128) :
    k1_pay1 x p (ix3 b l d) = FloatOps.addf (x (ix3 b l d)) (p (ix2 l d)) := by
  unfold k1_pay1
  show FloatOps.addf (x (ix3 b l d)) (broadcastTo S128x200x128 (shapeCast S1x200x128 (shapeCast S200x128 p shapeCasts_S200x128_S200x128) shapeCasts_S200x128_S1x200x128) broadcasts_S1x200x128_S128x200x128 (ix3 b l d)) = _
  refine congrArg (FloatOps.addf (x (ix3 b l d))) ?_
  refine (broadcastTo_apply _ _ (ix3 b l d) (ix3 (0 : Fin 1) l d) fun a => ?_).trans ?_
  · match a with
    | ⟨0, _⟩ => rfl
    | ⟨1, _⟩ => rfl
    | ⟨2, _⟩ => rfl
  refine (shapeCast_ab_1ab_apply _ _ (0 : Fin 1) l d).trans ?_
  rw [shapeCast_self]

/-- The block the body leaves, at an entry: the batch block's entry plus the table's entry at the entry's last two
    coordinates. -/
theorem outBlock_apply (x : Vec F S128x200x128 .f32) (p : Vec F S200x128 .f32) (j : S128x200x128.Idx) :
    outBlock x p j = FloatOps.addf (x j) (p (ix2 (⟨(j 1).val, lt_l j⟩ : Fin 200) (⟨(j 2).val, lt_d j⟩ : Fin 128))) := by
  obtain ⟨b, l, d, rfl⟩ : ∃ (b : Fin 128) (l : Fin 200) (d : Fin 128), j = ix3 b l d := ⟨j 0, j 1, j 2, eq_ix3 j⟩
  unfold outBlock
  rw [View.canon_unit_zero hzX, View.ld_unit_zero hzX, View.ld_unit_zero hzP]
  exact pay_apply x p b l d

/-- The blocks' indices, decided over the 8 points: the batch array's block index is the result's; the table's is
    zero on both axes; the result's is at most 7 on the batch axis and zero on the other two. -/
theorem idx_facts : ∀ t : Fin cfg1.N, win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 2) = 0
    ∧ win1_1.index t (1 : Fin 2) = 0
    ∧ win1_2.index t (0 : Fin 3) ≤ 7
    ∧ win1_2.index t (1 : Fin 3) = 0
    ∧ win1_2.index t (2 : Fin 3) = 0 :=
  (by decide +kernel : ∀ t : Fin grid1.N, _)

/-- Every block of the batch axis is some point's. -/
theorem idx_onto : ∀ (q : Fin 8), ∃ t : Fin cfg1.N, win1_2.index t = ![q.val, 0, 0] :=
  (by decide +kernel : ∀ (q : Fin 8), ∃ t : Fin grid1.N, win1_2.index t = ![q.val, 0, 0])

/-- What point `t` writes back is block `t` of `G` of the two arrays as the stage finds them. -/
theorem flushed_eq (c : Dev nD) (t : Fin cfg1.N) :
    (dats (Ix := Ix) (U := U) V Rec 0 c).flushed 2 t = ((cfg1.win 2).blk t).view.read (Elt F) (Cert.Spec.G (V c main_arg0) (V c main_v0)) := by
  show (cfg1.win 2).cut (grid1.coords t) ((dats (Ix := Ix) (U := U) V Rec 0 c).after 2 t) = _
  rw [after_out]
  obtain ⟨e0, e1, e2, e3, e4, e5, e6, e7⟩ := idx_facts t
  funext j
  refine (outBlock_apply (iblk V c 0 t) (iblk V c 1 t) ((cfg1.win 2).xinj (grid1.coords t) j)).trans ?_
  show FloatOps.addf (V c main_arg0 (((cfg1.win 0).blk t).view.emb j))
      (V c main_v0 (((cfg1.win 1).blk t).view.emb (ix2 (⟨(j 1).val, (j 1).isLt⟩ : Fin 200) (⟨(j 2).val, (j 2).isLt⟩ : Fin 128))))
    = FloatOps.addf (V c main_arg0 (((cfg1.win 2).blk t).view.emb j)) (V c main_v0 (Cert.Spec.row (((cfg1.win 2).blk t).view.emb j)))
  have h0 : ((cfg1.win 0).blk t).view.emb j = ((cfg1.win 2).blk t).view.emb j := by
    funext a; apply Fin.ext
    match a with
    | ⟨0, _⟩ => show win1_0.index t (0 : Fin 3) * 128 + 1 * (j 0).val = win1_2.index t (0 : Fin 3) * 128 + 1 * (j 0).val; omega
    | ⟨1, _⟩ => show win1_0.index t (1 : Fin 3) * 200 + 1 * (j 1).val = win1_2.index t (1 : Fin 3) * 200 + 1 * (j 1).val; omega
    | ⟨2, _⟩ => show win1_0.index t (2 : Fin 3) * 128 + 1 * (j 2).val = win1_2.index t (2 : Fin 3) * 128 + 1 * (j 2).val; omega
  have h1 : ((cfg1.win 1).blk t).view.emb (ix2 (⟨(j 1).val, (j 1).isLt⟩ : Fin 200) (⟨(j 2).val, (j 2).isLt⟩ : Fin 128))
      = Cert.Spec.row (((cfg1.win 2).blk t).view.emb j) := by
    funext a; apply Fin.ext
    match a with
    | ⟨0, _⟩ => show win1_1.index t (0 : Fin 2) * 200 + 1 * (j 1).val = win1_2.index t (1 : Fin 3) * 200 + 1 * (j 1).val; omega
    | ⟨1, _⟩ => show win1_1.index t (1 : Fin 2) * 128 + 1 * (j 2).val = win1_2.index t (2 : Fin 3) * 128 + 1 * (j 2).val; omega
  rw [h0, h1]

/-- An index of the result array is in point `t`'s block iff each coordinate is in the block's range on its axis. -/
theorem mem_blk (t : Fin cfg1.N) (i : S1024x200x128.Idx) :
    i ∈ ((cfg1.win 2).blk t).view.set ↔ ∀ a : Fin 3, win1_2.index t a * S128x200x128.size a ≤ (i a).val ∧ (i a).val < win1_2.index t a * S128x200x128.size a + S128x200x128.size a := by
  show i ∈ ((View.whole main_v1).slice (win1_2.rect t)).set ↔ _
  rw [View.set_slice_whole, Rect.mem_set_unit]
  exact Iff.rfl

/-- The blocks tile the array: batch row `b` lies in the block of point `b / 128`. -/
theorem cover (i : S1024x200x128.Idx) :
    ∃ t : Fin cfg1.N, (cfg1.win 2).flush t = true ∧ i ∈ ((cfg1.win 2).blk t).view.set := by
  have hi0 : (i 0).val < 1024 := (i 0).isLt
  have hi1 : (i 1).val < 200 := (i 1).isLt
  have hi2 : (i 2).val < 128 := (i 2).isLt
  obtain ⟨t, ht⟩ := idx_onto ⟨(i 0).val / 128, by omega⟩
  have q0 : win1_2.index t (0 : Fin 3) = (i 0).val / 128 := congrFun ht 0
  have q1 : win1_2.index t (1 : Fin 3) = 0 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 128 ≤ (i 0).val ∧ (i 0).val < win1_2.index t (0 : Fin 3) * 128 + 128; omega
  | ⟨1, _⟩ => show win1_2.index t (1 : Fin 3) * 200 ≤ (i 1).val ∧ (i 1).val < win1_2.index t (1 : Fin 3) * 200 + 200; omega
  | ⟨2, _⟩ => show win1_2.index t (2 : Fin 3) * 128 ≤ (i 2).val ∧ (i 2).val < win1_2.index t (2 : Fin 3) * 128 + 128; omega

/-- The result array after the stage: `G` of the two arrays as the stage finds them. -/
theorem final_out (c : Dev nD) : (dats (Ix := Ix) (U := U) V Rec 0 c).arrAt 2 cfg1.N = Cert.Spec.G (V c main_arg0) (V c main_v0) :=
  (dats (Ix := Ix) (U := U) V Rec 0 c).arrAt_eq_of_cover 2 (Cert.Spec.G (V c main_arg0) (V c main_v0)) (fun t _ => flushed_eq V Rec c t) cover

end Cert.KernelIdeal.Region

end
-- ==== Proof.ScSetsI.lean ====
/-
  The two halves of the position numbers and of the gathered array partition them.

  The position numbers `[200]` are handed out as positions `[0, 96)` and `[96, 200)`; the gathered array `[200, 128]` as
  rows `[0, 96)` and `[96, 200)`, each with all 128 columns. In both cases the two parts share no element (the first
  ends on the leading axis where the second begins) and together hold every element (a leading coordinate below 200 is
  below 96 or not).
-/
import proofs.«202774_g12489764896814_cont_fleet_578_23_alg».proof.Proof.ScCommonI

noncomputable section

namespace Cert.KernelIdeal.Sc

open Cert.KernelIdeal Cert.KernelIdeal.Gen
open Idealize.ShloMosaic

/-- The two row ranges of the gathered array share no element. -/
theorem o_disj : Disjoint (oA).view.set (oB).view.set := by
  show Disjoint ((View.whole main_v0_scv).slice (Rect.unit (s := S200x128) ![0, 0] S96x128.size Facts₀.inb_S200x128_S96x128_0_0)).set
    ((View.whole main_v0_scv).slice (Rect.unit (s := S200x128) ![96, 0] S104x128.size Facts₀.inb_S200x128_S104x128_96_0)).set
  rw [View.set_slice_whole, View.set_slice_whole]
  exact Rect.unit_disjoint (0 : Fin 2) (Or.inl (Nat.le_refl 96))

/-- Together they are the whole gathered array. -/
theorem o_cover : (oA).view.set ∪ (oB).view.set = Finset.univ := by
  show ((View.whole main_v0_scv).slice (Rect.unit (s := S200x128) ![0, 0] S96x128.size Facts₀.inb_S200x128_S96x128_0_0)).set
    ∪ ((View.whole main_v0_scv).slice (Rect.unit (s := S200x128) ![96, 0] S104x128.size Facts₀.inb_S200x128_S104x128_96_0)).set = Finset.univ
  rw [View.set_slice_whole, View.set_slice_whole]
  ext i
  simp only [Finset.mem_union, Finset.mem_univ, iff_true]
  rw [Rect.mem_set_unit, Rect.mem_set_unit]
  have h0 : (i 0).val < 200 := (i 0).isLt
  have h1 : (i 1).val < 128 := (i 1).isLt
  by_cases h : (i 0).val < 96
  · left; intro a
    match a with
    | ⟨0, _⟩ => show 0 ≤ (i 0).val ∧ (i 0).val < 0 + 96; omega
    | ⟨1, _⟩ => show 0 ≤ (i 1).val ∧ (i 1).val < 0 + 128; omega
  · right; intro a
    match a with
    | ⟨0, _⟩ => show 96 ≤ (i 0).val ∧ (i 0).val < 96 + 104; omega
    | ⟨1, _⟩ => show 0 ≤ (i 1).val ∧ (i 1).val < 0 + 128; omega

/-- The two ranges of the position numbers share no element. -/
theorem c_disj : Disjoint (cA).view.set (cB).view.set := by
  show Disjoint ((View.whole main_c_scv).slice (Rect.unit (s := S200) ![0] S96.size Facts₀.inb_S200_S96_0)).set
    ((View.whole main_c_scv).slice (Rect.unit (s := S200) ![96] S104.size Facts₀.inb_S200_S104_96)).set
  rw [View.set_slice_whole, View.set_slice_whole]
  exact Rect.unit_disjoint (0 : Fin 1) (Or.inl (Nat.le_refl 96))

/-- Together they are all the position numbers. -/
theorem c_cover : (cA).view.set ∪ (cB).view.set = Finset.univ := by
  show ((View.whole main_c_scv).slice (Rect.unit (s := S200) ![0] S96.size Facts₀.inb_S200_S96_0)).set
    ∪ ((View.whole main_c_scv).slice (Rect.unit (s := S200) ![96] S104.size Facts₀.inb_S200_S104_96)).set = Finset.univ
  rw [View.set_slice_whole, View.set_slice_whole]
  ext i
  simp only [Finset.mem_union, Finset.mem_univ, iff_true]
  rw [Rect.mem_set_unit, Rect.mem_set_unit]
  have h0 : (i 0).val < 200 := (i 0).isLt
  by_cases h : (i 0).val < 96
  · left; intro a
    match a with
    | ⟨0, _⟩ => show 0 ≤ (i 0).val ∧ (i 0).val < 0 + 96; omega
  · right; intro a
    match a with
    | ⟨0, _⟩ => show 96 ≤ (i 0).val ∧ (i 0).val < 96 + 104; omega

end Cert.KernelIdeal.Sc

end
-- ==== Proof.ScRegionI.lean ====
/-
  The whole program's run: the launch of the SparseCore call, @main on the TensorCore around it — the constant
  position numbers, the call, then the addition region — and what the final memory holds.

  After the call the gathered array holds the table, row for row; the addition region then leaves, at entry
  `(b, l, d)` of the result, `x (b, l, d)` plus the gathered array's entry `(l, d)`, that is the table's.
-/
import proofs.«202774_g12489764896814_cont_fleet_578_23_alg».proof.Proof.ScTileI
import proofs.«202774_g12489764896814_cont_fleet_578_23_alg».proof.Proof.RegionKI
import proofs.«202774_g12489764896814_cont_fleet_578_23_alg».proof.Proof.Spec
import proofs.«202774_g12489764896814_cont_fleet_578_23_alg».proof.Proof.ScSetsI

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The call's operands split among the subcores -/

omit [FloatOps F] in
theorem bigSep_emp' {I : Type} (s : Finset I) : (bigSep s fun _ => iprop(emp)) = (iprop(emp) : sProp 𝕄) := bigSep_emp_const s

/-- All sixteen tasks' shares are subcore 0's. -/
theorem tiles_eq (d : Dev nD) (c : ℕ) (f : Buf (Elt F) (oLoc d)) :
    (bigSep Finset.univ fun i : Fin ((K (F := F)).nSub 0) => forTile m d c i.val f : sProp 𝕄)
      = iprop(forCore m d c f ∗ emp) := by
  rw [BI.bigSep_univ_split (⟨0, Nat.succ_pos 15⟩ : Fin ((K (F := F)).nSub 0))]
  rw [show forTile m d c (⟨0, Nat.succ_pos 15⟩ : Fin ((K (F := F)).nSub 0)).val f = forCore m d c f from forTile_zero m d c f]
  rw [bigSep_congr (fun (i : Fin ((K (F := F)).nSub 0)) hi => forTile_pos m d c i.val (fun h => (Finset.mem_erase.mp hi).1 (Fin.ext h)) f), bigSep_emp']
  rfl

theorem vecSplit : (K (F := F)).VecSplit' (P m) 0 := by
  intro d c
  show forCore m d c.val (m (oLoc d)) ⊢ |={Set.univ}=> iprop(
      (bigSep Finset.univ fun i : Fin ((K (F := F)).nSub 0) => forTile m d c.val i.val (m (oLoc d)))
      ∗ ((bigSep Finset.univ fun i : Fin ((K (F := F)).nSub 0) => forTile m d c.val i.val (peAsO m d)) -∗ forCore m d c.val (peAsO m d)))
  rw [tiles_eq, tiles_eq]
  iintro H; imodintro
  isplitl [H]
  · isplitl [H]; · iexact H
    iempintro
  iintro ⟨H, -⟩; iexact H

/-! ## The launch element: the handshakes' rounds, the addition region's staging cells, no transfer yet counted -/

abbrev adm : (p : Fin 1) → (pcfgs (F := F) p).Adm := fun p => (cfgs p).toPCfg_adm

theorem cellOf_inj' : Function.Injective (Pipeline.cellOf (nD := nD) (τ := τ) (Pipeline.pin (pcfgs (F := F)) adm)) := Gen.cellOf_inj

def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), (1 : Counters)))

/-- The region's staging cells' ghost state and duty tokens, which @main's proof enters the region with. -/
def GP (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (show BI.own (((Emb.inl : Emb UP (UP × Counters)).trans (embR : Emb (UP × Counters) 𝕄)) _) ⊢ BI.own ((EP : Emb UP 𝕄) _) from BI.Entails.refl _) $$ HP
  imod (Pipeline.fund_ghost (Pipeline.pin (pcfgs (F := F)) adm) (EP : Emb UP 𝕄) cellOf_inj') $$ HP' with ⟨Hg, Ht⟩
  imodintro
  isplitl [HH]; · iexact HH
  isplitl [Hg Ht]
  · unfold GP
    rw [bigSep_sep']
    isplitl [Hg]
    · ihave Hg' := (Entails.of_eq (bigSep_congr fun d _ => (bigSep_univ_of_subsingleton (0 : Fin 1)))) $$ Hg
      iexact Hg'
    · ihave Ht' := (Entails.of_eq (bigSep_congr fun d _ => (bigSep_univ_of_subsingleton (0 : Fin 1)))) $$ Ht
      iexact Ht'
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (peLoc d ↦{fullShare} W main_arg1) ∗ (cLoc d ↦{fullShare} W main_c)
      ∗ (oLoc d ↦{fullShare} W main_v0) ∗ rLoc d ↦{fullShare} W main_v1) := by
  unfold unscopedBufs
  rw [show (Finset.univ.filter fun b : Ref sig .tc => ¬ b.isScoped) = {main_arg0, main_arg1, main_c, main_v0, main_v1} by decide,
    SparseCore.bigSep_insert' (by decide), SparseCore.bigSep_insert' (by decide), SparseCore.bigSep_insert' (by decide),
    SparseCore.bigSep_insert' (by decide), bigSep_singleton]

abbrev c' : DevRef τ sig := Proc.devRef .tc (main_c : Ref sig .tc)
abbrev opC : HloOp τ sig (Elt F) := StableHlo.nullary main_c (fun i => lit0 (S200.rowMajor i))
def V0 (d : Dev nD) : Valuation τ sig (Elt F) := fun b => m (d, b)

/-- The arrays as the addition region finds them: the position numbers written, the gathered array at the table. -/
def Vr (d : Dev nD) (b : Ref sig .tc) : Buf (Elt F) ((d.tc : Thread nD τ).loc b) :=
  Function.update (Function.update (fun b => m ((d.tc : Thread nD τ).loc b)) main_c (cval (F := F) d)) main_v0 (peAsO m d) b

theorem Vr_x (d : Dev nD) : Vr m d main_arg0 = m (xLoc d) := by
  unfold Vr; rw [Function.update_of_ne (by decide : (_ : Ref sig .tc) ≠ _), Function.update_of_ne (by decide : (_ : Ref sig .tc) ≠ _)]
theorem Vr_pe (d : Dev nD) : Vr m d main_arg1 = m (peLoc d) := by
  unfold Vr; rw [Function.update_of_ne (by decide : (_ : Ref sig .tc) ≠ _), Function.update_of_ne (by decide : (_ : Ref sig .tc) ≠ _)]
theorem Vr_c (d : Dev nD) : Vr m d main_c = cval (F := F) d := by
  unfold Vr; rw [Function.update_of_ne (by decide : (_ : Ref sig .tc) ≠ _), Function.update_self]
theorem Vr_o (d : Dev nD) : Vr m d main_v0 = peAsO m d := by
  unfold Vr; rw [Function.update_self]
theorem Vr_r (d : Dev nD) : Vr m d main_v1 = m (rLoc d) := by
  unfold Vr; rw [Function.update_of_ne (by decide : (_ : Ref sig .tc) ≠ _), Function.update_of_ne (by decide : (_ : Ref sig .tc) ≠ _)]

/-- The pairs the TensorCore may have recorded before the region: at levels of the call. -/
def Rec (d : Dev nD) : Set (SemLoc sig × HIx 1) := {p | (K (F := F)).lev (T d, p.1) p.2 ≤ 8}

/-- The addition region's proof data. -/
def pdats (p : Fin 1) (c : Dev nD) : Pipeline.Dat τ (Elt F) (HIx 1) ℕ UU ℕ (Pipeline.pin (pcfgs (F := F)) adm p) c :=
  Region.dats (Ix := HIx 1) (U := UU) (Vr m) (Rec (F := F)) p c

theorem hshare (c : Dev nD) (w : Fin cfg1.W) : (pdats m 0 c).share w = fullShare :=
  (pdats m 0 c).share_full (fun w => Region.q_eq (Ix := HIx 1) (U := UU) (Vr m) (Rec (F := F)) c w) w

omit [FloatOps F] in
theorem prefHeld_emp (c : Dev nD) (q) (pf) :
    (Pipeline.prefHeld (Ix := HIx 1) (Name := ℕ) (U := UU) (Lvl := ℕ) (Val := Elt F) (pcfgs (F := F) 0).pre c q pf : sProp 𝕄) = BI.emp := by
  unfold Pipeline.prefHeld; rw [Finset.univ_eq_empty, BI.bigSep_empty]

/-- The TensorCore's debts and recorded waits, as it enters and leaves the region: nothing owed, every recorded pair
    at a level of the call. -/
abbrev owesTc (c : Dev nD) : sProp 𝕄 := iprop(∃ W, ⌜(K (F := F)).WBelow (T c) W 8⌝ ∗ owes (T c) (0 : CellTallies nD τ sig (HIx 1)) W)

/-- The addition region. -/
def reg : Pipeline.RegionSeg (pcfgs (F := F)) adm (pdats m) (none : HIx 1) defs₀ 𝒱₀ (K (F := F)).L (K (F := F)).lev 0 where
  win := winFacts1.to₀
  block_pos := block_pos1
  stage_whole := stage_whole1
  K := PEmpty
  osem k := k.elim
  ho := Pipeline.OwnSemFacts.none _
  hbody c := (Region.body_obligation (Ix := HIx 1) (U := UU) (Vr m) (Rec (F := F)) none c).loose
  hwaits := Pipeline.hwaits_of_owed_zero _ _ _ _ _ _ 0 fun _ _ => rfl
  pre c := iprop(unscopedBufs c (Vr m c) ∗ (∃ r, prngReg c r) ∗ owesTc (F := F) c)
  post c := iprop((xLoc c ↦{fullShare} m (xLoc c)) ∗ (peLoc c ↦{fullShare} m (peLoc c))
    ∗ (rLoc c ↦{fullShare} Cert.Spec.G (m (xLoc c)) (m (peLoc c))) ∗ (∃ r, prngReg c r) ∗ owesTc (F := F) c)
  X c := iprop(∃ r, prngReg c r)
  Y c := iprop(∃ r, prngReg c r)
  Z c := Pipeline.unscopedRest spec1 c (Vr m c)
  hentry c := by
    rw [Pipeline.ownSems0_none, prefHeld_emp]
    iintro ⟨⟨Hu, Hp, %W, %hW, HO⟩, -, -⟩
    ihave Ha := (Pipeline.arrays_of_unscopedBufs (pcfgs (F := F)) adm (pdats m) (p := 0) winFacts1 arr_whole1 c (hshare m c) (Vr m c)
      (fun w => Region.A_eq (Ix := HIx 1) (U := UU) (Vr m) (Rec (F := F)) c w)) $$ Hu
    icases Ha with ⟨Ha, Hz⟩
    imodintro
    isplitl [Ha]; · iexact Ha
    isplitr; · iempintro
    isplitl [HO]
    · iexists W; isplitr
      · ipureintro; intro p hp; exact Or.inl (hW p hp)
      · iexact HO
    isplitl [Hp]; · iexact Hp
    iexact Hz
  hin c := by
    rw [show (pdats m 0 c).Φ 0 = Region.ΦR (F := F) (Ix := HIx 1) (U := UU) c from rfl]
    unfold Region.ΦR
    iintro ⟨HX, -, Hs⟩
    isplitl [Hs]; · iexact Hs
    iexact HX
  hout c := by
    rw [show (pdats m 0 c).Φ (Fin.last _) = Region.ΦR (F := F) (Ix := HIx 1) (U := UU) c from rfl, Pipeline.ownSems0_none]
    unfold Region.ΦR
    iintro ⟨Hs, HX⟩
    isplitl [HX]; · iexact HX
    isplitr; · iempintro
    iexact Hs
  hexit c := by
    rw [Pipeline.arrays_eq (Pipeline.pin (pcfgs (F := F)) adm) (pdats m) 0 c arr_whole1 (hshare m c), Gen.bigSep_W1, Gen.unscopedRest1_eq]
    have e0 : (pdats m 0 c).arrAt 0 (Pipeline.pin (pcfgs (F := F)) adm 0).N = m (xLoc c) :=
      (Region.final_in0 (Ix := HIx 1) (U := UU) (Vr m) (Rec (F := F)) c _).trans (Vr_x m c)
    have e2 : (pdats m 0 c).arrAt 2 (Pipeline.pin (pcfgs (F := F)) adm 0).N = Cert.Spec.G (m (xLoc c)) (m (peLoc c)) :=
      (Region.final_out (Ix := HIx 1) (U := UU) (Vr m) (Rec (F := F)) c).trans (by rw [Vr_x, Vr_o]; rfl)
    iintro ⟨⟨Hx, -, Hr⟩, ⟨%W, %hW, HO⟩, Hp, Hpe, -⟩
    ihave Hx' := (Entails.of_eq (congrArg (fun f => (xLoc c ↦{fullShare} f : sProp 𝕄)) e0)) $$ Hx
    ihave Hr' := (Entails.of_eq (congrArg (fun f => (rLoc c ↦{fullShare} f : sProp 𝕄)) e2)) $$ Hr
    ihave Hpe' := (Entails.of_eq (congrArg (fun f => (peLoc c ↦{fullShare} f : sProp 𝕄)) (Vr_pe m c))) $$ Hpe
    imodintro
    isplitl [Hx']; · iexact Hx'
    isplitl [Hpe']; · iexact Hpe'
    isplitl [Hr']; · iexact Hr'
    isplitl [Hp]; · iexact Hp
    iexists W; isplitr
    · ipureintro; intro p hp
      rcases hW hp with h | ⟨w, s, h⟩
      · exact h
      · subst h; exact Nat.zero_le _
    · iexact HO

/-! ### The region's step inside the SparseCore program's body table -/

set_option backward.isDefEq.respectTransparency.types false in
set_option maxHeartbeats 2000000 in
/-- The addition region on the TensorCore of `d`, as @main of the whole program calls it: from the region's entry state,
    its staging cells' ghost state and the level facts to its exit state. -/
theorem wp_region (d : Dev nD) (Q : PUnit → sProp 𝕄) :
    iprop((iprop(boundary (d.tc : Thread nD τ) ∗ (reg m).post d)
          -∗ wp frame (wpE (D (F := F)) 𝒱 (d.tc : Thread nD τ) none) Set.univ (.ret ⟨⟩) Q)
        ∗ boundary (d.tc : Thread nD τ) ∗ (reg m).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun _ => .ret ⟨⟩) Q :=
  Pipeline.RegionSeg.wp (pcfgs (F := F)) adm (pdats m) (none : HIx 1) cellOf_inj' EP defs₀ 𝒱₀ (K (F := F)).L (K (F := F)).lev (reg m) d none
    (fun u hu => nomatch hu) (fun _ => .ret ⟨⟩) Q

end Cert.KernelIdeal.Sc

end
-- ==== Proof.ScValueI.lean ====
/-
  What a working subcore's three copies leave in the gathered array, as pure data movement.

  The first subcore copies position numbers 0..95 over its whole list buffer; the indirect gather writes into its
  row buffer, at row `k`, the table's row whose number is entry `k` of the list; the row buffer is then copied
  whole onto rows 0..95 of the gathered array. Entry `k` of the list is `k`, so on those rows the gathered array
  ends equal to the table. The second subcore does the same with position numbers 96..199: entry `k` of its list is
  `96 + k` and its row buffer lands on rows 96..199, so row `96 + k` of the gathered array is row `96 + k` of the
  table. Nothing here runs a program: both statements are equations between contents.
-/
import proofs.«202774_g12489764896814_cont_fleet_578_23_alg».proof.Proof.ScCommonI
import Idealize.ShloMosaic.Lib.Writes

noncomputable section

namespace Cert.KernelIdeal.Sc

open Cert.KernelIdeal Cert.KernelIdeal.Gen
open Idealize.ShloMosaic

variable {F : FTy → Type}

local notation "sIa" => (Memref.whole Cert.KernelIdeal.cc0_scratch0 : Memref Cert.KernelIdeal.sig Kind.scVector Space.vmem Cert.KernelIdeal.S96 EltTy.i32)
local notation "sIb" => (Memref.whole Cert.KernelIdeal.cc0_scratch1 : Memref Cert.KernelIdeal.sig Kind.scVector Space.vmem Cert.KernelIdeal.S104 EltTy.i32)
local notation "sRa" => (Memref.whole Cert.KernelIdeal.cc0_scratch2 : Memref Cert.KernelIdeal.sig Kind.scVector Space.vmem Cert.KernelIdeal.S96x128 EltTy.f32)
local notation "sRb" => (Memref.whole Cert.KernelIdeal.cc0_scratch3 : Memref Cert.KernelIdeal.sig Kind.scVector Space.vmem Cert.KernelIdeal.S104x128 EltTy.f32)

/-! ## Small facts about the literal table and about indices of literal shapes -/

/-- The literal table of position numbers holds `k` at position `k`. -/
theorem lit0_toNat : ∀ k : Fin 200, (lit0 k).toNat = k.val := by decide

/-- A position in a one-axis shape is its one coordinate. -/
theorem rowMajor_symm_val {n : Nat} (k : Fin (⟨1, ![n]⟩ : Shape).numel) :
    (((⟨1, ![n]⟩ : Shape).rowMajor.symm k) 0).val = k.val := by
  have h := Shape.rowMajor_val_one (d := ![n]) ((⟨1, ![n]⟩ : Shape).rowMajor.symm k)
  rw [Equiv.apply_symm_apply] at h
  exact h.symm

/-- Two indices of a two-axis shape with equal coordinates are equal. -/
theorem idx2_ext {n0 n1 : Nat} (u v : (⟨2, ![n0, n1]⟩ : Shape).Idx) (h0 : (u 0).val = (v 0).val) (h1 : (u 1).val = (v 1).val) :
    u = v := by
  funext a
  match a with
  | ⟨0, _⟩ => exact Fin.ext h0
  | ⟨1, _⟩ => exact Fin.ext h1

/-! ## The first subcore: rows 0..95 -/

/-- The rows the first subcore's list names: entry `k` of the list, position numbers 0..95 copied over the whole list buffer, is `k`. -/
theorem rowsA_val (d d' : Dev nD) (c : Fin τ.nSC) (j : Fin τ.nSub)
    (fi : Buf (Elt F) ((sIa).view.loc (SparseCore.V d' c j)))
    (hn : S96.numel = S96x128.size Facts₀.gathers_S200x128_S96x128.axis')
    (hin : ∀ x, ((View.read (Elt F) (sIa).view (View.write (Elt F) (sIa).view fi (View.read (Elt F) (cA).view (cval (F := F) d)) Finset.univ)) x).toNat
        < S200x128.size Facts₀.gathers_S200x128_S96x128.axis)
    (k : Fin (S96x128.size Facts₀.gathers_S200x128_S96x128.axis')) :
    (SparseCore.rows (View.read (Elt F) (sIa).view (View.write (Elt F) (sIa).view fi (View.read (Elt F) (cA).view (cval (F := F) d)) Finset.univ)) hn hin k).val
      = k.val := by
  show ((View.read (Elt F) (sIa).view (View.write (Elt F) (sIa).view fi (View.read (Elt F) (cA).view (cval (F := F) d)) Finset.univ))
      (S96.rowMajor.symm (k.cast hn.symm))).toNat = k.val
  rw [View.read_write_univ, View.read_apply, cast_eq]
  refine (lit0_toNat (S200.rowMajor ((cA).view.emb (S96.rowMajor.symm (k.cast hn.symm))))).trans ?_
  refine (Shape.rowMajor_val_one (d := ![200]) ((cA).view.emb (S96.rowMajor.symm (k.cast hn.symm)))).trans ?_
  show 0 + 1 * ((S96.rowMajor.symm (k.cast hn.symm)) 0).val = k.val
  refine (congrArg (fun t => 0 + 1 * t) (rowMajor_symm_val (n := 96) (k.cast hn.symm))).trans ?_
  show 0 + 1 * k.val = k.val
  omega

/-- After the first subcore's copies, an element of rows 0..95 of the gathered array is the table's element at the same place: the row buffer, copied whole onto those rows, holds at row `k` the table's row that entry `k` of the list names, which is row `k`. -/
theorem valueA (d d' : Dev nD) (c : Fin τ.nSC) (j : Fin τ.nSub) (pe : Buf (Elt F) (peLoc d)) (o : Buf (Elt F) (oLoc d))
    (fi : Buf (Elt F) ((sIa).view.loc (SparseCore.V d' c j))) (fr : Buf (Elt F) ((sRa).view.loc (SparseCore.V d' c j)))
    (hn : S96.numel = S96x128.size Facts₀.gathers_S200x128_S96x128.axis')
    (hin : ∀ x, ((View.read (Elt F) (sIa).view (View.write (Elt F) (sIa).view fi (View.read (Elt F) (cA).view (cval (F := F) d)) Finset.univ)) x).toNat
        < S200x128.size Facts₀.gathers_S200x128_S96x128.axis)
    (i : Idx (oLoc d)) (hi : i ∈ (oA).view.set) :
    (oA).view.writes (Elt F) o [⟨Rect.whole S96x128, (sRa).view.read (Elt F) (View.write (Elt F) (sRa).view fr
        (SparseCore.gatherPayload Facts₀.gathers_S200x128_S96x128 (View.read (Elt F) (peAll).view pe)
          (SparseCore.rows (View.read (Elt F) (sIa).view (View.write (Elt F) (sIa).view fi (View.read (Elt F) (cA).view (cval (F := F) d)) Finset.univ)) hn hin))
        Finset.univ)⟩] i
      = pe i := by
  obtain ⟨y, -, rfl⟩ := Finset.mem_map.mp hi
  rw [View.writes_singleton]
  -- the whole-shape rectangle of the slice places an index where the slice does
  have e : (oA).view.emb y = ((oA).view.slice (Rect.whole S96x128)).emb y := by
    rw [View.emb_slice]
    show _ = (oA).view.emb ((Rect.whole S96x128).emb y)
    rw [Rect.emb_whole_apply]
  -- the element written is the row buffer's, which holds the gather's payload
  rw [e, View.write_emb_of_mem _ _ (Finset.mem_univ _), View.read_write_univ]
  unfold SparseCore.gatherPayload
  rw [View.read_apply, cast_cast, cast_eq, ← e]
  -- the table's entry the payload reads is the entry at the destination's own place
  congr 1
  refine idx2_ext _ _ ?_ ?_
  · have h1 := congrArg Fin.val (Shape.Gathers.idx_axis Facts₀.gathers_S200x128_S96x128
      (SparseCore.rows (View.read (Elt F) (sIa).view (View.write (Elt F) (sIa).view fi (View.read (Elt F) (cA).view (cval (F := F) d)) Finset.univ)) hn hin) y)
    have h2 := rowsA_val d d' c j fi hn hin (y Facts₀.gathers_S200x128_S96x128.axis')
    show 0 + 1 * (Facts₀.gathers_S200x128_S96x128.idx _ y Facts₀.gathers_S200x128_S96x128.axis).val
      = 0 + 1 * (y Facts₀.gathers_S200x128_S96x128.axis').val
    rw [h1, h2]
  · have h1 := Shape.Gathers.idx_of_ne Facts₀.gathers_S200x128_S96x128
      (SparseCore.rows (View.read (Elt F) (sIa).view (View.write (Elt F) (sIa).view fi (View.read (Elt F) (cA).view (cval (F := F) d)) Finset.univ)) hn hin) y
      1 (by decide)
    show 0 + 1 * (Facts₀.gathers_S200x128_S96x128.idx _ y 1).val = 0 + 1 * (y 1).val
    rw [h1]
    rfl

/-! ## The second subcore: rows 96..199 -/

/-- The rows the second subcore's list names: entry `k` of the list, position numbers 96..199 copied over the whole list buffer, is `96 + k`. -/
theorem rowsB_val (d d' : Dev nD) (c : Fin τ.nSC) (j : Fin τ.nSub)
    (fi : Buf (Elt F) ((sIb).view.loc (SparseCore.V d' c j)))
    (hn : S104.numel = S104x128.size Facts₀.gathers_S200x128_S104x128.axis')
    (hin : ∀ x, ((View.read (Elt F) (sIb).view (View.write (Elt F) (sIb).view fi (View.read (Elt F) (cB).view (cval (F := F) d)) Finset.univ)) x).toNat
        < S200x128.size Facts₀.gathers_S200x128_S104x128.axis)
    (k : Fin (S104x128.size Facts₀.gathers_S200x128_S104x128.axis')) :
    (SparseCore.rows (View.read (Elt F) (sIb).view (View.write (Elt F) (sIb).view fi (View.read (Elt F) (cB).view (cval (F := F) d)) Finset.univ)) hn hin k).val
      = 96 + k.val := by
  show ((View.read (Elt F) (sIb).view (View.write (Elt F) (sIb).view fi (View.read (Elt F) (cB).view (cval (F := F) d)) Finset.univ))
      (S104.rowMajor.symm (k.cast hn.symm))).toNat = 96 + k.val
  rw [View.read_write_univ, View.read_apply, cast_eq]
  refine (lit0_toNat (S200.rowMajor ((cB).view.emb (S104.rowMajor.symm (k.cast hn.symm))))).trans ?_
  refine (Shape.rowMajor_val_one (d := ![200]) ((cB).view.emb (S104.rowMajor.symm (k.cast hn.symm)))).trans ?_
  show 96 + 1 * ((S104.rowMajor.symm (k.cast hn.symm)) 0).val = 96 + k.val
  refine (congrArg (fun t => 96 + 1 * t) (rowMajor_symm_val (n := 104) (k.cast hn.symm))).trans ?_
  show 96 + 1 * k.val = 96 + k.val
  omega

/-- After the second subcore's copies, an element of rows 96..199 of the gathered array is the table's element at the same place: the row buffer, copied whole onto those rows, holds at row `k` the table's row that entry `k` of the list names, row `96 + k`, and lands on row `96 + k`. -/
theorem valueB (d d' : Dev nD) (c : Fin τ.nSC) (j : Fin τ.nSub) (pe : Buf (Elt F) (peLoc d)) (o : Buf (Elt F) (oLoc d))
    (fi : Buf (Elt F) ((sIb).view.loc (SparseCore.V d' c j))) (fr : Buf (Elt F) ((sRb).view.loc (SparseCore.V d' c j)))
    (hn : S104.numel = S104x128.size Facts₀.gathers_S200x128_S104x128.axis')
    (hin : ∀ x, ((View.read (Elt F) (sIb).view (View.write (Elt F) (sIb).view fi (View.read (Elt F) (cB).view (cval (F := F) d)) Finset.univ)) x).toNat
        < S200x128.size Facts₀.gathers_S200x128_S104x128.axis)
    (i : Idx (oLoc d)) (hi : i ∈ (oB).view.set) :
    (oB).view.writes (Elt F) o [⟨Rect.whole S104x128, (sRb).view.read (Elt F) (View.write (Elt F) (sRb).view fr
        (SparseCore.gatherPayload Facts₀.gathers_S200x128_S104x128 (View.read (Elt F) (peAll).view pe)
          (SparseCore.rows (View.read (Elt F) (sIb).view (View.write (Elt F) (sIb).view fi (View.read (Elt F) (cB).view (cval (F := F) d)) Finset.univ)) hn hin))
        Finset.univ)⟩] i
      = pe i := by
  obtain ⟨y, -, rfl⟩ := Finset.mem_map.mp hi
  rw [View.writes_singleton]
  -- the whole-shape rectangle of the slice places an index where the slice does
  have e : (oB).view.emb y = ((oB).view.slice (Rect.whole S104x128)).emb y := by
    rw [View.emb_slice]
    show _ = (oB).view.emb ((Rect.whole S104x128).emb y)
    rw [Rect.emb_whole_apply]
  -- the element written is the row buffer's, which holds the gather's payload
  rw [e, View.write_emb_of_mem _ _ (Finset.mem_univ _), View.read_write_univ]
  unfold SparseCore.gatherPayload
  rw [View.read_apply, cast_cast, cast_eq, ← e]
  -- the table's entry the payload reads is the entry at the destination's own place
  congr 1
  refine idx2_ext _ _ ?_ ?_
  · have h1 := congrArg Fin.val (Shape.Gathers.idx_axis Facts₀.gathers_S200x128_S104x128
      (SparseCore.rows (View.read (Elt F) (sIb).view (View.write (Elt F) (sIb).view fi (View.read (Elt F) (cB).view (cval (F := F) d)) Finset.univ)) hn hin) y)
    have h2 := rowsB_val d d' c j fi hn hin (y Facts₀.gathers_S200x128_S104x128.axis')
    show 0 + 1 * (Facts₀.gathers_S200x128_S104x128.idx _ y Facts₀.gathers_S200x128_S104x128.axis).val
      = 96 + 1 * (y Facts₀.gathers_S200x128_S104x128.axis').val
    rw [h1, h2]
    omega
  · have h1 := Shape.Gathers.idx_of_ne Facts₀.gathers_S200x128_S104x128
      (SparseCore.rows (View.read (Elt F) (sIb).view (View.write (Elt F) (sIb).view fi (View.read (Elt F) (cB).view (cval (F := F) d)) Finset.univ)) hn hin) y
      1 (by decide)
    show 0 + 1 * (Facts₀.gathers_S200x128_S104x128.idx _ y 1).val = 0 + 1 * (y 1).val
    rw [h1]
    rfl

end Cert.KernelIdeal.Sc

end
-- ==== Proof.ScMainI.lean ====
/-
  The whole program's run: the launch of the SparseCore call, @main on the TensorCore around it — the constant
  position numbers, the call, then the addition region — and what the final memory holds.

  After the call the gathered array holds the table, row for row; the addition region then leaves, at entry
  `(b, l, d)` of the result, `x (b, l, d)` plus the gathered array's entry `(l, d)`, that is the table's.
-/
import proofs.«202774_g12489764896814_cont_fleet_578_23_alg».proof.Proof.ScRegionI
import proofs.«202774_g12489764896814_cont_fleet_578_23_alg».proof.Proof.ScValueI

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ### The run of @main -/

abbrev FIN (d : Dev nD) : sProp 𝕄 :=
  iprop((xLoc d ↦{fullShare} m (xLoc d)) ∗ (peLoc d ↦{fullShare} m (peLoc d)) ∗ rLoc d ↦{fullShare} Cert.Spec.G (m (xLoc d)) (m (peLoc d)))

theorem st0_eq (d : Dev nD) : (bigSep Finset.univ fun c : Fin ((K (F := F)).nCore 0) => (P m).st 0 d c)
    = iprop(forCore m d 0 (m (oLoc d)) ∗ forCore m d 1 (m (oLoc d))) := by
  show (bigSep (Finset.univ : Finset (Fin 2)) fun c => forCore m d c.val (m (oLoc d))) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c)
    = iprop(forCore m d 0 (peAsO m d) ∗ forCore m d 1 (peAsO m d)) := by
  show (bigSep (Finset.univ : Finset (Fin 2)) fun c => forCore m d c.val (peAsO m d)) = _
  rw [show (Finset.univ : Finset (Fin 2)) = {0, 1} by decide, SparseCore.bigSep_insert' (by decide), bigSep_singleton]
  rfl

/-- The region's call in @main of the whole program is the region's call, lifted to the whole program's labels. -/
theorem lift_call :
    (SparseCore.liftProg (Q := 1) (.op (.customCall (Pipeline.entry 0) ()) fun _ => .ret ⟨⟩
        : Prog (TpuEff nD τ sig (Elt F) (ΛP (F := F)) .tc) PUnit)
      : Prog (TpuEff nD τ sig (Elt F) (SparseCore.Sig (ΛP (F := F)) 1) .tc) PUnit)
      = Prog.lift (.customCall (SparseCore.inner (Pipeline.entry 0)) ()) := rfl

theorem lift_wp (d : Dev nD) (Q : PUnit → sProp 𝕄) :
    wp frame (wpE (D (F := F)) 𝒱 (d.tc : Thread nD τ) none) Set.univ (.op (.customCall (Pipeline.entry 0) ()) fun _ => .ret ⟨⟩) Q
      ⊢ wp frame (wpE ((K (F := F)).defs (D (F := F))) 𝒱 (d.tc : Thread nD τ) none) Set.univ
          (SparseCore.liftProg (Q := 1) (.op (.customCall (Pipeline.entry 0) ()) fun _ => .ret ⟨⟩)) Q :=
  (K (F := F)).wp_liftProg (D (F := F)) 𝒱 (d.tc : Thread nD τ) Set.univ none _ Q

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hpe, Hc, Ho, Hr⟩, -, Hprng⟩, Hgp⟩
  -- the position numbers' constant
  iapply (wp_hlo_within 𝒱 (SparseCore.T d) none Set.univ (op := opC (F := F)) (S := {c'}) (Finset.Subset.refl _) (V := V0 m d)) $$ [Hb Hc]
  · isplitl [Hb]; · iexact Hb
    unfold held; rw [bigSep_singleton]; iexact Hc
  iintro ⟨Hb, Hheld⟩
  ihave Hc := (Entails.of_eq (show (held (SparseCore.T d) {c'} ((opC (F := F)).result (V0 m d)) : sProp 𝕄) = (cLoc d ↦{fullShare} cval (F := F) d) from by
      unfold held; rw [bigSep_singleton]
      exact congrArg (fun f => (cLoc d ↦{fullShare} f : sProp 𝕄)) (StableHlo.nullary_result main_c _ _ (V0 m d)))) $$ Hheld
  rw [wp_ret]; imodintro
  -- the call: each SparseCore half a share of the table, its rows of the position numbers and of the gathered array
  ihave Hpes := (pointsTo_share (PosShare.mem_left_op_right fullShare)).1 $$ Hpe
  icases Hpes with ⟨HpeL, HpeR⟩
  ihave Hc2 := (Entails.of_eq (show (cLoc d ↦{fullShare} cval (F := F) d : sProp 𝕄) = (cLoc d ↦[(cA).view.set ∪ (cB).view.set]{fullShare} cval (F := F) d) from by rw [c_cover])) $$ Hc
  ihave Hcs := (pointsTo_union (ℓ := cLoc d) (q := fullShare) (f := cval (F := F) d) (I := (cA).view.set) (J := (cB).view.set) c_disj).1 $$ Hc2
  icases Hcs with ⟨HcA, HcB⟩
  ihave Ho2 := (Entails.of_eq (show (oLoc d ↦{fullShare} m (oLoc d) : sProp 𝕄) = (oLoc d ↦[(oA).view.set ∪ (oB).view.set]{fullShare} m (oLoc d)) from by rw [o_cover])) $$ Ho
  ihave Hos := (pointsTo_union (ℓ := oLoc d) (q := fullShare) (f := m (oLoc d)) (I := (oA).view.set) (J := (oB).view.set) o_disj).1 $$ Ho2
  icases Hos with ⟨HoA, HoB⟩
  iapply ((K (F := F)).wp_run (D (F := F)) 𝒱 (EH := EH) (P := P m) κ d 0) $$ [Hst HpeL HpeR HcA HcB HoA HoB Hb Hx Hr Hprng Hgp]
  isplitr; · iexact Hctx
  isplitl [Hst]; · iexact Hst
  isplitl [HpeL HpeR HcA HcB HoA HoB]
  · rw [st0_eq, forCore_zero, forCore_one]
    isplitl [HpeL HcA HoA]
    · isplitl [HpeL]; · iexact HpeL
      isplitl [HcA]; · iexact HcA
      iexact HoA
    · isplitl [HpeR]; · iexact HpeR
      isplitl [HcB]; · iexact HcB
      iexact HoB
  iintro ⟨Hst, Hdn⟩
  ihave Hdn' := (Entails.of_eq ((dn0_eq m d).trans (by rw [forCore_zero, forCore_one]))) $$ Hdn
  icases Hdn' with ⟨⟨HpeL, HcA, HoA⟩, ⟨HpeR, HcB, HoB⟩⟩
  ihave Hpe := (pointsTo_share (PosShare.mem_left_op_right fullShare)).2 $$ [HpeL HpeR]; · isplitl [HpeL] <;> iassumption
  ihave Hc2 := (pointsTo_union (ℓ := cLoc d) (q := fullShare) (f := cval (F := F) d) (I := (cA).view.set) (J := (cB).view.set) c_disj).2 $$ [HcA HcB]; · isplitl [HcA] <;> iassumption
  ihave Hc := (Entails.of_eq (show (cLoc d ↦[(cA).view.set ∪ (cB).view.set]{fullShare} cval (F := F) d : sProp 𝕄) = (cLoc d ↦{fullShare} cval (F := F) d) from by rw [c_cover])) $$ Hc2
  ihave Ho2 := (pointsTo_union (ℓ := oLoc d) (q := fullShare) (f := peAsO m d) (I := (oA).view.set) (J := (oB).view.set) o_disj).2 $$ [HoA HoB]; · isplitl [HoA] <;> iassumption
  ihave Ho := (Entails.of_eq (show (oLoc d ↦[(oA).view.set ∪ (oB).view.set]{fullShare} peAsO m d : sProp 𝕄) = (oLoc d ↦{fullShare} peAsO m d) from by rw [o_cover])) $$ Ho2
  -- the addition region
  unfold SparseCore.Cfg.tcSt
  icases Hst with ⟨⟨%W, %hW, HO⟩, Hrest⟩
  ihave HO0 := (Entails.of_eq (congrArg (fun O => (owes (SparseCore.T d) O W : sProp 𝕄)) ((K (F := F)).Otc_end d (n := (0 : Fin 1).val + 1) (le_refl 1)))) $$ HO
  ihave Hlv := (SparseCore.Cfg.ctx_levAts κ) $$ Hctx
  unfold GP
  icases Hgp with ⟨Hg, Ht⟩
  rw [← lift_call (F := F)]
  iapply (lift_wp (F := F) d _)
  iapply (wp_region m d _) $$ [Hb Hx Hpe Hc Ho Hr Hprng HO0 Hg Ht Hrest]
  isplitl [Hrest]
  · iintro ⟨Hb, Hpost⟩
    rw [wp_ret]
    ihave Hpost' := (Entails.of_eq (show (reg m).post d = iprop((xLoc d ↦{fullShare} m (xLoc d)) ∗ (peLoc d ↦{fullShare} m (peLoc d))
      ∗ (rLoc d ↦{fullShare} Cert.Spec.G (m (xLoc d)) (m (peLoc d))) ∗ (∃ r, prngReg d r) ∗ owesTc (F := F) d) from rfl)) $$ Hpost
    icases Hpost' with ⟨Hx, Hpe, Hr, -, %W', %hW', HO⟩
    imodintro; imodintro
    isplitl [HO Hrest]
    · isplitl [HO]
      · iexists W'; isplitr
        · ipureintro; exact hW'
        · iapply (Entails.of_eq (congrArg (fun O => (owes (SparseCore.T d) O W' : sProp 𝕄)) ((K (F := F)).Otc_end d (n := 1) (le_refl 1)).symm)); iexact HO
      · iexact Hrest
    · isplitl [Hx]; · iexact Hx
      isplitl [Hpe]; · iexact Hpe
      iexact Hr
  isplitl [Hb]; · iexact Hb
  isplitl [Hx Hpe Hc Ho Hr Hprng HO0]
  · rw [show (reg m).pre d = iprop(unscopedBufs d (Vr m d) ∗ (∃ r, prngReg d r) ∗ owesTc (F := F) d) from rfl, unscopedBufs_eq, Vr_x, Vr_pe, Vr_c, Vr_o, Vr_r]
    isplitl [Hx Hpe Hc Ho Hr]
    · isplitl [Hx]; · iexact Hx
      isplitl [Hpe]; · iexact Hpe
      isplitl [Hc]; · iexact Hc
      isplitl [Ho]; · iexact Ho
      iexact Hr
    isplitl [Hprng]; · iexists _; iexact Hprng
    iexists W; isplitr
    · ipureintro; exact hW
    · iexact HO0
  isplitr; · iexact Hlv
  isplitl [Hg]; · iexact Hg
  iexact Ht

/-! ### The final memory -/

def fq (d : Dev nD) (s' : Phys nD τ sig (Elt F)) : Prop :=
  s'.mem.mem (rLoc d) = Cert.Spec.G (m (xLoc d)) (m (peLoc d)) ∧ s'.mem.mem (xLoc d) = m (xLoc d) ∧ s'.mem.mem (peLoc d) = m (peLoc d)

set_option maxRecDepth 16384 in
theorem hfin (d : Dev nD) (s' : Phys nD τ sig (Elt F)) : iprop(FIN m d ∗ SI s') ⊢ (⌜fq m d s'⌝ : sProp 𝕄) := by
  iintro ⟨⟨Hx, Hpe, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := peLoc d) (I := Finset.univ) (q := fullShare) (f := m (peLoc d)))) $$ [HSI Hpe]
  · isplitl [HSI] <;> iassumption
  icases H with ⟨%h2, HSI, -⟩
  ihave H := (SI_pointsTo_agree (st := s') (ℓ := rLoc d) (I := Finset.univ) (q := fullShare) (f := Cert.Spec.G (m (xLoc d)) (m (peLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ### The program's run -/

/-- What every final state holds: the result at the sum, the two arguments as launched. -/
def QC : PUnit × MemSt nD τ sig (Elt F) → Prop := fun r => ∀ c : Dev nD,
  r.2.mem (rLoc c) = Cert.Spec.G (m (xLoc c)) (m (peLoc c)) ∧ r.2.mem (xLoc c) = m (xLoc c) ∧ r.2.mem (peLoc c) = m (peLoc c)

theorem valA (d : Dev nD) : ValA (F := F) m d := fun fi fr hn hin i hi =>
  valueA (F := F) d d (cV LA) (jV LA) (m (peLoc d)) (m (oLoc d)) fi fr hn hin i hi
theorem valB (d : Dev nD) : ValB (F := F) m d := fun fi fr hn hin i hi =>
  valueB (F := F) d d (cV LB) (jV LB) (m (peLoc d)) (m (oLoc d)) fi fr hn hin i hi

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (valA m) (valB m))
    (fun q _ => match q with | 0 => SparseCore.Cfg.VecSplit.of_plain (vecSplit m))
    m ρ main (fun d => GP (F := F) d) (FIN m) (u₀ (F := F)) (sep_elim_left.trans (hu₀ m)) (hmain m ρ) (fq m) (hfin m) (QC m) (fun _ h => h)

end Cert.KernelIdeal.Sc

end
-- ==== Proof.RefOps.lean ====
/-
  The reference program's @main as the straight line of its operations, and its run.

  The reference computes the position ids `0 … 199` (an iota), calls the module-local function `_take` on the table and the ids, and
  adds the result, broadcast over the batch, to `x`. `_take` is a module-local function (and calls `_where`, another):
  a call means the callee's body on the call's own buffers, so with the two bodies substituted at their call sites
  @main is one line of twenty-seven operations — the iota; `_take`'s twenty-three (the wrap of negative ids, whose
  select is `_where`'s one operation; the ids as a column; the in-range mask and its reduction; the row gather; the
  select between the gathered rows and a broadcast constant); the two broadcasts and the sum. Every weakly fair
  execution of such a line terminates, and every buffer ends at the fold of the operations' results over the launch
  contents.
-/
import proofs.«202774_g12489764896814_cont_fleet_578_23_alg».proof.ReferenceIdeal
import proofs.«202774_g12489764896814_cont_fleet_578_23_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded: the iota; `_take`'s body over the call's buffers
    (`main_call0`), its one call of `_where` over that call's (`main_call0.call0`); the two broadcasts; the sum. -/
abbrev ops : List (HloOp τ sig (Elt F)) :=
  [ nullary main_v0 (iotaInDim S200 32 0),
    TRef.nullary main_call0.c (constantI S_ 32 0#32),
    TRef.unary main_call0.c main_call0.v0 (broadcastInDim S200 ![] bcast_S_S200),
    TRef.binary (.of main_v0) main_call0.v0 main_call0.v1 (cmpi .slt),
    TRef.nullary main_call0.c_0 (constantI S_ 32 200#32),
    TRef.unary main_call0.c_0 main_call0.v2 (broadcastInDim S200 ![] bcast_S_S200),
    TRef.binary (.of main_v0) main_call0.v2 main_call0.v3 addi,
    TRef.ternary main_call0.v1 main_call0.v3 (.of main_v0) main_call0.call0.v0 select,
    TRef.unary main_call0.call0.v0 main_call0.v5 (broadcastInDim S200x1 ![0] bcast_S200_S200x1_0),
    TRef.nullary main_call0.c_1 (constantI S1 32 199#32),
    TRef.nullary main_call0.c_2 (constantI S_ 32 0#32),
    TRef.unary main_call0.c_2 main_call0.v6 (broadcastInDim S200x1 ![] bcast_S_S200x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S200x1 ![0, 1] bcast_S1x1_S200x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S200x1_S200_d1 h_S_),
    TRef.binary (.of main_arg1) main_call0.v5 main_call0.v13 (fun x i => Host.gather gather_S200x128_S200x1_S200x128_1_0_n_n_0_1_1128 x i),
    TRef.unary main_call0.v12 main_call0.v14 (broadcastInDim S200x128 ![0] bcast_S200_S200x128_0),
    TRef.nullary main_call0.cst (constant S_ .f32 0x7FC00000#32),
    TRef.unary main_call0.cst main_call0.v15 (broadcastInDim S200x128 ![] bcast_S_S200x128),
    TRef.ternary main_call0.v14 main_call0.v13 main_call0.v15 main_call0.v16 select,
    unary main_v1 main_v2 (broadcastInDim S1x200x128 ![1, 2] bcast_S200x128_S1x200x128_1_2 : (⟨S200x128, .f32⟩ : BufTy).Contents (Elt F) → (⟨S1x200x128, .f32⟩ : BufTy).Contents (Elt F)),
    unary main_v2 main_v3 (broadcastInDim S1024x200x128 ![0, 1, 2] bcast_S1x200x128_S1024x200x128_0_1_2 : (⟨S1x200x128, .f32⟩ : BufTy).Contents (Elt F) → (⟨S1024x200x128, .f32⟩ : BufTy).Contents (Elt F)),
    binary main_arg0 main_v3 main_v4 (addf : (⟨S1024x200x128, .f32⟩ : BufTy).Contents (Elt F) → (⟨S1024x200x128, .f32⟩ : BufTy).Contents (Elt F) → (⟨S1024x200x128, .f32⟩ : BufTy).Contents (Elt F)) ]

-- twenty-seven binds re-associated: the rewrite under the chain recurses once per statement
set_option maxRecDepth 1024 in
/-- @main is that straight line: the two functions' definitions unfolded at their calls, both sides are one chain of
    `hlo` steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefOps

end
-- ==== Proof.LibRowGatherScatter.lean ====
/-
  Row gather and row scatter-add, read at an index.

  `x[idx]` for a matrix `x : [N, C]` and an integer column `idx : [E, 1]` takes, for every edge `e`, the row of `x`
  whose number is `idx[e, 0]` read as a signed integer and clamped into `[0, N − 1]` (`node`); the same for a vector
  `x : [N]`. So a gather commutes with every operation that acts row by row: gathering a matrix whose rows were scaled
  by a per-row factor is gathering the matrix and scaling each gathered row by the gathered factor.

  The accumulating scatter of rows `upd : [E, C]` into `x : [N, C]` at `idx : [E, 1]` adds row `e` of the updates to the
  row of `x` whose number is `idx[e, 0]` read signed and NOT clamped; a row number outside `[0, N)` contributes
  nothing. Column by column: entry `(r, c)` of the result is `x (r, c)` plus the sum over the edges `e` that land on
  row `r` of `upd (e, c)`. In this form the column count `C` no longer appears in the condition, so two scatters of
  different widths agree on every column on which their updates agree.
-/
import Idealize.ShloMosaic.PureOps.Ideal
import Idealize.ShloMosaic.PureOps.Ideal.Laws
import Idealize.ShloMosaic.Lib.ValueIdx

noncomputable section

open scoped BigOperators

namespace Cert.RowGatherScatter

open Idealize.ShloMosaic Idealize.ShloMosaic.ValueIdx

/-! ## The row an edge reads -/

/-- The row number edge `e` gathers: `idx[e, 0]` read signed, clamped into `[0, N − 1]`. -/
def node {N E w : Nat} (hN : 0 < N) (idx : IVec ⟨2, ![E, 1]⟩ w) (e : Fin E) : Fin N :=
  ⟨min (idx (ix2 e (0 : Fin 1))).toInt.toNat (N - 1), by omega⟩

/-! ## Gather of the rows of a matrix -/

section Gather
variable {α : Type}

/-- The dimension numbers of `x[idx]` for `x : [N, C]`, `idx : [E, 1]`, result `[E, C]`. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result entry `(e, c)` reads the operand at `(node e, c)`. -/
theorem rowDims_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims N E C wf).operandIdx (ix2 e c) idx = ix2 (node hN idx e) c := by
  funext a
  refine Fin.ext ?_
  match a with
  | ⟨0, _⟩ =>
    show (rowDims N E C wf).start (ix2 e c) idx 0 + (rowDims N E C wf).batchCoord (ix2 e c) 0 + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1 + (rowDims N E C wf).offCoord (ix2 e c) 1 = _
    rw [GatherDims.batchCoord_eq_zero _ _ _ List.not_mem_nil]
    have hs : (rowDims N E C wf).start (ix2 e c) idx 1 = 0 := by
      unfold GatherDims.start
      rw [dif_neg (fun h => Nat.one_ne_zero (congrArg Fin.val (List.mem_singleton.mp h)))]
    rw [hs]
    simp only [Nat.add_zero, Nat.zero_add]
    rfl

/-- THE ROW GATHER READ AT `(e, c)`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (node hN idx e) c) := by
  unfold Host.gather
  exact congrArg x (rowDims_operandIdx hN wf idx e c)

/-- The dimension numbers of `x[idx]` for a vector `x : [N]`, `idx : [E, 1]`, result `[E]`. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `node e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (node hN idx e)) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatter of rows -/

/-- The dimension numbers of `x.at[idx].add(upd)` for `x : [N, C]`, `idx : [E, 1]`, `upd : [E, C]`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update entry `(e, c')` lands on `(r, c)` exactly when edge `e`'s row number is `r` and `c' = c`. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatter N E C wf).resultIdx? (ix2 e c') idx = some (ix2 r c) ↔
      (idx (ix2 e (0 : Fin 1))).toInt = (r.val : Int) ∧ c' = c := by
  have hs0 : (rowScatter N E C wf).start (ix2 e c') idx 0 = (idx (ix2 e (0 : Fin 1))).toInt := by
    unfold ScatterDims.start
    rw [dif_pos (show (0 : Fin 2) ∈ (rowScatter N E C wf).scatterDimsToOperandDims from List.mem_singleton.mpr rfl)]
    have hsi : (rowScatter N E C wf).siIdx (ix2 e c') ⟨List.idxOf (0 : Fin 2) (rowScatter N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N E C wf).start (ix2 e c') idx 1 = 0 := by
    unfold ScatterDims.start
    rw [dif_neg (fun h => Nat.one_ne_zero (congrArg Fin.val (List.mem_singleton.mp h)))]
  have hk0 : (0 : Fin 2) ∉ (rowScatter N E C wf).sKept := by
    simp [ScatterDims.sKept, Shape.kept, List.mem_filter, List.mem_finRange]
  have hk1 : (1 : Fin 2) ∈ (rowScatter N E C wf).sKept := by
    simp [ScatterDims.sKept, Shape.kept, List.mem_filter, List.mem_finRange]
  have hw0 : (rowScatter N E C wf).window (ix2 e c') 0 = 0 := by
    unfold ScatterDims.window
    rw [dif_neg hk0]
  have hw1 : (rowScatter N E C wf).window (ix2 e c') 1 = c'.val := by
    unfold ScatterDims.window
    rw [dif_pos hk1]
    rfl
  have hc' : c'.val < C := c'.isLt
  have hr : r.val < N := r.isLt
  unfold ScatterDims.resultIdx?
  constructor
  · intro h
    split at h
    · rename_i hin
      have hf := Option.some.inj h
      have h0 : ((rowScatter N E C wf).start (ix2 e c') idx 0 + (rowScatter N E C wf).window (ix2 e c') 0).toNat = r.val :=
        congrArg (fun f : (⟨2, ![N, C]⟩ : Shape).Idx => (f 0).val) hf
      have h1 : ((rowScatter N E C wf).start (ix2 e c') idx 1 + (rowScatter N E C wf).window (ix2 e c') 1).toNat = c.val :=
        congrArg (fun f : (⟨2, ![N, C]⟩ : Shape).Idx => (f 1).val) hf
      have hin0 := (hin 0).1
      rw [hs0, hw0] at h0 hin0
      rw [hs1, hw1] at h1
      refine ⟨by omega, Fin.ext (by omega)⟩
    · exact absurd h (by simp)
  · rintro ⟨h0, rfl⟩
    have hin : ∀ a, 0 ≤ (rowScatter N E C wf).start (ix2 e c') idx a + (rowScatter N E C wf).window (ix2 e c') a ∧
        (rowScatter N E C wf).start (ix2 e c') idx a + (rowScatter N E C wf).window (ix2 e c') a < (⟨2, ![N, C]⟩ : Shape).size a := by
      intro a
      match a with
      | ⟨0, _⟩ =>
        show 0 ≤ (rowScatter N E C wf).start (ix2 e c') idx 0 + (rowScatter N E C wf).window (ix2 e c') 0 ∧
          (rowScatter N E C wf).start (ix2 e c') idx 0 + (rowScatter N E C wf).window (ix2 e c') 0 < (N : Int)
        rw [hs0, hw0, h0]; omega
      | ⟨1, _⟩ =>
        show 0 ≤ (rowScatter N E C wf).start (ix2 e c') idx 1 + (rowScatter N E C wf).window (ix2 e c') 1 ∧
          (rowScatter N E C wf).start (ix2 e c') idx 1 + (rowScatter N E C wf).window (ix2 e c') 1 < (C : Int)
        rw [hs1, hw1]; omega
    rw [dif_pos hin]
    congr 1
    funext a
    refine Fin.ext ?_
    match a with
    | ⟨0, _⟩ =>
      show ((rowScatter N E C wf).start (ix2 e c') idx 0 + (rowScatter N E C wf).window (ix2 e c') 0).toNat = r.val
      rw [hs0, hw0, h0]; omega
    | ⟨1, _⟩ =>
      show ((rowScatter N E C wf).start (ix2 e c') idx 1 + (rowScatter N E C wf).window (ix2 e c') 1).toNat = c'.val
      rw [hs1, hw1]; omega

/-- THE ROW SCATTER-ADD READ AT `(r, c)`: the operand's entry plus the sum, over the edges whose row number is `r`, of
    the update's entry in column `c`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatter N E C wf) x idx upd (ix2 r c) =
      x (ix2 r c) + ∑ e : Fin E, if (idx (ix2 e (0 : Fin 1))).toInt = (r.val : Int) then upd (ix2 e c) else 0 := by
  unfold Ideal.hostScatterAdd
  congr 1
  rw [Finset.sum_filter, sum_idx2]
  refine Finset.sum_congr rfl fun e _ => ?_
  by_cases he : (idx (ix2 e (0 : Fin 1))).toInt = (r.val : Int)
  · rw [if_pos he]
    refine (Finset.sum_eq_single c ?_ ?_).trans ?_
    · intro c' _ hc
      exact if_neg (fun h => hc ((rowScatter_resultIdx_iff wf idx e c' r c).mp h).2)
    · intro h
      exact absurd (Finset.mem_univ _) h
    · exact if_pos ((rowScatter_resultIdx_iff wf idx e c r c).mpr ⟨he, rfl⟩)
  · rw [if_neg he]
    exact Finset.sum_eq_zero fun c' _ => if_neg (fun h => he ((rowScatter_resultIdx_iff wf idx e c' r c).mp h).1)

end Cert.RowGatherScatter

end
-- ==== Proof.LibTakeRows.lean ====
/-
  General lemmas: the row gather read at an index, and `jnp.take`'s wrapper at an in-range index.

  `jnp.take(x, idx, axis=0)` of a matrix `x : [N, D]` at an integer array `idx : [R, C]` lowers to `stablehlo.gather`
  with offset_dims `[2]`, collapsed_slice_dims `[0]`, start_index_map `[0]`, index_vector_dim `2` and slice_sizes
  `[1, D]` over the indices as `[R, C, 1]`. Result element `(t, j, c)` is `x` at row `idx[t, j, 0]` — read as a
  signed integer and clamped into `[0, N − 1]`, as StableHLO's gather clamps every start index — and column `c`:
  on the row axis the operand index is the clamped start (no batching, no offset: the axis is collapsed), on the
  column axis the start is `0` and the offset is the result's last coordinate.
-/
import Idealize.ShloMosaic.Lib.ValueIdx
import Idealize.ShloMosaic.Lib.Affine
import Idealize.ShloMosaic.PureOps.Reduce

noncomputable section

namespace Cert.Lib.TakeRows

open Idealize.ShloMosaic Idealize.ShloMosaic.ValueIdx

variable {α : Type}

/-- The dimension numbers of a row gather for an operand `[N, D]`, start indices `[R, C, 1]` and result
    `[R, C, D]`; their conditions `wf` are decided on a program's literal shapes. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The start-indices index `[t, j, 0]` of result index `(t, j, c)`. -/
abbrev rowIdx {R C D : Nat} (y : (⟨3, ![R, C, D]⟩ : Shape).Idx) : (⟨3, ![R, C, 1]⟩ : Shape).Idx :=
  fun a => match a with | ⟨0, _⟩ => ⟨(y 0).val, idx3_lt0 y⟩ | ⟨1, _⟩ => ⟨(y 1).val, idx3_lt1 y⟩ | ⟨2, _⟩ => ⟨0, Nat.one_pos⟩

/-- THE ROW GATHER READ AT `(t, j, c)`: the operand at row `idx[t, j, 0]`, read signed and clamped into
    `[0, N − 1]`, and column `c`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowsDims N D R C wf) x idx y
      = x (ix2 ⟨min (idx (rowIdx y)).toInt.toNat (N - 1), by omega⟩ ⟨(y 2).val, idx3_lt2 y⟩) := by
  unfold Host.gather
  congr 1
  funext a
  refine Fin.ext ?_
  match a with
  | ⟨0, _⟩ =>
    show (rowsDims N D R C wf).start y idx 0 + (rowsDims N D R C wf).batchCoord y 0 + (rowsDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx y ⟨List.idxOf (0 : Fin 2) (rowsDims N D R C wf).startIndexMap,
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
    rw [hsi]
    rfl
  | ⟨1, _⟩ =>
    show (rowsDims N D R C wf).start y idx 1 + (rowsDims N D R C wf).batchCoord y 1 + (rowsDims N D R C wf).offCoord y 1 = (y 2).val
    have hs : (rowsDims N D R C wf).start y idx 1 = 0 := by
      unfold GatherDims.start
      rw [dif_neg (show (1 : Fin 2) ∉ ([0] : List (Fin 2)) from by decide)]
    have hk : (1 : Fin 2) ∈ (rowsDims N D R C wf).sKept :=
      (GatherDims.mem_sKept _ _).mpr ⟨show (1 : Fin 2) ∉ ([0] : List (Fin 2)) from by decide, List.not_mem_nil⟩
    rw [hs, GatherDims.batchCoord_eq_zero _ _ _ List.not_mem_nil, Nat.zero_add]
    unfold GatherDims.offCoord
    rw [dif_pos hk]
    rfl

/-! ## The wrapper at an in-range index -/

/-- The wrap of a negative index leaves a non-negative one alone. -/
theorem wrap_select_of_nonneg {w : Nat} (a n : BitVec w) (h : 0 ≤ a.toInt) :
    Scalar.select (IntOp.cmpi .slt a 0#w) (IntOp.addi a n) a = a := by
  have hne : IntOp.cmpi .slt a 0#w ≠ 1#1 := fun e => by
    have := IntOp.cmpi_slt.1 e
    rw [BitVec.toInt_zero] at this
    omega
  unfold Scalar.select
  exact if_neg hne

/-- The range mask `lo ≤ a ∧ a ≤ hi` (signed) is 1 at an index in range. -/
theorem range_mask_one {w : Nat} (a lo hi : BitVec w) (h0 : lo.toInt ≤ a.toInt) (h1 : a.toInt ≤ hi.toInt) :
    IntOp.andi (IntOp.cmpi .sge a lo) (IntOp.cmpi .sle a hi) = 1#1 :=
  IntOp.andi_eq_one.2 ⟨IntOp.cmpi_sge.2 h0, IntOp.cmpi_sle.2 h1⟩

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hf =>
    foldl_andi_of_all f l _ (IntOp.andi_eq_one.2 ⟨h, hf a (List.mem_cons_self ..)⟩) (fun n hn => hf n (List.mem_cons_of_mem _ hn))

/-- A `stablehlo.reduce` by `and` from the initial value 1 of an array of ones is 1 at every index. -/
theorem reduce_andi_of_all {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl]
  exact foldl_andi_of_all x _ _ hi (fun n _ => hx n)

end Cert.Lib.TakeRows

end
-- ==== Proof.RefValue.lean ====
/-
  The value the reference's operations compose to, and that it is the specification.

  From the table `pe : [200, 128]` the reference takes the rows numbered by the position ids `0 … 199`: the ids, wrapped
  where negative (`id + 200`), as a column `[200, 1]`; the row gather at that column, which reads each id signed and
  clamped into `[0, 199]`; and a select that keeps a gathered row where its id lies in `[0, 199]` and puts a constant
  elsewhere. An id `l` below 200 is non-negative, so the wrap leaves it alone, the clamp leaves it alone, and the mask is
  one: row `l` of what is taken is row `l` of the table, and the constant is never read. Broadcast over the batch and
  added to `x`, that is entry `(b, l, d) ↦ x (b, l, d) + pe (l, d)`.
-/
import proofs.«202774_g12489764896814_cont_fleet_578_23_alg».proof.ReferenceIdeal
import proofs.«202774_g12489764896814_cont_fleet_578_23_alg».proof.Proof.Gen.ReferenceIdeal
import proofs.«202774_g12489764896814_cont_fleet_578_23_alg».proof.Proof.Spec
import proofs.«202774_g12489764896814_cont_fleet_578_23_alg».proof.Proof.LibRowGatherScatter
import proofs.«202774_g12489764896814_cont_fleet_578_23_alg».proof.Proof.LibTakeRows
import Idealize.ShloMosaic.Lib.Pipeline.Value
import Idealize.ShloMosaic.Lib.IdealHost
import Idealize.ShloMosaic.Lib.ValueLayout

noncomputable section

namespace Cert.ReferenceIdeal.RefValue

open Cert.ReferenceIdeal Cert.ReferenceIdeal.Gen Idealize.ShloMosaic Idealize.ShloMosaic.ValueIdx

variable {F : FTy → Type} [FloatOps F]

/-! ## The stages -/

/-- The position ids `0 … 199`. -/
def ids : IVec S200 32 := iotaInDim S200 32 0

/-- The ids with the negative ones wrapped: `id + 200` where `id < 0`, else `id`. -/
def wrapped : IVec S200 32 :=
  select (cmpi .slt ids (broadcastInDim S200 ![] bcast_S_S200 (constantI S_ 32 0#32)))
    (addi ids (broadcastInDim S200 ![] bcast_S_S200 (constantI S_ 32 200#32))) ids

/-- The wrapped ids as a column. -/
def col : IVec S200x1 32 := broadcastInDim S200x1 ![0] bcast_S200_S200x1_0 wrapped

/-- Per id, whether it lies in `[0, 199]`: the two comparisons' conjunction, reduced by `and` along the unit axis. -/
def mask : IVec S200 1 :=
  Host.reduce IntOp.andi
    (andi (cmpi .sge col (broadcastInDim S200x1 ![] bcast_S_S200x1 (constantI S_ 32 0#32)))
      (cmpi .sle col (broadcastInDim S200x1 ![0, 1] bcast_S1x1_S200x1_0_1
        (broadcastInDim S1x1 ![1] bcast_S1_S1x1_1 (constantI S1 32 199#32)))))
    (constantI S_ 1 1#1) reducesTo_S200x1_S200_d1 h_S_

/-- The rows taken: the row gather at the column where the mask is one, a constant elsewhere. -/
def taken (pe : FVec F S200x128 .f32) : FVec F S200x128 .f32 :=
  select (broadcastInDim S200x128 ![0] bcast_S200_S200x128_0 mask)
    (Host.gather gather_S200x128_S200x1_S200x128_1_0_n_n_0_1_1128 pe col)
    (broadcastInDim S200x128 ![] bcast_S_S200x128 (constant S_ .f32 0x7FC00000#32))

/-- The reference's result: `x` plus the rows taken, broadcast over the batch. -/
def out (x : FVec F S1024x200x128 .f32) (pe : FVec F S200x128 .f32) : FVec F S1024x200x128 .f32 :=
  addf x (broadcastInDim S1024x200x128 ![0, 1, 2] bcast_S1x200x128_S1024x200x128_0_1_2
    (broadcastInDim S1x200x128 ![1, 2] bcast_S200x128_S1x200x128_1_2 (taken pe)))

/-! ## The ids at an index -/

/-- A number below 200 as a 32-bit word, read signed, is itself. -/
theorem toInt_ofNat_lt (l : Nat) (h : l < 200) : (BitVec.ofNat 32 l).toInt = (l : Int) := by
  rw [BitVec.toInt_eq_toNat_cond, BitVec.toNat_ofNat, Nat.mod_eq_of_lt (by omega)]
  split <;> omega

/-- The wrap leaves id `l` alone: it is not negative. -/
theorem wrapped_apply (l : Fin 200) : wrapped (ix1 l) = BitVec.ofNat 32 l.val := by
  show Scalar.select (IntOp.cmpi .slt (BitVec.ofNat 32 l.val) 0#32) (IntOp.addi (BitVec.ofNat 32 l.val) 200#32) (BitVec.ofNat 32 l.val) = _
  exact Cert.Lib.TakeRows.wrap_select_of_nonneg _ _ (by rw [toInt_ofNat_lt l.val l.isLt]; omega)

theorem idx2_lt0' (i : S200x1.Idx) : (i 0).val < 200 := (i 0).isLt

/-- The column at `(l, 0)` is the word `l`. -/
theorem col_apply (i : S200x1.Idx) : col i = BitVec.ofNat 32 (i 0).val := by
  unfold col
  refine (broadcastInDim_apply ![0] bcast_S200_S200x1_0 wrapped i (ix1 (⟨(i 0).val, idx2_lt0' i⟩ : Fin 200))
    (fun a => match a with | ⟨0, _⟩ => rfl)).trans ?_
  exact wrapped_apply _

/-- Every id is in range: the mask is one. -/
theorem mask_apply (j : S200.Idx) : mask j = 1#1 := by
  unfold mask
  refine Cert.Lib.TakeRows.reduce_andi_of_all _ _ _ _ rfl (fun i => ?_) j
  show IntOp.andi (IntOp.cmpi .sge (col i) 0#32) (IntOp.cmpi .sle (col i) 199#32) = 1#1
  rw [col_apply]
  have h := idx2_lt0' i
  refine Cert.Lib.TakeRows.range_mask_one _ _ _ ?_ ?_
  · rw [toInt_ofNat_lt _ h]; show (0#32).toInt ≤ _; rw [BitVec.toInt_zero]; omega
  · rw [toInt_ofNat_lt _ h, show (199#32 : BitVec 32).toInt = 199 from by decide]; omega

/-- The row that position `l` gathers is row `l`: the clamp leaves it alone. -/
theorem node_col (l : Fin 200) : Cert.RowGatherScatter.node (N := 200) (by omega) col l = l := by
  refine Fin.ext ?_
  show min (col (ix2 l (0 : Fin 1))).toInt.toNat (200 - 1) = l.val
  rw [col_apply, toInt_ofNat_lt _ l.isLt]
  have := l.isLt
  show min ((l.val : Int)).toNat (200 - 1) = l.val
  rw [Int.toNat_natCast]; omega

/-- What is taken at `(l, d)` is the table at `(l, d)`. -/
theorem taken_apply (pe : FVec F S200x128 .f32) (l : Fin 200) (d : Fin 128) : taken pe (ix2 l d) = pe (ix2 l d) := by
  unfold taken
  rw [select_apply]
  have hm : broadcastInDim S200x128 ![0] bcast_S200_S200x128_0 mask (ix2 l d) = 1#1 :=
    (broadcastInDim_apply ![0] bcast_S200_S200x128_0 mask (ix2 l d) (ix1 l) (fun a => match a with | ⟨0, _⟩ => rfl)).trans (mask_apply _)
  rw [hm, select_one]
  refine (Cert.RowGatherScatter.gather_rows_apply (N := 200) (E := 200) (C := 128) (by omega)
    gather_S200x128_S200x1_S200x128_1_0_n_n_0_1_1128_wf pe col l d).trans ?_
  rw [node_col]

/-! ## The reference is the specification -/

/-- The reference's composed value is the shared specification. -/
theorem ref_eq (x : FVec F S1024x200x128 .f32) (pe : FVec F S200x128 .f32) : out x pe = Cert.Spec.G x pe := by
  funext i
  rw [Cert.Spec.G_apply]
  show FloatOps.addf (x i) _ = _
  refine congrArg (FloatOps.addf (x i)) ?_
  refine (broadcastInDim_apply ![0, 1, 2] bcast_S1x200x128_S1024x200x128_0_1_2 _ i
    (ix3 (0 : Fin 1) (⟨(i 1).val, Cert.Spec.lt1 i⟩ : Fin 200) (⟨(i 2).val, Cert.Spec.lt2 i⟩ : Fin 128))
    (fun a => match a with | ⟨0, _⟩ => rfl | ⟨1, _⟩ => rfl | ⟨2, _⟩ => rfl)).trans ?_
  refine (broadcastInDim_apply ![1, 2] bcast_S200x128_S1x200x128_1_2 _ _
    (ix2 (⟨(i 1).val, Cert.Spec.lt1 i⟩ : Fin 200) (⟨(i 2).val, Cert.Spec.lt2 i⟩ : Fin 128))
    (fun a => match a with | ⟨0, _⟩ => rfl | ⟨1, _⟩ => rfl)).trans ?_
  exact taken_apply pe _ _

end Cert.ReferenceIdeal.RefValue

end
-- ==== Proof.RefRun.lean ====
/-
  The reference's run, read back: its result is the specification of the two arguments, and the arguments end unchanged.

  The run of the straight line leaves every buffer at the fold of the operations' results over the launch contents.
  At the result buffer that fold is the composed value `out` of the two arguments' contents — each operation's result
  at its own buffer is its function of its operands' contents, and no other operation writes that buffer —, which is
  the specification `G`; at an argument buffer, which no operation writes, it is the launch contents.
-/
import proofs.«202774_g12489764896814_cont_fleet_578_23_alg».proof.Defs
import proofs.«202774_g12489764896814_cont_fleet_578_23_alg».proof.Proof.Gen.Pre_finite_inputs
import proofs.«202774_g12489764896814_cont_fleet_578_23_alg».proof.Proof.RefOps
import proofs.«202774_g12489764896814_cont_fleet_578_23_alg».proof.Proof.RefValue

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefValue

variable {F : FTy → Type} [FloatOps F]

attribute [local irreducible] Host.reduce Host.gather in
/-- The fold at the result buffer is the composed value of the two arguments' contents. The reduction and the gather
    are kept folded meanwhile: the equation never looks inside them. -/
theorem out_eq (V : Valuation τ sig (Elt F)) :
    after ops V (main_v4 : DevRef τ sig) = out (V (main_arg0 : DevRef τ sig)) (V (main_arg1 : DevRef τ sig)) := by
  after_results_simp
  rfl

/-- No operation writes the first argument. -/
theorem arg0_eq (V : Valuation τ sig (Elt F)) : after ops V (main_arg0 : DevRef τ sig) = V (main_arg0 : DevRef τ sig) := by
  after_results_simp

/-- No operation writes the second argument. -/
theorem arg1_eq (V : Valuation τ sig (Elt F)) : after ops V (main_arg1 : DevRef τ sig) = V (main_arg1 : DevRef τ sig) := by
  after_results_simp

/-- At the ideal instance, from any memory with zero counters: every weakly fair execution of the reference terminates
    with its result at the specification of the two arguments' launch contents, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v4) = Cert.Spec.G (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono (fun _ h c =>
      ⟨((h c main_v4).trans (out_eq _)).trans (ref_eq _ _),
        (h c main_arg0).trans (arg0_eq _),
        (h c main_arg1).trans (arg1_eq _)⟩)
    (run_main m ρ)

/-- The reference runs and leaves its arguments unchanged. -/
theorem frame : Cert.frame_ReferenceIdeal :=
  fun m ρ _ => (θ_run _ _ _).mono (fun _ h c => (h c).2) (run m ρ)

end Cert.ReferenceIdeal.RefRun

end
-- ==== Proof.lean ====
/-
  The certificate's five claims.

  Both programs compute, at entry `(b, l, d)`, `x (b, l, d) + pe (l, d)`: the kernel gathers the table's rows at the
  position numbers 0, 1, …, 199 — every row, in order — on the SparseCores and adds the gathered array to every
  sequence of the batch on the TensorCore; the reference takes the same rows on the host (every index in range, so
  its wrap and its mask do nothing) and adds. The kernel's runs — at the word level and at the exact reals — end
  with the arguments unchanged; the idealization rewrote nothing; and at the exact reals the two results are one
  function of the arguments.
-/
import proofs.«202774_g12489764896814_cont_fleet_578_23_alg».proof.Defs
import proofs.«202774_g12489764896814_cont_fleet_578_23_alg».proof.Proof.Gen.Kernel
import proofs.«202774_g12489764896814_cont_fleet_578_23_alg».proof.Proof.Gen.KernelIdeal
import proofs.«202774_g12489764896814_cont_fleet_578_23_alg».proof.Proof.Gen.ReferenceIdeal
import proofs.«202774_g12489764896814_cont_fleet_578_23_alg».proof.Proof.Gen.Pre_finite_inputs
import proofs.«202774_g12489764896814_cont_fleet_578_23_alg».proof.Proof.ScMain
import proofs.«202774_g12489764896814_cont_fleet_578_23_alg».proof.Proof.ScMainI
import proofs.«202774_g12489764896814_cont_fleet_578_23_alg».proof.Proof.RefRun
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ =>
  (θ_run Cert.Kernel.defs _ _).mono (fun _ h c => ⟨(h c).2.1, (h c).2.2⟩) (Cert.Kernel.Sc.run_main (F := Bits) m ρ)

/-- So does the kernel read at the exact reals. -/
theorem frame_ki : Cert.frame_KernelIdeal := fun m ρ _ =>
  (θ_run Cert.KernelIdeal.defs _ _).mono (fun _ h c => ⟨(h c).2.1, (h c).2.2⟩) (Cert.KernelIdeal.Sc.run_main (F := Ideal) m ρ)

/-- At the exact reals the kernel's result and the reference's are both `x + pe` broadcast over the batch, of
    arguments that agree. -/
theorem algebraic : Cert.algebraic_KernelIdeal_ReferenceIdeal := by
  intro m ρ m' ρ' _ hagree
  refine ⟨fun c => Cert.Spec.G (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1, (h c).2.1, (h c).2.2⟩) (Cert.KernelIdeal.Sc.run_main (F := Ideal) m ρ)
  · refine (θ_run Cert.ReferenceIdeal.defs _ _).mono (fun _ h c => ⟨(h c).1.trans ?_, (h c).2.1, (h c).2.2⟩) (Cert.ReferenceIdeal.RefRun.run m' ρ')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefRun.frame, trivial, algebraic⟩

end Cert.Proof

end
